-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 123
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S640000, .f32⟩
  | .hbm, ⟨18, _⟩ => ⟨S_, .f32⟩
  | .hbm, ⟨19, _⟩ => ⟨S50000, .f32⟩
  | .hbm, ⟨20, _⟩ => ⟨S640000x1, .i32⟩
  | .hbm, ⟨21, _⟩ => ⟨S50000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S50000x128, .f32⟩
  | .hbm, ⟨33, _⟩ => ⟨S640000x1, .i32⟩
  | .hbm, ⟨34, _⟩ => ⟨S50000x128, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S50000, .f32⟩
  | .hbm, ⟨60, _⟩ => ⟨S640000x1, .i32⟩
  | .hbm, ⟨61, _⟩ => ⟨S50000, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S_, .f32⟩
  | .hbm, ⟨72, _⟩ => ⟨S50000x128, .f32⟩
  | .hbm, ⟨73, _⟩ => ⟨S640000x1, .i32⟩
  | .hbm, ⟨74, _⟩ => ⟨S50000x128, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S50000x128, .f32⟩
  | .hbm, ⟨96, _⟩ => ⟨S_, .f32⟩
  | .hbm, ⟨97, _⟩ => ⟨S640000, .f32⟩
  | .hbm, ⟨98, _⟩ => ⟨S_, .f32⟩
  | .hbm, ⟨99, _⟩ => ⟨S50000, .f32⟩
  | .hbm, ⟨100, _⟩ => ⟨S640000x1, .i32⟩
  | .hbm, ⟨101, _⟩ => ⟨S50000, .f32⟩
  | .hbm, ⟨102, _⟩ => ⟨S_, .i32⟩
  | .hbm, ⟨103, _⟩ => ⟨S640000, .i32⟩
  | .hbm, ⟨104, _⟩ => ⟨S640000, .i1⟩
  | .hbm, ⟨105, _⟩ => ⟨S_, .i32⟩
  | .hbm, ⟨106, _⟩ => ⟨S640000, .i32⟩
  | .hbm, ⟨107, _⟩ => ⟨S640000, .i32⟩
  | .hbm, ⟨108, _⟩ => ⟨S640000, .i32⟩
  | .hbm, ⟨109, _⟩ => ⟨S640000x1, .i32⟩
  | .hbm, ⟨110, _⟩ => ⟨S640000x128, .f32⟩
  | .hbm, ⟨111, _⟩ => ⟨S_, .f32⟩
  | .hbm, ⟨112, _⟩ => ⟨S50000x128, .f32⟩
  | .hbm, ⟨113, _⟩ => ⟨S640000x1, .i32⟩
  | .hbm, ⟨114, _⟩ => ⟨S50000x128, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S1x64, .f32⟩
  | .hbm, ⟨122, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S128x64, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v20_2 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_8 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50_0 : Ref sig .tc := ⟨.hbm, 82, rfl⟩
abbrev main_v50_1 : Ref sig .tc := ⟨.hbm, 83, rfl⟩
abbrev main_v50_2 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x64, .f32⟩
  | 10 => ⟨S128x64, .f32⟩
  | 11 => ⟨S64, .f32⟩
  | 12 => ⟨S128, .f32⟩
  | 13 => ⟨S128, .f32⟩
  | 14 => ⟨S128, .f32⟩
  | 15 => ⟨S128, .f32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S_, .f32⟩
  | 32 => ⟨S50000x128, .f32⟩
  | 33 => ⟨S640000x1, .i32⟩
  | 34 => ⟨S50000x128, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S640000, .f32⟩
  | 82 => ⟨S_, .f32⟩
  | 83 => ⟨S50000, .f32⟩
  | 84 => ⟨S640000x1, .i32⟩
  | 85 => ⟨S50000, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S_, .f32⟩
  | 96 => ⟨S50000x128, .f32⟩
  | 97 => ⟨S640000x1, .i32⟩
  | 98 => ⟨S50000x128, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S_, .f32⟩
  | 32 => ⟨S50000x128, .f32⟩
  | 33 => ⟨S640000x1, .i32⟩
  | 34 => ⟨S50000x128, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call0_cst : Ref sig .tc := ⟨.hbm, 77, rfl⟩
abbrev main_call0_v0 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call1_cst : Ref sig .tc := ⟨.hbm, 141, rfl⟩
abbrev main_call1_v0 : Ref sig .tc := ⟨.hbm, 142, rfl⟩
abbrev main_v101 : Ref sig .tc := ⟨.hbm, 143, rfl⟩
abbrev main_cst_20 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_22 : Ref sig .tc := ⟨.hbm, 150, rfl⟩
abbrev main_v106 : Ref sig .tc := ⟨.hbm, 151, rfl⟩
abbrev main_v107 : Ref sig .tc := ⟨.hbm, 152, rfl⟩
abbrev main_c_23 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_24 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_25 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The layers of the graph network as functions of matrices over the extended reals, index by index.

  A matrix is a function of a row and a column; a row vector a function of a column. One layer before its
  normalisation sends node features `h` and neighbourhood means `a` to `h · Ws + a · Wn + b`. The normalisation
  subtracts each column's mean, scales by the inverse square root of the column's variance plus a small constant,
  applies the learned scale and shift, and clips below at zero. The variance of a column appears twice: as the mean
  of the squares minus the square of the mean, and as the mean of the squared deviations from the mean.
-/
import Idealize.ShloMosaic.PureOps.Ideal
import Idealize.ShloMosaic.Lib.ValueIdx

noncomputable section

namespace Cert.Sage

open Idealize.ShloMosaic Idealize.ShloMosaic.ValueIdx

/-- A matrix with `A` rows and `B` columns. -/
abbrev Mat (A B : Nat) := Fin A → Fin B → EReal
/-- A row vector with `B` entries. -/
abbrev Row (B : Nat) := Fin B → EReal

/-- A matrix as an array over the literal two-axis shape. -/
def arr2 {A B : Nat} (f : Mat A B) : (⟨2, ![A, B]⟩ : Shape).Idx → EReal := fun i => f (i 0) (i 1)
/-- An array over a literal two-axis shape as a matrix. -/
def fn2 {A B : Nat} (x : (⟨2, ![A, B]⟩ : Shape).Idx → EReal) : Mat A B := fun p q => x (ix2 p q)
/-- The one row of an array with a leading axis of extent one. -/
def row1 {B : Nat} (x : (⟨2, ![1, B]⟩ : Shape).Idx → EReal) : Row B := fun q => x (ix2 0 q)
/-- A row vector as an array with a leading axis of extent one. -/
def arrRow {B : Nat} (r : Row B) : (⟨2, ![1, B]⟩ : Shape).Idx → EReal := fun i => r (i 1)
/-- An array over a literal one-axis shape as a row vector. -/
def fn1 {B : Nat} (x : (⟨1, ![B]⟩ : Shape).Idx → EReal) : Row B := fun q => x (ix1 q)

theorem arr2_fn2 {A B : Nat} (x : (⟨2, ![A, B]⟩ : Shape).Idx → EReal) : arr2 (fn2 x) = x := by
  funext i; exact congrArg x (eq_ix2 i).symm
theorem fn2_arr2 {A B : Nat} (f : Mat A B) : fn2 (arr2 f) = f := rfl
theorem arr2_apply {A B : Nat} (f : Mat A B) (p : Fin A) (q : Fin B) : arr2 f (ix2 p q) = f p q := rfl
theorem row1_arrRow {B : Nat} (r : Row B) : row1 (arrRow r) = r := rfl
theorem arrRow_apply {B : Nat} (r : Row B) (p : Fin 1) (q : Fin B) : arrRow r (ix2 p q) = r q := rfl

/-- The zero word, the small constant under the square root, and the number of nodes, as the programs spell them. -/
abbrev zeroW : EReal := Ideal.ofBits .f32 0x00000000#32
abbrev epsW : EReal := Ideal.ofBits .f32 0x3727C5AC#32
abbrev nodesW : EReal := Ideal.ofBits .f32 0x47435000#32

/-- One layer before normalisation: `h · Ws + a · Wn + b`. -/
def conv {N K M : Nat} (h a : Mat N K) (Ws Wn : Mat K M) (b : Row M) : Mat N M :=
  fun p q => ((∑ k : Fin K, h p k * Ws k q) + (∑ k : Fin K, a p k * Wn k q)) + b q

/-- The sum of each column. -/
def colSum {N M : Nat} (z : Mat N M) : Row M := fun q => ∑ p : Fin N, z p q
/-- The sum of the squares of each column. -/
def colSumSq {N M : Nat} (z : Mat N M) : Row M := fun q => ∑ p : Fin N, z p q * z p q

/-- A column sum divided by the number of nodes. -/
def meanOf {M : Nat} (s : Row M) : Row M := fun q => Ideal.div (s q) nodesW
/-- The variance as the mean of the squares minus the square of the mean. -/
def varOfSums {M : Nat} (s ss : Row M) : Row M := fun q => meanOf ss q - meanOf s q * meanOf s q
/-- The variance as the mean of the squared deviations from the mean. -/
def varOfDev {N M : Nat} (z : Mat N M) (mu : Row M) : Row M :=
  fun q => Ideal.div (∑ p : Fin N, (z p q - mu q) * (z p q - mu q)) nodesW

/-- Normalise by a given mean and variance, scale, shift, clip at zero. -/
def normRelu {N M : Nat} (z : Mat N M) (mu var g be : Row M) : Mat N M :=
  fun p q => max ((((z p q - mu q) * Ideal.rsqrt (var q + epsW)) * g q) + be q) zeroW

/-- One normalised layer, the variance taken as the mean of the squares minus the square of the mean
    (`agg` is the neighbourhood mean, a function of the node features). -/
def layerSums {N K M : Nat} (agg : Mat N K → Mat N K) (h : Mat N K) (Ws Wn : Mat K M) (b g be : Row M) : Mat N M :=
  normRelu (conv h (agg h) Ws Wn b) (meanOf (colSum (conv h (agg h) Ws Wn b)))
    (varOfSums (colSum (conv h (agg h) Ws Wn b)) (colSumSq (conv h (agg h) Ws Wn b))) g be

/-- One normalised layer, the variance taken as the mean of the squared deviations from the mean. -/
def layerDev {N K M : Nat} (agg : Mat N K → Mat N K) (h : Mat N K) (Ws Wn : Mat K M) (b g be : Row M) : Mat N M :=
  normRelu (conv h (agg h) Ws Wn b) (meanOf (colSum (conv h (agg h) Ws Wn b)))
    (varOfDev (conv h (agg h) Ws Wn b) (meanOf (colSum (conv h (agg h) Ws Wn b)))) g be

/-- The three-layer network over a given one-layer normalisation `layer`. -/
def net {N K M : Nat} (layer : Mat N K → Mat K K → Mat K K → Row K → Row K → Row K → Mat N K) (agg : Mat N K → Mat N K)
    (x : Mat N K) (Ws0 Wn0 : Mat K K) (b0 g0 be0 : Row K) (Ws1 Wn1 : Mat K K) (b1 g1 be1 : Row K)
    (Ws2 Wn2 : Mat K M) (b2 : Row M) : Mat N M :=
  conv (layer (layer x Ws0 Wn0 b0 g0 be0) Ws1 Wn1 b1 g1 be1) (agg (layer (layer x Ws0 Wn0 b0 g0 be0) Ws1 Wn1 b1 g1 be1)) Ws2 Wn2 b2

end Cert.Sage

end
-- ==== Proof.RefFrame.lean ====
/-
  The reference terminates without a fault and leaves its sixteen argument arrays as it found them: this is the
  reference's run read back, with what it says about the result dropped.
-/
import proofs.«165639_j20710332301837_1_alg».proof.Defs
import proofs.«165639_j20710332301837_1_alg».proof.Proof.Gen.ReferenceIdeal.Run
import proofs.«165639_j20710332301837_1_alg».proof.Proof.Gen.Pre_finite_inputs

noncomputable section

namespace Cert.Proof.RefFrame

open Idealize.ShloMosaic Idealize.ShloMosaic.TcCoe Idealize.SL.Sem
open Cert.ReferenceIdeal.Gen Cert.Pre_finite_inputs.Gen

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Algebra.lean ====
/-
  The two spellings of a column's variance agree on finite data, and finiteness passes through a layer.

  Over the extended reals sums may be regrouped freely, but "the mean of the squares minus the square of the mean is the
  mean of the squared deviations" needs subtraction to cancel, which fails at an infinity. So the law is proved for
  columns of real numbers and carried to the extended reals through the coercion; what has to be tracked is that every
  entry a layer produces is (the coercion of) a real number. The square root's argument is a variance plus a positive
  constant, positive because the variance is a mean of squares.
-/
import proofs.«165639_j20710332301837_1_alg».proof.Proof.Spec
import Idealize.ShloMosaic.Lib.IdealHost

noncomputable section

namespace Cert.Sage

open Idealize.ShloMosaic

/-- An extended real that is a real number. -/
def IsFin (a : EReal) : Prop := ∃ r : ℝ, a = (r : EReal)
/-- A matrix, a row, of real numbers. -/
def MatFin {A B : Nat} (f : Mat A B) : Prop := ∀ p q, IsFin (f p q)
def RowFin {B : Nat} (r : Row B) : Prop := ∀ q, IsFin (r q)

theorem IsFin.coe (r : ℝ) : IsFin (r : EReal) := ⟨r, rfl⟩
theorem IsFin.add {a b : EReal} (ha : IsFin a) (hb : IsFin b) : IsFin (a + b) := by
  obtain ⟨x, rfl⟩ := ha; obtain ⟨y, rfl⟩ := hb; exact ⟨x + y, (EReal.coe_add x y).symm⟩
theorem IsFin.mul {a b : EReal} (ha : IsFin a) (hb : IsFin b) : IsFin (a * b) := by
  obtain ⟨x, rfl⟩ := ha; obtain ⟨y, rfl⟩ := hb; exact ⟨x * y, (EReal.coe_mul x y).symm⟩
theorem IsFin.sub {a b : EReal} (ha : IsFin a) (hb : IsFin b) : IsFin (a - b) := by
  obtain ⟨x, rfl⟩ := ha; obtain ⟨y, rfl⟩ := hb; exact ⟨x - y, (EReal.coe_sub x y).symm⟩
theorem IsFin.max {a b : EReal} (ha : IsFin a) (hb : IsFin b) : IsFin (max a b) := by
  rcases max_choice a b with h | h <;> rw [h] <;> assumption

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsFin.sum {ι : Type*} (s : Finset ι) {f : ι → EReal} (h : ∀ i, IsFin (f i)) : IsFin (∑ i ∈ s, f i) := by
  choose g hg using h
  exact ⟨∑ i ∈ s, g i, by rw [coe_sum]; exact Finset.sum_congr rfl fun i _ => hg i⟩

/-! ## The constants -/

theorem zeroW_eq : zeroW = 0 := Ideal.ofBits_zero_f32
theorem nodesW_eq : nodesW = ((50000 : ℝ) : EReal) := by
  simp [Ideal.ofBits, Ideal.ieee, -EReal.coe_mul]; norm_num
theorem epsW_pos : ∃ e : ℝ, 0 < e ∧ epsW = (e : EReal) := by
  refine ⟨_, ?_, by simp [Ideal.ofBits, Ideal.ieee, -EReal.coe_mul]; rfl⟩
  norm_num
/-- The word of one, and of plus infinity (read by the degree's floor and by the precondition). -/
theorem oneW_eq : Ideal.ofBits .f32 0x3F800000#32 = 1 := by
  simp [Ideal.ofBits, Ideal.ieee, -EReal.coe_mul]; norm_num
theorem infW_eq : Ideal.ofBits .f32 0x7F800000#32 = ⊤ := by
  simp [Ideal.ofBits, Ideal.ieee]

theorem div_nodes (a : EReal) : Ideal.div a nodesW = a * ((1 / 50000 : ℝ) : EReal) := by
  rw [nodesW_eq]; exact Ideal.div_coe (by norm_num) a

theorem IsFin.div_nodes {a : EReal} (ha : IsFin a) : IsFin (Ideal.div a nodesW) := by
  rw [Cert.Sage.div_nodes]; exact ha.mul (IsFin.coe _)

/-! ## Finiteness through a layer -/

theorem conv_fin {N K M : Nat} {h a : Mat N K} {Ws Wn : Mat K M} {b : Row M} (hh : MatFin h) (ha : MatFin a)
    (hs : MatFin Ws) (hn : MatFin Wn) (hb : RowFin b) : MatFin (conv h a Ws Wn b) := fun p q =>
  ((IsFin.sum _ fun k => (hh p k).mul (hs k q)).add (IsFin.sum _ fun k => (ha p k).mul (hn k q))).add (hb q)

theorem colSum_fin {N M : Nat} {z : Mat N M} (hz : MatFin z) : RowFin (colSum z) := fun q => IsFin.sum _ fun p => hz p q
theorem meanOf_fin {M : Nat} {s : Row M} (hs : RowFin s) : RowFin (meanOf s) := fun q => (hs q).div_nodes

/-! ## The variance, twice -/

/-- Over the reals: the mean of the squared deviations from the mean is the mean of the squares minus the square
    of the mean. -/
theorem var_real {n : ℕ} (hn : (n : ℝ) ≠ 0) (r : Fin n → ℝ) :
    (∑ p, (r p - (∑ p, r p) / n) * (r p - (∑ p, r p) / n)) / n
      = (∑ p, r p * r p) / n - ((∑ p, r p) / n) * ((∑ p, r p) / n) := by
  have h1 : ∀ p, (r p - (∑ p, r p) / n) * (r p - (∑ p, r p) / n)
      = r p * r p - 2 * ((∑ p, r p) / n) * r p + ((∑ p, r p) / n) * ((∑ p, r p) / n) := fun p => by ring
  simp only [h1]
  rw [Finset.sum_add_distrib, Finset.sum_sub_distrib, ← Finset.mul_sum, Finset.sum_const, Finset.card_univ,
    Fintype.card_fin, nsmul_eq_mul]
  field_simp
  ring

/-- A column of real numbers: its entries as reals. -/
theorem exists_reals {N M : Nat} {z : Mat N M} (hz : MatFin z) : ∃ r : Fin N → Fin M → ℝ, ∀ p q, z p q = (r p q : EReal) := by
  choose r hr using hz
  exact ⟨r, hr⟩

theorem mean_coe {N M : Nat} {z : Mat N M} (r : Fin N → Fin M → ℝ) (hr : ∀ p q, z p q = (r p q : EReal)) (q : Fin M) :
    meanOf (colSum z) q = (((∑ p, r p q) / 50000 : ℝ) : EReal) := by
  unfold meanOf colSum
  rw [div_nodes, Finset.sum_congr rfl fun p _ => hr p q, ← coe_sum, ← EReal.coe_mul]
  congr 1; ring

theorem meanSq_coe {N M : Nat} {z : Mat N M} (r : Fin N → Fin M → ℝ) (hr : ∀ p q, z p q = (r p q : EReal)) (q : Fin M) :
    meanOf (colSumSq z) q = (((∑ p, r p q * r p q) / 50000 : ℝ) : EReal) := by
  unfold meanOf colSumSq
  rw [div_nodes, Finset.sum_congr rfl fun p _ => by rw [hr p q, ← EReal.coe_mul], ← coe_sum, ← EReal.coe_mul]
  congr 1; ring

theorem varDev_coe {M : Nat} {z : Mat 50000 M} (r : Fin 50000 → Fin M → ℝ) (hr : ∀ p q, z p q = (r p q : EReal)) (q : Fin M) :
    varOfDev z (meanOf (colSum z)) q
      = (((∑ p, (r p q - (∑ p, r p q) / 50000) * (r p q - (∑ p, r p q) / 50000)) / 50000 : ℝ) : EReal) := by
  unfold varOfDev
  rw [div_nodes, mean_coe r hr q,
    Finset.sum_congr rfl fun p _ => by rw [hr p q, ← EReal.coe_sub, ← EReal.coe_mul], ← coe_sum, ← EReal.coe_mul]
  congr 1; ring

/-- On a matrix of real numbers the two spellings of the variance are one row. -/
theorem var_eq {M : Nat} {z : Mat 50000 M} (hz : MatFin z) :
    varOfSums (colSum z) (colSumSq z) = varOfDev z (meanOf (colSum z)) := by
  obtain ⟨r, hr⟩ := exists_reals hz
  funext q
  rw [varDev_coe r hr q]
  unfold varOfSums
  rw [meanSq_coe r hr q, mean_coe r hr q, ← EReal.coe_mul, ← EReal.coe_sub]
  congr 1
  have := var_real (n := 50000) (by norm_num) (fun p => r p q)
  simp only [Nat.cast_ofNat] at this
  exact this.symm

/-- The variance of a matrix of real numbers is a real number, and not negative. -/
theorem varDev_fin {M : Nat} {z : Mat 50000 M} (hz : MatFin z) (q : Fin M) :
    ∃ v : ℝ, 0 ≤ v ∧ varOfDev z (meanOf (colSum z)) q = (v : EReal) := by
  obtain ⟨r, hr⟩ := exists_reals hz
  refine ⟨_, ?_, varDev_coe r hr q⟩
  exact div_nonneg (Finset.sum_nonneg fun p _ => mul_self_nonneg _) (by norm_num)

/-- The inverse square root of a positive real is a real. -/
theorem rsqrt_fin {x : ℝ} (hx : 0 < x) : IsFin (Ideal.rsqrt (x : EReal)) := by
  rw [Ideal.rsqrt_coe, if_neg (not_lt.mpr hx.le), if_neg hx.ne']
  exact IsFin.coe _

theorem normRelu_fin {M : Nat} {z : Mat 50000 M} {g be : Row M} (hz : MatFin z) (hg : RowFin g) (hbe : RowFin be) :
    MatFin (normRelu z (meanOf (colSum z)) (varOfDev z (meanOf (colSum z))) g be) := fun p q => by
  unfold normRelu
  obtain ⟨v, hv0, hv⟩ := varDev_fin hz q
  obtain ⟨e, he0, he⟩ := epsW_pos
  have hr : IsFin (Ideal.rsqrt (varOfDev z (meanOf (colSum z)) q + epsW)) := by
    rw [hv, he, ← EReal.coe_add]; exact rsqrt_fin (by linarith)
  have hmu : IsFin (meanOf (colSum z) q) := meanOf_fin (colSum_fin hz) q
  exact (((((hz p q).sub hmu).mul hr).mul (hg q)).add (hbe q)).max (by rw [zeroW_eq]; exact ⟨0, rfl⟩)

/-! ## The layers and the network -/

theorem layer_eq {K M : Nat} (agg : Mat 50000 K → Mat 50000 K) {h : Mat 50000 K} {Ws Wn : Mat K M} {b g be : Row M}
    (hh : MatFin h) (ha : MatFin (agg h)) (hs : MatFin Ws) (hn : MatFin Wn) (hb : RowFin b) :
    layerSums agg h Ws Wn b g be = layerDev agg h Ws Wn b g be := by
  unfold layerSums layerDev
  rw [var_eq (conv_fin hh ha hs hn hb)]

theorem layerDev_fin {K M : Nat} (agg : Mat 50000 K → Mat 50000 K) {h : Mat 50000 K} {Ws Wn : Mat K M} {b g be : Row M}
    (hh : MatFin h) (ha : MatFin (agg h)) (hs : MatFin Ws) (hn : MatFin Wn) (hb : RowFin b) (hg : RowFin g)
    (hbe : RowFin be) : MatFin (layerDev agg h Ws Wn b g be) :=
  normRelu_fin (conv_fin hh ha hs hn hb) hg hbe

/-- The network with the variance taken either way is one function of finite arguments, when the neighbourhood
    mean of finite features is finite. -/
theorem net_eq {K M : Nat} (agg : Mat 50000 K → Mat 50000 K) (hagg : ∀ h, MatFin h → MatFin (agg h))
    {x : Mat 50000 K} {Ws0 Wn0 : Mat K K} {b0 g0 be0 : Row K} {Ws1 Wn1 : Mat K K} {b1 g1 be1 : Row K}
    {Ws2 Wn2 : Mat K M} {b2 : Row M}
    (hx : MatFin x) (hs0 : MatFin Ws0) (hn0 : MatFin Wn0) (hb0 : RowFin b0) (hg0 : RowFin g0) (hbe0 : RowFin be0)
    (hs1 : MatFin Ws1) (hn1 : MatFin Wn1) (hb1 : RowFin b1) :
    net (layerSums agg) agg x Ws0 Wn0 b0 g0 be0 Ws1 Wn1 b1 g1 be1 Ws2 Wn2 b2
      = net (layerDev agg) agg x Ws0 Wn0 b0 g0 be0 Ws1 Wn1 b1 g1 be1 Ws2 Wn2 b2 := by
  have e1 : layerSums agg x Ws0 Wn0 b0 g0 be0 = layerDev agg x Ws0 Wn0 b0 g0 be0 :=
    layer_eq agg hx (hagg x hx) hs0 hn0 hb0
  have f1 : MatFin (layerDev agg x Ws0 Wn0 b0 g0 be0) := layerDev_fin agg hx (hagg x hx) hs0 hn0 hb0 hg0 hbe0
  have e2 : layerSums agg (layerDev agg x Ws0 Wn0 b0 g0 be0) Ws1 Wn1 b1 g1 be1
      = layerDev agg (layerDev agg x Ws0 Wn0 b0 g0 be0) Ws1 Wn1 b1 g1 be1 :=
    layer_eq agg f1 (hagg _ f1) hs1 hn1 hb1
  unfold net
  rw [e1, e2]

end Cert.Sage

end
-- ==== Proof.FiniteArgs.lean ====
/-
  Under the precondition every float argument is an array of real numbers.

  The precondition says, for each float argument, that the absolute value of every entry lies strictly below plus
  infinity, all these comparisons joined by "and". An extended real whose absolute value is below plus infinity is
  neither infinity, so it is a real number.
-/
import proofs.«165639_j20710332301837_1_alg».proof.Defs
import proofs.«165639_j20710332301837_1_alg».proof.Proof.Gen.Pre_finite_inputs
import proofs.«165639_j20710332301837_1_alg».proof.Proof.Algebra
import Idealize.ShloMosaic.Lib.ReduceAll
import Idealize.ShloMosaic.PureOps.Ideal.Laws

noncomputable section

namespace Cert.Proof.FiniteArgs

open Idealize.ShloMosaic Idealize.ShloMosaic.TcCoe Idealize.SL.Sem Idealize.ShloMosaic.ValueIdx
open Cert.Pre_finite_inputs Cert.Pre_finite_inputs.Gen

instance : Subsingleton Cert.Pre_finite_inputs.S_.Idx := ⟨fun a b => funext fun d => d.elim0⟩

/-- An extended real whose absolute value is below plus infinity is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have h' : Ideal.cmp .olt (max a (-a)) (Ideal.ofBits .f32 0x7F800000#32) = 1#1 := h
  rw [Cert.Sage.infW_eq] at h'
  have ob : ∀ b : Bool, BitVec.ofBool b = 1#1 → b = true := by decide
  have hlt : max a (-a) < ⊤ := by
    change BitVec.ofBool (decide (max a (-a) < ⊤)) = 1#1 at h'
    exact of_decide_eq_true (ob _ h')
  induction a using EReal.rec with
  | bot => simp at hlt
  | coe r => exact ⟨r, rfl⟩
  | top => simp at hlt

/-- Every entry of every float argument is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S50000x128.Idx → EReal) i = (r : EReal))
      ∧ (∀ i, ∃ r : ℝ, (m ((c.tc : Thread Cert.KernelIdeal.nD Cert.KernelIdeal.τ).loc Cert.KernelIdeal.main_arg3) : Cert.KernelIdeal.S128x128.Idx → EReal) i = (r : EReal))
      ∧ (∀ i, ∃ r : ℝ, (m ((c.tc : Thread Cert.KernelIdeal.nD Cert.KernelIdeal.τ).loc Cert.KernelIdeal.main_arg4) : Cert.KernelIdeal.S128x128.Idx → EReal) i = (r : EReal))
      ∧ (∀ i, ∃ r : ℝ, (m ((c.tc : Thread Cert.KernelIdeal.nD Cert.KernelIdeal.τ).loc Cert.KernelIdeal.main_arg5) : Cert.KernelIdeal.S128.Idx → EReal) i = (r : EReal))
      ∧ (∀ i, ∃ r : ℝ, (m ((c.tc : Thread Cert.KernelIdeal.nD Cert.KernelIdeal.τ).loc Cert.KernelIdeal.main_arg6) : Cert.KernelIdeal.S128x128.Idx → EReal) i = (r : EReal))
      ∧ (∀ i, ∃ r : ℝ, (m ((c.tc : Thread Cert.KernelIdeal.nD Cert.KernelIdeal.τ).loc Cert.KernelIdeal.main_arg7) : Cert.KernelIdeal.S128x128.Idx → EReal) i = (r : EReal))
      ∧ (∀ i, ∃ r : ℝ, (m ((c.tc : Thread Cert.KernelIdeal.nD Cert.KernelIdeal.τ).loc Cert.KernelIdeal.main_arg8) : Cert.KernelIdeal.S128.Idx → EReal) i = (r : EReal))
      ∧ (∀ i, ∃ r : ℝ, (m ((c.tc : Thread Cert.KernelIdeal.nD Cert.KernelIdeal.τ).loc Cert.KernelIdeal.main_arg9) : Cert.KernelIdeal.S128x64.Idx → EReal) i = (r : EReal))
      ∧ (∀ i, ∃ r : ℝ, (m ((c.tc : Thread Cert.KernelIdeal.nD Cert.KernelIdeal.τ).loc Cert.KernelIdeal.main_arg10) : Cert.KernelIdeal.S128x64.Idx → EReal) i = (r : EReal))
      ∧ (∀ i, ∃ r : ℝ, (m ((c.tc : Thread Cert.KernelIdeal.nD Cert.KernelIdeal.τ).loc Cert.KernelIdeal.main_arg11) : Cert.KernelIdeal.S64.Idx → EReal) i = (r : EReal))
      ∧ (∀ i, ∃ r : ℝ, (m ((c.tc : Thread Cert.KernelIdeal.nD Cert.KernelIdeal.τ).loc Cert.KernelIdeal.main_arg12) : Cert.KernelIdeal.S128.Idx → EReal) i = (r : EReal))
      ∧ (∀ i, ∃ r : ℝ, (m ((c.tc : Thread Cert.KernelIdeal.nD Cert.KernelIdeal.τ).loc Cert.KernelIdeal.main_arg13) : Cert.KernelIdeal.S128.Idx → EReal) i = (r : EReal))
      ∧ (∀ i, ∃ r : ℝ, (m ((c.tc : Thread Cert.KernelIdeal.nD Cert.KernelIdeal.τ).loc Cert.KernelIdeal.main_arg14) : Cert.KernelIdeal.S128.Idx → EReal) i = (r : EReal))
      ∧ (∀ i, ∃ r : ℝ, (m ((c.tc : Thread Cert.KernelIdeal.nD Cert.KernelIdeal.τ).loc Cert.KernelIdeal.main_arg15) : Cert.KernelIdeal.S128.Idx → EReal) i = (r : EReal)) := by
  have h0 := congrFun (h c) ValueIdx.ix0
  dsimp only [Cert.Pre_finite_inputs.fn, fn_part1, fn_part2, fn_part3, fn_part4, andi] at h0
  simp only [IntOp.andi_eq_one] at h0
  obtain ⟨⟨⟨⟨⟨⟨⟨⟨⟨⟨⟨⟨⟨r0, r3⟩, r4⟩, r5⟩, r6⟩, r7⟩, r8⟩, r9⟩, r10⟩, r11⟩, r12⟩, r13⟩, r14⟩, r15⟩ := h0
  exact ⟨fun i => real_of_abs_lt _ (Host.reduce_andi_all _ _ _ _ _ r0 i),
    fun i => real_of_abs_lt _ (Host.reduce_andi_all _ _ _ _ _ r3 i),
    fun i => real_of_abs_lt _ (Host.reduce_andi_all _ _ _ _ _ r4 i),
    fun i => real_of_abs_lt _ (Host.reduce_andi_all _ _ _ _ _ r5 i),
    fun i => real_of_abs_lt _ (Host.reduce_andi_all _ _ _ _ _ r6 i),
    fun i => real_of_abs_lt _ (Host.reduce_andi_all _ _ _ _ _ r7 i),
    fun i => real_of_abs_lt _ (Host.reduce_andi_all _ _ _ _ _ r8 i),
    fun i => real_of_abs_lt _ (Host.reduce_andi_all _ _ _ _ _ r9 i),
    fun i => real_of_abs_lt _ (Host.reduce_andi_all _ _ _ _ _ r10 i),
    fun i => real_of_abs_lt _ (Host.reduce_andi_all _ _ _ _ _ r11 i),
    fun i => real_of_abs_lt _ (Host.reduce_andi_all _ _ _ _ _ r12 i),
    fun i => real_of_abs_lt _ (Host.reduce_andi_all _ _ _ _ _ r13 i),
    fun i => real_of_abs_lt _ (Host.reduce_andi_all _ _ _ _ _ r14 i),
    fun i => real_of_abs_lt _ (Host.reduce_andi_all _ _ _ _ _ r15 i)⟩

end Cert.Proof.FiniteArgs

end
-- ==== Proof.AggFacts.lean ====
/-
  The neighbourhood mean: for every node, the sum of the feature rows of the edges arriving at it, divided by the
  number of those edges or by one when there are none. The operations are kept as the program spells them (a sum
  scattered over the destination nodes of rows gathered at the source nodes). What is read of them here is only
  that the mean of finite features is finite: a gathered row is a row of the table, a scattered sum is a finite
  sum of finite numbers on top of zero, the edge count is a natural number, and the divisor is at least one.
-/
import proofs.«165639_j20710332301837_1_alg».proof.KernelIdeal
import proofs.«165639_j20710332301837_1_alg».proof.Proof.Gen.KernelIdeal
import proofs.«165639_j20710332301837_1_alg».proof.Proof.Algebra

noncomputable section

namespace Cert.KernelIdeal.Agg

open Idealize.ShloMosaic Cert.KernelIdeal Cert.KernelIdeal.Facts₀ Cert.Sage

/-- The source nodes with a negative number counted from the end. -/
def wrapSrc (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- The number of edges arriving at each node, as the program counts it: ones scattered over the destinations. -/
def degree (dst : IVec S640000 32) : FVec Ideal S50000 .f32 :=
  Host.scatterAdd scatter_S50000_S640000x1_S640000_n_0_0_1
    (broadcastInDim S50000 ![] bcast_S_S50000 (constant (F := Ideal) S_ .f32 0x00000000#32))
    (broadcastInDim S640000x1 ![0] bcast_S640000_S640000x1_0 dst)
    (broadcastInDim S640000 ![] bcast_S_S640000 (constant (F := Ideal) S_ .f32 0x3F800000#32))

/-- The sum, at each node, of the feature rows of the edges arriving at it. -/
def gathered (h : FVec Ideal S50000x128 .f32) (src dst : IVec S640000 32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (Host.gather gather_S50000x128_S640000x1_S640000x128_1_0_n_n_0_1_1128 h (wrapSrc src))

/-- The divisor: the edge count, or one where no edge arrives, along each row. -/
def divisor (dst : IVec S640000 32) : FVec Ideal S50000x128 .f32 :=
  broadcastInDim S50000x128 ![0, 1] bcast_S50000x1_S50000x128_0_1
    (broadcastInDim S50000x1 ![0] bcast_S50000_S50000x1_0
      (maximumf (degree dst) (broadcastInDim S50000 ![] bcast_S_S50000 (constant (F := Ideal) S_ .f32 0x3F800000#32))))

/-- The neighbourhood mean of the features `h` over the edges `src → dst`. -/
def mean (h : FVec Ideal S50000x128 .f32) (src dst : IVec S640000 32) : FVec Ideal S50000x128 .f32 :=
  Host.divf (gathered h src dst) (divisor dst)

/-! ## The operations read at an index, over any shapes -/

section Generic
variable {s si su t : Shape} {w : Nat}

theorem scatterAdd_apply (d : ScatterDims s si su) (x : FVec Ideal s .f32) (idx : IVec si w) (u : FVec Ideal su .f32)
    (i : s.Idx) : Host.scatterAdd d x idx u i
      = x i + ∑ j ∈ Finset.univ.filter (fun j => d.resultIdx? j idx = some i), u j := rfl

theorem gather_apply (d : GatherDims s si t) (x : FVec Ideal s .f32) (idx : IVec si w) (j : t.Idx) :
    Host.gather d x idx j = x (d.operandIdx j idx) := rfl

theorem bcast_exists {α : Type} (dims : Fin s.rank → Fin t.rank) (h : s.BroadcastsInDim t dims) (x : s.Idx → α)
    (j : t.Idx) : ∃ i, broadcastInDim t dims h x j = x i := ⟨_, rfl⟩

theorem hostDivf_apply (a b : FVec Ideal s .f32) (i : s.Idx) : Host.divf a b i = Ideal.div (a i) (b i) := rfl

theorem const_apply (b : BitVec 32) (i : s.Idx) : constant (F := Ideal) s .f32 b i = Ideal.ofBits .f32 b := rfl

/-- A scattered sum of finite updates on top of finite contents is finite. -/
theorem scatterAdd_fin (d : ScatterDims s si su) {x : FVec Ideal s .f32} (idx : IVec si w) {u : FVec Ideal su .f32}
    (hx : ∀ i, IsFin (x i)) (hu : ∀ j, IsFin (u j)) (i : s.Idx) : IsFin (Host.scatterAdd d x idx u i) := by
  rw [scatterAdd_apply]; exact (hx i).add (IsFin.sum _ fun j => hu j)

/-- Ones scattered on top of zero count: a real number, not negative. -/
theorem scatterAdd_count (d : ScatterDims s si su) {x : FVec Ideal s .f32} (idx : IVec si w) {u : FVec Ideal su .f32}
    (hx : ∀ i, x i = 0) (hu : ∀ j, u j = 1) (i : s.Idx) : ∃ r : ℝ, 0 ≤ r ∧ Host.scatterAdd d x idx u i = (r : EReal) := by
  rw [scatterAdd_apply, hx i, zero_add]
  refine ⟨∑ j ∈ Finset.univ.filter (fun j => d.resultIdx? j idx = some i), (1 : ℝ), Finset.sum_nonneg fun _ _ => zero_le_one, ?_⟩
  rw [coe_sum]; exact Finset.sum_congr rfl fun j _ => (hu j).trans EReal.coe_one.symm

end Generic

theorem zeros_apply {s : Shape} (h : S_.BroadcastsInDim s ![]) (i : s.Idx) :
    broadcastInDim s ![] h (constant (F := Ideal) S_ .f32 0x00000000#32) i = 0 := by
  obtain ⟨k, hk⟩ := bcast_exists ![] h (constant (F := Ideal) S_ .f32 0x00000000#32) i
  rw [hk, const_apply, Ideal.ofBits_zero_f32]

theorem ones_apply {s : Shape} (h : S_.BroadcastsInDim s ![]) (i : s.Idx) :
    broadcastInDim s ![] h (constant (F := Ideal) S_ .f32 0x3F800000#32) i = 1 := by
  obtain ⟨k, hk⟩ := bcast_exists ![] h (constant (F := Ideal) S_ .f32 0x3F800000#32) i
  rw [hk, const_apply, oneW_eq]

theorem gathered_fin {h : FVec Ideal S50000x128 .f32} (hh : ∀ i, IsFin (h i)) (src dst : IVec S640000 32) (i : S50000x128.Idx) :
    IsFin (gathered h src dst i) := by
  unfold gathered
  refine scatterAdd_fin _ _ (fun i => ?_) (fun j => ?_) i
  · rw [zeros_apply]; exact ⟨0, rfl⟩
  · rw [gather_apply]; exact hh _

theorem degree_real (dst : IVec S640000 32) (i : S50000.Idx) : ∃ r : ℝ, 0 ≤ r ∧ degree dst i = (r : EReal) := by
  unfold degree
  exact scatterAdd_count _ _ (fun i => zeros_apply _ i) (fun j => ones_apply _ j) i

theorem divisor_real (dst : IVec S640000 32) (i : S50000x128.Idx) : ∃ r : ℝ, r ≠ 0 ∧ divisor dst i = (r : EReal) := by
  unfold divisor
  obtain ⟨k, hk⟩ := bcast_exists ![0, 1] bcast_S50000x1_S50000x128_0_1 (broadcastInDim S50000x1 ![0] bcast_S50000_S50000x1_0
      (maximumf (degree dst) (broadcastInDim S50000 ![] bcast_S_S50000 (constant (F := Ideal) S_ .f32 0x3F800000#32)))) i
  obtain ⟨k', hk'⟩ := bcast_exists ![0] bcast_S50000_S50000x1_0
      (maximumf (degree dst) (broadcastInDim S50000 ![] bcast_S_S50000 (constant (F := Ideal) S_ .f32 0x3F800000#32))) k
  rw [hk, hk', ValueIdx.maximumf_apply, ones_apply]
  obtain ⟨r, hr0, hr⟩ := degree_real dst k'
  rw [hr]
  rcases le_total r 1 with h1 | h1
  · exact ⟨1, one_ne_zero, by rw [max_eq_right (by exact_mod_cast h1)]; rfl⟩
  · exact ⟨r, by linarith, max_eq_left (by exact_mod_cast h1)⟩

/-- The mean of finite features is finite. -/
theorem mean_fin {h : FVec Ideal S50000x128 .f32} (hh : ∀ i, IsFin (h i)) (src dst : IVec S640000 32) (i : S50000x128.Idx) :
    IsFin (mean h src dst i) := by
  obtain ⟨r, hr0, hr⟩ := divisor_real dst i
  unfold mean
  rw [hostDivf_apply, hr, Ideal.div_coe hr0]
  exact (gathered_fin hh src dst i).mul (IsFin.coe _)

end Cert.KernelIdeal.Agg

end
-- ==== Proof.FiniteMats.lean ====
/-
  The precondition, over matrices and rows: the node features, the weights and biases of the first two layers and the
  first layer's scale and shift are matrices and rows of real numbers; and the neighbourhood mean of a matrix of real
  numbers is a matrix of real numbers.
-/
import proofs.«165639_j20710332301837_1_alg».proof.Proof.FiniteArgs
import proofs.«165639_j20710332301837_1_alg».proof.Proof.AggFacts

noncomputable section

namespace Cert.Proof.FiniteMats

open Idealize.ShloMosaic Idealize.ShloMosaic.TcCoe Idealize.SL.Sem Idealize.ShloMosaic.ValueIdx Cert.Sage

/-- Under the precondition the arguments the variance law reads are finite, entry by entry. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    MatFin (fn2 (m ((c.tc : Thread Cert.KernelIdeal.nD Cert.KernelIdeal.τ).loc Cert.KernelIdeal.main_arg0) : Cert.KernelIdeal.S50000x128.Idx → EReal))
      ∧ MatFin (fn2 (m ((c.tc : Thread Cert.KernelIdeal.nD Cert.KernelIdeal.τ).loc Cert.KernelIdeal.main_arg3) : Cert.KernelIdeal.S128x128.Idx → EReal))
      ∧ MatFin (fn2 (m ((c.tc : Thread Cert.KernelIdeal.nD Cert.KernelIdeal.τ).loc Cert.KernelIdeal.main_arg4) : Cert.KernelIdeal.S128x128.Idx → EReal))
      ∧ RowFin (fn1 (m ((c.tc : Thread Cert.KernelIdeal.nD Cert.KernelIdeal.τ).loc Cert.KernelIdeal.main_arg5) : Cert.KernelIdeal.S128.Idx → EReal))
      ∧ MatFin (fn2 (m ((c.tc : Thread Cert.KernelIdeal.nD Cert.KernelIdeal.τ).loc Cert.KernelIdeal.main_arg6) : Cert.KernelIdeal.S128x128.Idx → EReal))
      ∧ MatFin (fn2 (m ((c.tc : Thread Cert.KernelIdeal.nD Cert.KernelIdeal.τ).loc Cert.KernelIdeal.main_arg7) : Cert.KernelIdeal.S128x128.Idx → EReal))
      ∧ RowFin (fn1 (m ((c.tc : Thread Cert.KernelIdeal.nD Cert.KernelIdeal.τ).loc Cert.KernelIdeal.main_arg8) : Cert.KernelIdeal.S128.Idx → EReal))
      ∧ RowFin (fn1 (m ((c.tc : Thread Cert.KernelIdeal.nD Cert.KernelIdeal.τ).loc Cert.KernelIdeal.main_arg12) : Cert.KernelIdeal.S128.Idx → EReal))
      ∧ RowFin (fn1 (m ((c.tc : Thread Cert.KernelIdeal.nD Cert.KernelIdeal.τ).loc Cert.KernelIdeal.main_arg13) : Cert.KernelIdeal.S128.Idx → EReal)) := by
  obtain ⟨h0, h3, h4, h5, h6, h7, h8, h9, h10, h11, h12, h13, h14, h15⟩ := Cert.Proof.FiniteArgs.finite_of_pre m h c
  exact ⟨fun p q => h0 (ix2 p q), fun p q => h3 (ix2 p q), fun p q => h4 (ix2 p q), fun q => h5 (ix1 q), fun p q => h6 (ix2 p q), fun p q => h7 (ix2 p q), fun q => h8 (ix1 q), fun q => h12 (ix1 q), fun q => h13 (ix1 q)⟩

/-- The neighbourhood mean of finite features is finite, as a map of matrices. -/
theorem agg_fin (src dst : IVec Cert.KernelIdeal.S640000 32) :
    ∀ h : Mat 50000 128, MatFin h → MatFin (fun p q => Cert.KernelIdeal.Agg.mean (arr2 h) src dst (ValueIdx.ix2 p q)) :=
  fun h hh p q => Cert.KernelIdeal.Agg.mean_fin (fun i => hh (i 0) (i 1)) src dst (ix2 p q)

end Cert.Proof.FiniteMats

end
-- ==== Proof.RefValue.lean ====
/-
  The reference network as a function of its arguments.

  Each of the three layers first averages, for every node, the feature rows of its in-neighbours (a sum of
  gathered rows scattered to their destination node, divided by the larger of the in-degree and one), then
  forms h · Ws + a · Wn + b. The first two layers then normalise every column by its mean and by the mean of its
  squared deviations, scale and shift it, and clip below at zero. The neighbourhood mean is kept as one
  unopened function of the node features; everything else is read index by index.
-/
import proofs.«165639_j20710332301837_1_alg».proof.Proof.Gen.ReferenceIdeal.Read
import proofs.«165639_j20710332301837_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Cert.Sage

/-- The neighbourhood mean of node features `h` over the edges `src → dst`: the rows of `h` at the sources (a
    negative source index wrapped once by the number of nodes) are summed into their destination rows, and each row is
    divided by the larger of its in-degree (a sum of ones over the edges into it) and one. -/
def aggR (h : FVec Ideal S50000x128 .f32) (src dst : IVec S640000 32) : FVec Ideal S50000x128 .f32 :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 dst)
      (Host.gather gather_S50000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32)))
            src))))
    (broadcastInDim S50000x128 ![0, 1] bcast_S50000x1_S50000x128_0_1
      (broadcastInDim S50000x1 ![0] bcast_S50000_S50000x1_0
        (maximumf (F := Ideal)
          (Host.scatterAdd (F := Ideal) scatter_S50000_S640000x1_S640000_n_0_0_1
            (broadcastInDim S50000 ![] bcast_S_S50000 (constant (F := Ideal) S_ .f32 0x00000000#32))
            (broadcastInDim S640000x1 ![0] bcast_S640000_S640000x1_0 dst)
            (broadcastInDim S640000 ![] bcast_S_S640000 (constant (F := Ideal) S_ .f32 0x3F800000#32)))
          (broadcastInDim S50000 ![] bcast_S_S50000 (constant (F := Ideal) S_ .f32 0x3F800000#32)))))

/-- The three neighbourhood means of the program are this one function, of the features each layer starts from. -/
theorem agg0_eq (x0 : FVec Ideal S50000x128 .f32) (x1 x2 : IVec S640000 32) :
    val_main_v18 (F := Ideal) x0 x1 x2 = aggR x0 x1 x2 := rfl

theorem agg1_eq (x0 : FVec Ideal S50000x128 .f32) (x1 x2 : IVec S640000 32) (x3 x4 : FVec Ideal S128x128 .f32)
    (x5 x12 x13 : FVec Ideal S128 .f32) :
    val_main_v69 (F := Ideal) x0 x1 x2 x3 x4 x5 x12 x13 = aggR (val_main_v50 (F := Ideal) x0 x1 x2 x3 x4 x5 x12 x13) x1 x2 := rfl

theorem agg2_eq (x0 : FVec Ideal S50000x128 .f32) (x1 x2 : IVec S640000 32) (x3 x4 : FVec Ideal S128x128 .f32)
    (x5 : FVec Ideal S128 .f32) (x6 x7 : FVec Ideal S128x128 .f32) (x8 x12 x13 x14 x15 : FVec Ideal S128 .f32) :
    val_main_v120 (F := Ideal) x0 x1 x2 x3 x4 x5 x6 x7 x8 x12 x13 x14 x15
      = aggR (val_main_v101 (F := Ideal) x0 x1 x2 x3 x4 x5 x6 x7 x8 x12 x13 x14 x15) x1 x2 := rfl

/-! ## One layer's operations, as functions of the arrays they start from -/

/-- A row vector repeated down the rows of a matrix with 128 columns. -/
abbrev rowsOf (r : FVec Ideal S128 .f32) : FVec Ideal S50000x128 .f32 := val_main_v23 (F := Ideal) r
/-- The sum of every column, started from the zero word. -/
abbrev colSumS (z : FVec Ideal S50000x128 .f32) : FVec Ideal S128 .f32 :=
  Host.reduceAdd (F := Ideal) z (constant (F := Ideal) S_ .f32 0x00000000#32) reducesTo_S50000x128_S128_d0 h_S_

/-- `y · Ws + a · Wn + b` for square weights. -/
def convS (y a : FVec Ideal S50000x128 .f32) (Ws Wn : FVec Ideal S128x128 .f32) (b : FVec Ideal S128 .f32) :
    FVec Ideal S50000x128 .f32 :=
  addf (F := Ideal) (addf (F := Ideal) (val_main_v19 (F := Ideal) y Ws) (val_main_v19 (F := Ideal) a Wn)) (rowsOf b)
/-- A column sum divided by the number of nodes. -/
def meanS (z : FVec Ideal S50000x128 .f32) : FVec Ideal S128 .f32 :=
  Host.divf (F := Ideal) (colSumS z) (val_main_v26 (F := Ideal))
/-- The mean of the squared deviations of each column from `mu`. -/
def varS (z : FVec Ideal S50000x128 .f32) (mu : FVec Ideal S128 .f32) : FVec Ideal S128 .f32 :=
  Host.divf (F := Ideal)
    (colSumS (mulf (F := Ideal) (subf (F := Ideal) z (rowsOf mu)) (subf (F := Ideal) z (rowsOf mu))))
    (val_main_v26 (F := Ideal))
/-- Normalise by `mu` and `var`, scale by `g`, shift by `be`, clip below at zero. -/
def normS (z : FVec Ideal S50000x128 .f32) (mu var g be : FVec Ideal S128 .f32) : FVec Ideal S50000x128 .f32 :=
  maximumf (F := Ideal)
    (addf (F := Ideal)
      (mulf (F := Ideal)
        (mulf (F := Ideal) (subf (F := Ideal) z (rowsOf mu))
          (rowsOf (Host.rsqrt (F := Ideal) (addf (F := Ideal) var (val_main_v38 (F := Ideal))))))
        (rowsOf g))
      (rowsOf be))
    (val_main_call0_v0 (F := Ideal))
/-- One normalised layer from the features `y`. -/
def layerS (y : FVec Ideal S50000x128 .f32) (src dst : IVec S640000 32) (Ws Wn : FVec Ideal S128x128 .f32)
    (b g be : FVec Ideal S128 .f32) : FVec Ideal S50000x128 .f32 :=
  normS (convS y (aggR y src dst) Ws Wn b) (meanS (convS y (aggR y src dst) Ws Wn b))
    (varS (convS y (aggR y src dst) Ws Wn b) (meanS (convS y (aggR y src dst) Ws Wn b))) g be
/-- `y · Ws + a · Wn + b` for the last layer's 128 × 64 weights. -/
def convOutS (y a : FVec Ideal S50000x128 .f32) (Ws Wn : FVec Ideal S128x64 .f32) (b : FVec Ideal S64 .f32) :
    FVec Ideal S50000x64 .f32 :=
  addf (F := Ideal)
    (addf (F := Ideal) (Host.dotGeneral (F := Ideal) dot_S50000x128_S128x64_S50000x64_1_0_0_1_n_n none y Ws)
      (Host.dotGeneral (F := Ideal) dot_S50000x128_S128x64_S50000x64_1_0_0_1_n_n none a Wn))
    (val_main_v125 (F := Ideal) b)

/-- The program's first layer is `layerS` of its arguments. -/
theorem layer0_eq (x0 : FVec Ideal S50000x128 .f32) (x1 x2 : IVec S640000 32) (x3 x4 : FVec Ideal S128x128 .f32)
    (x5 x12 x13 : FVec Ideal S128 .f32) :
    val_main_v50 (F := Ideal) x0 x1 x2 x3 x4 x5 x12 x13 = layerS x0 x1 x2 x3 x4 x5 x12 x13 := rfl

/-- The program's second layer is `layerS` of the first layer's result. -/
theorem layer1_eq (x0 : FVec Ideal S50000x128 .f32) (x1 x2 : IVec S640000 32) (x3 x4 : FVec Ideal S128x128 .f32)
    (x5 : FVec Ideal S128 .f32) (x6 x7 : FVec Ideal S128x128 .f32) (x8 x12 x13 x14 x15 : FVec Ideal S128 .f32) :
    val_main_v101 (F := Ideal) x0 x1 x2 x3 x4 x5 x6 x7 x8 x12 x13 x14 x15
      = layerS (val_main_v50 (F := Ideal) x0 x1 x2 x3 x4 x5 x12 x13) x1 x2 x6 x7 x8 x14 x15 := rfl

/-- The program's result is the last layer's `h · Ws + a · Wn + b` of the second layer's result. -/
theorem out_eq (x0 : FVec Ideal S50000x128 .f32) (x1 x2 : IVec S640000 32) (x3 x4 : FVec Ideal S128x128 .f32)
    (x5 : FVec Ideal S128 .f32) (x6 x7 : FVec Ideal S128x128 .f32) (x8 : FVec Ideal S128 .f32)
    (x9 x10 : FVec Ideal S128x64 .f32) (x11 : FVec Ideal S64 .f32) (x12 x13 x14 x15 : FVec Ideal S128 .f32) :
    val_main_v126 (F := Ideal) x0 x1 x2 x3 x4 x5 x6 x7 x8 x9 x10 x11 x12 x13 x14 x15
      = convOutS (val_main_v101 (F := Ideal) x0 x1 x2 x3 x4 x5 x6 x7 x8 x12 x13 x14 x15)
          (aggR (val_main_v101 (F := Ideal) x0 x1 x2 x3 x4 x5 x6 x7 x8 x12 x13 x14 x15) x1 x2) x9 x10 x11 := rfl

/-! ## The operations read index by index -/

theorem rowsOf_apply (r : FVec Ideal S128 .f32) (p : Fin 50000) (q : Fin 128) : rowsOf r (ix2 p q) = r (ix1 q) := by
  show val_main_v23 (F := Ideal) r (ix2 p q) = _
  rw [val_main_v23_apply, val_main_v22_apply]
  exact congrArg r (funext fun a => Fin.ext (by match a with | ⟨0, _⟩ => rfl))

/-- A column sum started from the zero word is the sum of the column. -/
theorem colSumS_apply (z : FVec Ideal S50000x128 .f32) (q : Fin 128) :
    colSumS z (ix1 q) = ∑ p : Fin 50000, z (ix2 p q) := by
  show Host.reduceAdd (F := Ideal) z (constant (F := Ideal) S_ .f32 0x00000000#32) reducesTo_S50000x128_S128_d0 h_S_ (ix1 q) = _
  simp only [Host.reduceAdd, Ideal.hostReduceAdd_def]
  rw [Ideal.hostReduceAdd_single reducesTo_S50000x128_S128_d0 (by decide)]
  show (Ideal.ofBits .f32 0x00000000#32 : EReal) + _ = _
  rw [Ideal.ofBits_zero_f32, zero_add]
  refine Finset.sum_congr rfl fun k _ => ?_
  exact congrArg z (funext fun a => Fin.ext (by match a with | ⟨0, _⟩ => rfl | ⟨1, _⟩ => rfl))

theorem convS_fn2 (y a : FVec Ideal S50000x128 .f32) (Ws Wn : FVec Ideal S128x128 .f32) (b : FVec Ideal S128 .f32) :
    fn2 (convS y a Ws Wn b) = conv (fn2 y) (fn2 a) (fn2 Ws) (fn2 Wn) (fn1 b) := by
  funext p q
  have e1 : ∀ k : Fin 128, lidx_main_v19 (ix2 p q) k = ix2 p k := fun k =>
    funext fun a => Fin.ext (by match a with | ⟨0, _⟩ => rfl | ⟨1, _⟩ => rfl)
  have e2 : ∀ k : Fin 128, ridx_main_v19 (ix2 p q) k = ix2 k q := fun k =>
    funext fun a => Fin.ext (by match a with | ⟨0, _⟩ => rfl | ⟨1, _⟩ => rfl)
  show FloatOps.addf (FloatOps.addf (val_main_v19 (F := Ideal) y Ws (ix2 p q)) (val_main_v19 (F := Ideal) a Wn (ix2 p q)))
    (rowsOf b (ix2 p q)) = _
  rw [val_main_v19_apply, val_main_v19_apply, rowsOf_apply]
  simp only [e1, e2, Ideal.addf_def]
  rfl

theorem meanS_fn1 (z : FVec Ideal S50000x128 .f32) : fn1 (meanS z) = meanOf (colSum (fn2 z)) := by
  funext q
  show FloatOps.hostDivf (colSumS z (ix1 q)) (val_main_v26 (F := Ideal) (ix1 q)) = _
  rw [colSumS_apply, val_main_v26_apply, val_main_cst_5_apply]
  rfl

theorem varS_fn1 (z : FVec Ideal S50000x128 .f32) (mu : FVec Ideal S128 .f32) :
    fn1 (varS z mu) = varOfDev (fn2 z) (fn1 mu) := by
  funext q
  show FloatOps.hostDivf
    (colSumS (mulf (F := Ideal) (subf (F := Ideal) z (rowsOf mu)) (subf (F := Ideal) z (rowsOf mu))) (ix1 q))
    (val_main_v26 (F := Ideal) (ix1 q)) = _
  rw [colSumS_apply, val_main_v26_apply, val_main_cst_5_apply]
  simp only [mulf, subf, rowsOf_apply, Ideal.mulf_def, Ideal.subf_def]
  rfl

theorem normS_fn2 (z : FVec Ideal S50000x128 .f32) (mu var g be : FVec Ideal S128 .f32) :
    fn2 (normS z mu var g be) = normRelu (fn2 z) (fn1 mu) (fn1 var) (fn1 g) (fn1 be) := by
  funext p q
  show normS z mu var g be (ix2 p q) = _
  simp only [normS, maximumf, addf, mulf, subf, Host.rsqrt, rowsOf_apply, val_main_call0_v0_apply,
    val_main_call0_cst_apply, val_main_v38_apply, val_main_cst_8_apply, Ideal.maximumf_def, Ideal.addf_def,
    Ideal.mulf_def, Ideal.subf_def, Ideal.hostUnary_rsqrt_def, Ideal.ofBits_def]
  rfl

/-- One normalised layer, as matrices: the specification's layer with the variance of a column taken as the mean of
    its squared deviations, over the neighbourhood mean. -/
theorem layerS_eq (y : FVec Ideal S50000x128 .f32) (src dst : IVec S640000 32) (Ws Wn : FVec Ideal S128x128 .f32)
    (b g be : FVec Ideal S128 .f32) :
    layerS y src dst Ws Wn b g be
      = arr2 (layerDev (fun h => fn2 (aggR (arr2 h) src dst)) (fn2 y) (fn2 Ws) (fn2 Wn) (fn1 b) (fn1 g) (fn1 be)) := by
  rw [← arr2_fn2 (layerS y src dst Ws Wn b g be)]
  refine congrArg arr2 ?_
  unfold layerS layerDev
  rw [normS_fn2, varS_fn1, meanS_fn1, convS_fn2]
  beta_reduce
  rw [arr2_fn2]

/-- The last layer's sums, index by index. -/
theorem dotOut_apply (y : FVec Ideal S50000x128 .f32) (W : FVec Ideal S128x64 .f32) (p : Fin 50000) (q : Fin 64) :
    Host.dotGeneral (F := Ideal) dot_S50000x128_S128x64_S50000x64_1_0_0_1_n_n none y W (ix2 p q)
      = ∑ k : Fin 128, y (ix2 p k) * W (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact lhs_main_v121_0 _ _
    | ⟨1, _⟩ => exact (lhs_main_v121_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (rhs_main_v121_0 _ _).trans hk
    | ⟨1, _⟩ => exact rhs_main_v121_1 _ _)
  rw [el, er]

theorem convOutS_eq (y a : FVec Ideal S50000x128 .f32) (Ws Wn : FVec Ideal S128x64 .f32) (b : FVec Ideal S64 .f32) :
    convOutS y a Ws Wn b = arr2 (conv (fn2 y) (fn2 a) (fn2 Ws) (fn2 Wn) (fn1 b)) := by
  rw [← arr2_fn2 (convOutS y a Ws Wn b)]
  refine congrArg arr2 ?_
  funext p q
  show FloatOps.addf (FloatOps.addf
      (Host.dotGeneral (F := Ideal) dot_S50000x128_S128x64_S50000x64_1_0_0_1_n_n none y Ws (ix2 p q))
      (Host.dotGeneral (F := Ideal) dot_S50000x128_S128x64_S50000x64_1_0_0_1_n_n none a Wn (ix2 p q)))
    (val_main_v125 (F := Ideal) b (ix2 p q)) = _
  rw [dotOut_apply, dotOut_apply, val_main_v125_apply, val_main_v124_apply]
  have e3 : idx_main_v124 (idx_main_v125 (ix2 p q)) = ix1 q :=
    funext fun a => Fin.ext (by match a with | ⟨0, _⟩ => rfl)
  rw [e3]
  rfl

/-- The reference's result, as a function of its sixteen arguments, is the specification's three-layer network over the
    neighbourhood mean, the variance of a column taken as the mean of its squared deviations. -/
theorem result_eq (x : FVec Ideal S50000x128 .f32) (src dst : IVec S640000 32) (Ws0 Wn0 : FVec Ideal S128x128 .f32)
    (b0 : FVec Ideal S128 .f32) (Ws1 Wn1 : FVec Ideal S128x128 .f32) (b1 : FVec Ideal S128 .f32)
    (Ws2 Wn2 : FVec Ideal S128x64 .f32) (b2 : FVec Ideal S64 .f32) (g0 be0 g1 be1 : FVec Ideal S128 .f32) :
    val_main_v126 (F := Ideal) x src dst Ws0 Wn0 b0 Ws1 Wn1 b1 Ws2 Wn2 b2 g0 be0 g1 be1
      = arr2 (net (layerDev (fun h => fn2 (aggR (arr2 h) src dst))) (fun h => fn2 (aggR (arr2 h) src dst))
          (fn2 x) (fn2 Ws0) (fn2 Wn0) (fn1 b0) (fn1 g0) (fn1 be0) (fn2 Ws1) (fn2 Wn1) (fn1 b1) (fn1 g1) (fn1 be1)
          (fn2 Ws2) (fn2 Wn2) (fn1 b2)) := by
  rw [out_eq, layer1_eq, layer0_eq, layerS_eq x, layerS_eq, convOutS_eq]
  rfl

/-- The same about the term the reference's run ends with, for any memory `m` on any device. -/
theorem res_eq (m : (ℓ : Loc nD τ sig) → Buf (Elt Ideal) ℓ) (c : Dev nD) :
    Cert.ReferenceIdeal.Value.res_main_v126 m c
      = arr2 (net (layerDev (fun h => fn2 (aggR (arr2 h) (m ((c.tc : Thread nD τ).loc main_arg1)) (m ((c.tc : Thread nD τ).loc main_arg2)))))
          (fun h => fn2 (aggR (arr2 h) (m ((c.tc : Thread nD τ).loc main_arg1)) (m ((c.tc : Thread nD τ).loc main_arg2))))
          (fn2 (m ((c.tc : Thread nD τ).loc main_arg0))) (fn2 (m ((c.tc : Thread nD τ).loc main_arg3)))
          (fn2 (m ((c.tc : Thread nD τ).loc main_arg4))) (fn1 (m ((c.tc : Thread nD τ).loc main_arg5)))
          (fn1 (m ((c.tc : Thread nD τ).loc main_arg12))) (fn1 (m ((c.tc : Thread nD τ).loc main_arg13)))
          (fn2 (m ((c.tc : Thread nD τ).loc main_arg6))) (fn2 (m ((c.tc : Thread nD τ).loc main_arg7)))
          (fn1 (m ((c.tc : Thread nD τ).loc main_arg8))) (fn1 (m ((c.tc : Thread nD τ).loc main_arg14)))
          (fn1 (m ((c.tc : Thread nD τ).loc main_arg15))) (fn2 (m ((c.tc : Thread nD τ).loc main_arg9)))
          (fn2 (m ((c.tc : Thread nD τ).loc main_arg10))) (fn1 (m ((c.tc : Thread nD τ).loc main_arg11)))) :=
  (val_main_v126_eq (F := Ideal) m c).trans (result_eq _ _ _ _ _ _ _ _ _ _ _ _ _ _ _ _)

end Cert.ReferenceIdeal.RefValue

end
-- ==== Proof.AggBridge.lean ====
/-
  The neighbourhood mean is spelt once in each program, over that program's own records of the gather and of the two
  scattered sums. The two spellings are the same operations applied to the same operands: the records carry the same
  lists of axes, and what else they carry are proofs.
-/
import proofs.«165639_j20710332301837_1_alg».proof.Proof.RefValue
import proofs.«165639_j20710332301837_1_alg».proof.Proof.AggFacts

noncomputable section

namespace Cert.Proof.AggBridge

open Idealize.ShloMosaic

/-- The record of the row gather is one record in both programs. -/
theorem gather_eq : Cert.ReferenceIdeal.gather_S50000x128_S640000x1_S640000x128_1_0_n_n_0_1_1128
    = Cert.KernelIdeal.gather_S50000x128_S640000x1_S640000x128_1_0_n_n_0_1_1128 := rfl
/-- So is the record of the scattered sum of rows. -/
theorem scatterRows_eq : Cert.ReferenceIdeal.scatter_S50000x128_S640000x1_S640000x128_1_0_0_1
    = Cert.KernelIdeal.scatter_S50000x128_S640000x1_S640000x128_1_0_0_1 := rfl
/-- And the record of the scattered sum of ones. -/
theorem scatterOnes_eq : Cert.ReferenceIdeal.scatter_S50000_S640000x1_S640000_n_0_0_1
    = Cert.KernelIdeal.scatter_S50000_S640000x1_S640000_n_0_0_1 := rfl

/-- The reference's neighbourhood mean is the kernel's. -/
theorem aggR_eq (h : Cert.KernelIdeal.S50000x128.Idx → EReal) (src dst : IVec Cert.KernelIdeal.S640000 32) :
    Cert.ReferenceIdeal.RefValue.aggR h src dst = Cert.KernelIdeal.Agg.mean h src dst := by
  unfold Cert.ReferenceIdeal.RefValue.aggR Cert.KernelIdeal.Agg.mean Cert.KernelIdeal.Agg.gathered
    Cert.KernelIdeal.Agg.divisor Cert.KernelIdeal.Agg.degree Cert.KernelIdeal.Agg.wrapSrc
  rw [gather_eq, scatterRows_eq, scatterOnes_eq]

end Cert.Proof.AggBridge

end
-- ==== Proof.Bridge.lean ====
/-
  The last step of the comparison. The kernel takes a column's variance as the mean of the squares minus the square
  of the mean, the reference as the mean of the squared deviations; on matrices of real numbers these agree, and
  under the precondition every matrix the two layers meet is one of real numbers, because the neighbourhood mean, the
  sums and the normalisation keep real numbers real. So the two networks are one function of the arguments, and the
  term the reference's run ends with is the network in the kernel's spelling.
-/
import proofs.«165639_j20710332301837_1_alg».proof.Proof.FiniteMats
import proofs.«165639_j20710332301837_1_alg».proof.Proof.AggBridge
import proofs.«165639_j20710332301837_1_alg».proof.Proof.Algebra

noncomputable section

namespace Cert.Proof.Bridge

open Idealize.ShloMosaic Idealize.ShloMosaic.TcCoe Idealize.SL.Sem Idealize.ShloMosaic.ValueIdx Cert.Sage

/-- The neighbourhood mean over the edges `src → dst`, as a map of matrices. -/
abbrev aggM (src dst : IVec Cert.KernelIdeal.S640000 32) : Mat 50000 128 → Mat 50000 128 :=
  fun h => fn2 (Cert.KernelIdeal.Agg.mean (arr2 h) src dst)

/-- The reference's spelling of the neighbourhood mean is the same map. -/
theorem aggR_fun_eq (src dst : IVec Cert.KernelIdeal.S640000 32) :
    (fun h : Mat 50000 128 => fn2 (Cert.ReferenceIdeal.RefValue.aggR (arr2 h) src dst)) = aggM src dst :=
  funext fun h => congrArg fn2 (Cert.Proof.AggBridge.aggR_eq (arr2 h) src dst)

/-- Under the precondition the network with either spelling of the variance is one matrix. -/
theorem net_sums_eq_dev (m : (ℓ : Loc Cert.KernelIdeal.nD Cert.KernelIdeal.τ Cert.KernelIdeal.sig) → Buf (Elt Ideal) ℓ)
    (h : Cert.Pre_KernelIdeal m) (c : Dev Cert.KernelIdeal.nD) :
    net (layerSums (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (fn2 (m ((c.tc : Thread Cert.KernelIdeal.nD Cert.KernelIdeal.τ).loc Cert.KernelIdeal.main_arg0) : Cert.KernelIdeal.S50000x128.Idx → EReal))
        (fn2 (m ((c.tc : Thread Cert.KernelIdeal.nD Cert.KernelIdeal.τ).loc Cert.KernelIdeal.main_arg3) : Cert.KernelIdeal.S128x128.Idx → EReal))
        (fn2 (m ((c.tc : Thread Cert.KernelIdeal.nD Cert.KernelIdeal.τ).loc Cert.KernelIdeal.main_arg4) : Cert.KernelIdeal.S128x128.Idx → EReal))
        (fn1 (m ((c.tc : Thread Cert.KernelIdeal.nD Cert.KernelIdeal.τ).loc Cert.KernelIdeal.main_arg5) : Cert.KernelIdeal.S128.Idx → EReal))
        (fn1 (m ((c.tc : Thread Cert.KernelIdeal.nD Cert.KernelIdeal.τ).loc Cert.KernelIdeal.main_arg12) : Cert.KernelIdeal.S128.Idx → EReal))
        (fn1 (m ((c.tc : Thread Cert.KernelIdeal.nD Cert.KernelIdeal.τ).loc Cert.KernelIdeal.main_arg13) : Cert.KernelIdeal.S128.Idx → EReal))
        (fn2 (m ((c.tc : Thread Cert.KernelIdeal.nD Cert.KernelIdeal.τ).loc Cert.KernelIdeal.main_arg6) : Cert.KernelIdeal.S128x128.Idx → EReal))
        (fn2 (m ((c.tc : Thread Cert.KernelIdeal.nD Cert.KernelIdeal.τ).loc Cert.KernelIdeal.main_arg7) : Cert.KernelIdeal.S128x128.Idx → EReal))
        (fn1 (m ((c.tc : Thread Cert.KernelIdeal.nD Cert.KernelIdeal.τ).loc Cert.KernelIdeal.main_arg8) : Cert.KernelIdeal.S128.Idx → EReal))
        (fn1 (m ((c.tc : Thread Cert.KernelIdeal.nD Cert.KernelIdeal.τ).loc Cert.KernelIdeal.main_arg14) : Cert.KernelIdeal.S128.Idx → EReal))
        (fn1 (m ((c.tc : Thread Cert.KernelIdeal.nD Cert.KernelIdeal.τ).loc Cert.KernelIdeal.main_arg15) : Cert.KernelIdeal.S128.Idx → EReal))
        (fn2 (m ((c.tc : Thread Cert.KernelIdeal.nD Cert.KernelIdeal.τ).loc Cert.KernelIdeal.main_arg9) : Cert.KernelIdeal.S128x64.Idx → EReal))
        (fn2 (m ((c.tc : Thread Cert.KernelIdeal.nD Cert.KernelIdeal.τ).loc Cert.KernelIdeal.main_arg10) : Cert.KernelIdeal.S128x64.Idx → EReal))
        (fn1 (m ((c.tc : Thread Cert.KernelIdeal.nD Cert.KernelIdeal.τ).loc Cert.KernelIdeal.main_arg11) : Cert.KernelIdeal.S64.Idx → EReal))
      = net (layerDev (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (fn2 (m ((c.tc : Thread Cert.KernelIdeal.nD Cert.KernelIdeal.τ).loc Cert.KernelIdeal.main_arg0) : Cert.KernelIdeal.S50000x128.Idx → EReal))
        (fn2 (m ((c.tc : Thread Cert.KernelIdeal.nD Cert.KernelIdeal.τ).loc Cert.KernelIdeal.main_arg3) : Cert.KernelIdeal.S128x128.Idx → EReal))
        (fn2 (m ((c.tc : Thread Cert.KernelIdeal.nD Cert.KernelIdeal.τ).loc Cert.KernelIdeal.main_arg4) : Cert.KernelIdeal.S128x128.Idx → EReal))
        (fn1 (m ((c.tc : Thread Cert.KernelIdeal.nD Cert.KernelIdeal.τ).loc Cert.KernelIdeal.main_arg5) : Cert.KernelIdeal.S128.Idx → EReal))
        (fn1 (m ((c.tc : Thread Cert.KernelIdeal.nD Cert.KernelIdeal.τ).loc Cert.KernelIdeal.main_arg12) : Cert.KernelIdeal.S128.Idx → EReal))
        (fn1 (m ((c.tc : Thread Cert.KernelIdeal.nD Cert.KernelIdeal.τ).loc Cert.KernelIdeal.main_arg13) : Cert.KernelIdeal.S128.Idx → EReal))
        (fn2 (m ((c.tc : Thread Cert.KernelIdeal.nD Cert.KernelIdeal.τ).loc Cert.KernelIdeal.main_arg6) : Cert.KernelIdeal.S128x128.Idx → EReal))
        (fn2 (m ((c.tc : Thread Cert.KernelIdeal.nD Cert.KernelIdeal.τ).loc Cert.KernelIdeal.main_arg7) : Cert.KernelIdeal.S128x128.Idx → EReal))
        (fn1 (m ((c.tc : Thread Cert.KernelIdeal.nD Cert.KernelIdeal.τ).loc Cert.KernelIdeal.main_arg8) : Cert.KernelIdeal.S128.Idx → EReal))
        (fn1 (m ((c.tc : Thread Cert.KernelIdeal.nD Cert.KernelIdeal.τ).loc Cert.KernelIdeal.main_arg14) : Cert.KernelIdeal.S128.Idx → EReal))
        (fn1 (m ((c.tc : Thread Cert.KernelIdeal.nD Cert.KernelIdeal.τ).loc Cert.KernelIdeal.main_arg15) : Cert.KernelIdeal.S128.Idx → EReal))
        (fn2 (m ((c.tc : Thread Cert.KernelIdeal.nD Cert.KernelIdeal.τ).loc Cert.KernelIdeal.main_arg9) : Cert.KernelIdeal.S128x64.Idx → EReal))
        (fn2 (m ((c.tc : Thread Cert.KernelIdeal.nD Cert.KernelIdeal.τ).loc Cert.KernelIdeal.main_arg10) : Cert.KernelIdeal.S128x64.Idx → EReal))
        (fn1 (m ((c.tc : Thread Cert.KernelIdeal.nD Cert.KernelIdeal.τ).loc Cert.KernelIdeal.main_arg11) : Cert.KernelIdeal.S64.Idx → EReal)) := by
  obtain ⟨hx, hs0, hn0, hb0, hs1, hn1, hb1, hg0, hbe0⟩ := Cert.Proof.FiniteMats.fin_of_pre m h c
  exact net_eq _ (Cert.Proof.FiniteMats.agg_fin _ _) hx hs0 hn0 hb0 hg0 hbe0 hs1 hn1 hb1

/-- From memories that agree on the sixteen arguments, the term the reference's run ends with is the network in the
    kernel's spelling, of the kernel's arguments. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v126 m' c
      = arr2 (net (layerSums (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (aggM (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (fn2 (m ((c.tc : Thread Cert.KernelIdeal.nD Cert.KernelIdeal.τ).loc Cert.KernelIdeal.main_arg0) : Cert.KernelIdeal.S50000x128.Idx → EReal))
        (fn2 (m ((c.tc : Thread Cert.KernelIdeal.nD Cert.KernelIdeal.τ).loc Cert.KernelIdeal.main_arg3) : Cert.KernelIdeal.S128x128.Idx → EReal))
        (fn2 (m ((c.tc : Thread Cert.KernelIdeal.nD Cert.KernelIdeal.τ).loc Cert.KernelIdeal.main_arg4) : Cert.KernelIdeal.S128x128.Idx → EReal))
        (fn1 (m ((c.tc : Thread Cert.KernelIdeal.nD Cert.KernelIdeal.τ).loc Cert.KernelIdeal.main_arg5) : Cert.KernelIdeal.S128.Idx → EReal))
        (fn1 (m ((c.tc : Thread Cert.KernelIdeal.nD Cert.KernelIdeal.τ).loc Cert.KernelIdeal.main_arg12) : Cert.KernelIdeal.S128.Idx → EReal))
        (fn1 (m ((c.tc : Thread Cert.KernelIdeal.nD Cert.KernelIdeal.τ).loc Cert.KernelIdeal.main_arg13) : Cert.KernelIdeal.S128.Idx → EReal))
        (fn2 (m ((c.tc : Thread Cert.KernelIdeal.nD Cert.KernelIdeal.τ).loc Cert.KernelIdeal.main_arg6) : Cert.KernelIdeal.S128x128.Idx → EReal))
        (fn2 (m ((c.tc : Thread Cert.KernelIdeal.nD Cert.KernelIdeal.τ).loc Cert.KernelIdeal.main_arg7) : Cert.KernelIdeal.S128x128.Idx → EReal))
        (fn1 (m ((c.tc : Thread Cert.KernelIdeal.nD Cert.KernelIdeal.τ).loc Cert.KernelIdeal.main_arg8) : Cert.KernelIdeal.S128.Idx → EReal))
        (fn1 (m ((c.tc : Thread Cert.KernelIdeal.nD Cert.KernelIdeal.τ).loc Cert.KernelIdeal.main_arg14) : Cert.KernelIdeal.S128.Idx → EReal))
        (fn1 (m ((c.tc : Thread Cert.KernelIdeal.nD Cert.KernelIdeal.τ).loc Cert.KernelIdeal.main_arg15) : Cert.KernelIdeal.S128.Idx → EReal))
        (fn2 (m ((c.tc : Thread Cert.KernelIdeal.nD Cert.KernelIdeal.τ).loc Cert.KernelIdeal.main_arg9) : Cert.KernelIdeal.S128x64.Idx → EReal))
        (fn2 (m ((c.tc : Thread Cert.KernelIdeal.nD Cert.KernelIdeal.τ).loc Cert.KernelIdeal.main_arg10) : Cert.KernelIdeal.S128x64.Idx → EReal))
        (fn1 (m ((c.tc : Thread Cert.KernelIdeal.nD Cert.KernelIdeal.τ).loc Cert.KernelIdeal.main_arg11) : Cert.KernelIdeal.S64.Idx → EReal))) := by
  obtain ⟨a0, a1, a2, a3, a4, a5, a6, a7, a8, a9, a10, a11, a12, a13, a14, a15⟩ := hag
  rw [Cert.ReferenceIdeal.RefValue.res_eq, a0, a1, a2, a3, a4, a5, a6, a7, a8, a9, a10, a11, a12, a13, a14, a15,
    aggR_fun_eq]
  exact congrArg arr2 (net_sums_eq_dev m h c).symm

end Cert.Proof.Bridge

end
-- ==== Proof.KRun.lean ====
/-
  The whole program's run with its result named: every weakly fair execution of the five kernels and the operations
  between them ends with the result array at the contents the last kernel's write-backs leave, and with the argument
  arrays as launched. The statement keeps, of the contents every unscoped buffer ends with, the result's beside the
  arguments'.
-/
import proofs.«165639_j20710332301837_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at what the fold of the segments leaves in it, the arguments as launched. -/
theorem run_result : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Run

end
-- ==== Proof.KArgs.lean ====
/-
  The argument arrays, and each kernel's first result, read through the run: an operation between two kernels
  writes only its own result, and a kernel writes back only its output arrays, so the contents of an array nobody
  writes are, at every later boundary, what they were.
-/
import proofs.«165639_j20710332301837_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

/-! ## An operation stretch leaves an array it does not write -/

theorem skip0_main_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg1 (W : Valuation τ sig (Elt F)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg1 (W : Valuation τ sig (Elt F)) :
    StableHlo.after hostOps2 W (Proc.devRef .tc main_arg1) = W (Proc.devRef .tc main_arg1) :=
  StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_arg1 (W : Valuation τ sig (Elt F)) :
    StableHlo.after hostOps3 W (Proc.devRef .tc main_arg1) = W (Proc.devRef .tc main_arg1) :=
  StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg2 (W : Valuation τ sig (Elt F)) :
    StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg2 (W : Valuation τ sig (Elt F)) :
    StableHlo.after hostOps1 W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg2 (W : Valuation τ sig (Elt F)) :
    StableHlo.after hostOps2 W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_arg2 (W : Valuation τ sig (Elt F)) :
    StableHlo.after hostOps3 W (Proc.devRef .tc main_arg2) = W (Proc.devRef .tc main_arg2) :=
  StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg3 (W : Valuation τ sig (Elt F)) :
    StableHlo.after hostOps0 W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg4 (W : Valuation τ sig (Elt F)) :
    StableHlo.after hostOps0 W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg6 (W : Valuation τ sig (Elt F)) :
    StableHlo.after hostOps0 W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg6 (W : Valuation τ sig (Elt F)) :
    StableHlo.after hostOps1 W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg6 (W : Valuation τ sig (Elt F)) :
    StableHlo.after hostOps2 W (Proc.devRef .tc main_arg6) = W (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg7 (W : Valuation τ sig (Elt F)) :
    StableHlo.after hostOps0 W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg7 (W : Valuation τ sig (Elt F)) :
    StableHlo.after hostOps1 W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg7 (W : Valuation τ sig (Elt F)) :
    StableHlo.after hostOps2 W (Proc.devRef .tc main_arg7) = W (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg8 (W : Valuation τ sig (Elt F)) :
    StableHlo.after hostOps0 W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg8 (W : Valuation τ sig (Elt F)) :
    StableHlo.after hostOps1 W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg9 (W : Valuation τ sig (Elt F)) :
    StableHlo.after hostOps0 W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg9 (W : Valuation τ sig (Elt F)) :
    StableHlo.after hostOps1 W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg9 (W : Valuation τ sig (Elt F)) :
    StableHlo.after hostOps2 W (Proc.devRef .tc main_arg9) = W (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_arg9 (W : Valuation τ sig (Elt F)) :
    StableHlo.after hostOps3 W (Proc.devRef .tc main_arg9) = W (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip4_main_arg9 (W : Valuation τ sig (Elt F)) :
    StableHlo.after hostOps4 W (Proc.devRef .tc main_arg9) = W (Proc.devRef .tc main_arg9) :=
  StableHlo.after_of_forall_not_mem (b := Proc.devRef .tc main_arg9) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg10 (W : Valuation τ sig (Elt F)) :
    StableHlo.after hostOps0 W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg10 (W : Valuation τ sig (Elt F)) :
    StableHlo.after hostOps1 W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg10 (W : Valuation τ sig (Elt F)) :
    StableHlo.after hostOps2 W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_arg10 (W : Valuation τ sig (Elt F)) :
    StableHlo.after hostOps3 W (Proc.devRef .tc main_arg10) = W (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip4_main_arg10 (W : Valuation τ sig (Elt F)) :
    StableHlo.after hostOps4 W (Proc.devRef .tc main_arg10) = W (Proc.devRef .tc main_arg10) :=
  StableHlo.after_of_forall_not_mem (b := Proc.devRef .tc main_arg10) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg11 (W : Valuation τ sig (Elt F)) :
    StableHlo.after hostOps0 W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg11 (W : Valuation τ sig (Elt F)) :
    StableHlo.after hostOps1 W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg11 (W : Valuation τ sig (Elt F)) :
    StableHlo.after hostOps2 W (Proc.devRef .tc main_arg11) = W (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_arg11 (W : Valuation τ sig (Elt F)) :
    StableHlo.after hostOps3 W (Proc.devRef .tc main_arg11) = W (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg12 (W : Valuation τ sig (Elt F)) :
    StableHlo.after hostOps0 W (Proc.devRef .tc main_arg12) = W (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg13 (W : Valuation τ sig (Elt F)) :
    StableHlo.after hostOps0 W (Proc.devRef .tc main_arg13) = W (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg14 (W : Valuation τ sig (Elt F)) :
    StableHlo.after hostOps0 W (Proc.devRef .tc main_arg14) = W (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg14 (W : Valuation τ sig (Elt F)) :
    StableHlo.after hostOps1 W (Proc.devRef .tc main_arg14) = W (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg14 (W : Valuation τ sig (Elt F)) :
    StableHlo.after hostOps2 W (Proc.devRef .tc main_arg14) = W (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip0_main_arg15 (W : Valuation τ sig (Elt F)) :
    StableHlo.after hostOps0 W (Proc.devRef .tc main_arg15) = W (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_arg15 (W : Valuation τ sig (Elt F)) :
    StableHlo.after hostOps1 W (Proc.devRef .tc main_arg15) = W (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_arg15 (W : Valuation τ sig (Elt F)) :
    StableHlo.after hostOps2 W (Proc.devRef .tc main_arg15) = W (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip1_main_v20_0 (W : Valuation τ sig (Elt F)) :
    StableHlo.after hostOps1 W (Proc.devRef .tc main_v20_0) = W (Proc.devRef .tc main_v20_0) :=
  StableHlo.after_of_forall_not_mem (b := Proc.devRef .tc main_v20_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip2_main_v29 (W : Valuation τ sig (Elt F)) :
    StableHlo.after hostOps2 W (Proc.devRef .tc main_v29) = W (Proc.devRef .tc main_v29) :=
  StableHlo.after_of_forall_not_mem (b := Proc.devRef .tc main_v29) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip3_main_v50_0 (W : Valuation τ sig (Elt F)) :
    StableHlo.after hostOps3 W (Proc.devRef .tc main_v50_0) = W (Proc.devRef .tc main_v50_0) :=
  StableHlo.after_of_forall_not_mem (b := Proc.devRef .tc main_v50_0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem skip4_main_v59 (W : Valuation τ sig (Elt F)) :
    StableHlo.after hostOps4 W (Proc.devRef .tc main_v59) = W (Proc.devRef .tc main_v59) :=
  StableHlo.after_of_forall_not_mem (b := Proc.devRef .tc main_v59) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at every boundary they are read at -/

variable (m : (ℓ : Loc nD τ sig) → Buf (Elt F) ℓ) (ρ : Dev nD → PrngReg) (c : Dev nD)

theorem W1_arg0 : W1 m ρ c (Proc.devRef .tc main_arg0) = m ((c : Thread nD τ).loc main_arg0) :=
  (skip0_main_arg0 _).trans rfl
theorem W1_arg1 : W1 m ρ c (Proc.devRef .tc main_arg1) = m ((c : Thread nD τ).loc main_arg1) :=
  (skip0_main_arg1 _).trans rfl
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) :=
  (skip1_main_arg1 _).trans (W2_arg1 m ρ c)
theorem W4_arg1 : W4 m ρ c (Proc.devRef .tc main_arg1) = m ((c : Thread nD τ).loc main_arg1) :=
  (W4_of_ne m ρ c main_arg1 (by decide)).trans (W3_arg1 m ρ c)
theorem W5_arg1 : W5 m ρ c (Proc.devRef .tc main_arg1) = m ((c : Thread nD τ).loc main_arg1) :=
  (skip2_main_arg1 _).trans (W4_arg1 m ρ c)
theorem W6_arg1 : W6 m ρ c (Proc.devRef .tc main_arg1) = m ((c : Thread nD τ).loc main_arg1) :=
  (W6_of_ne m ρ c main_arg1 (by decide)).trans (W5_arg1 m ρ c)
theorem W7_arg1 : W7 m ρ c (Proc.devRef .tc main_arg1) = m ((c : Thread nD τ).loc main_arg1) :=
  (skip3_main_arg1 _).trans (W6_arg1 m ρ c)
theorem W8_arg1 : W8 m ρ c (Proc.devRef .tc main_arg1) = m ((c : Thread nD τ).loc main_arg1) :=
  (W8_of_ne m ρ c main_arg1 (by decide)).trans (W7_arg1 m ρ c)
theorem W1_arg2 : W1 m ρ c (Proc.devRef .tc main_arg2) = m ((c : Thread nD τ).loc main_arg2) :=
  (skip0_main_arg2 _).trans rfl
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (skip1_main_arg2 _).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (skip2_main_arg2 _).trans (W4_arg2 m ρ c)
theorem W6_arg2 : W6 m ρ c (Proc.devRef .tc main_arg2) = m ((c : Thread nD τ).loc main_arg2) :=
  (W6_of_ne m ρ c main_arg2 (by decide)).trans (W5_arg2 m ρ c)
theorem W7_arg2 : W7 m ρ c (Proc.devRef .tc main_arg2) = m ((c : Thread nD τ).loc main_arg2) :=
  (skip3_main_arg2 _).trans (W6_arg2 m ρ c)
theorem W8_arg2 : W8 m ρ c (Proc.devRef .tc main_arg2) = m ((c : Thread nD τ).loc main_arg2) :=
  (W8_of_ne m ρ c main_arg2 (by decide)).trans (W7_arg2 m ρ c)
theorem W1_arg3 : W1 m ρ c (Proc.devRef .tc main_arg3) = m ((c : Thread nD τ).loc main_arg3) :=
  (skip0_main_arg3 _).trans rfl
theorem W1_arg4 : W1 m ρ c (Proc.devRef .tc main_arg4) = m ((c : Thread nD τ).loc main_arg4) :=
  (skip0_main_arg4 _).trans rfl
theorem W1_arg6 : W1 m ρ c (Proc.devRef .tc main_arg6) = m ((c : Thread nD τ).loc main_arg6) :=
  (skip0_main_arg6 _).trans rfl
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (skip1_main_arg6 _).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) :=
  (skip2_main_arg6 _).trans (W4_arg6 m ρ c)
theorem W1_arg7 : W1 m ρ c (Proc.devRef .tc main_arg7) = m ((c : Thread nD τ).loc main_arg7) :=
  (skip0_main_arg7 _).trans rfl
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (skip1_main_arg7 _).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (skip2_main_arg7 _).trans (W4_arg7 m ρ c)
theorem W1_arg8 : W1 m ρ c (Proc.devRef .tc main_arg8) = m ((c : Thread nD τ).loc main_arg8) :=
  (skip0_main_arg8 _).trans rfl
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (skip1_main_arg8 _).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W1_arg9 : W1 m ρ c (Proc.devRef .tc main_arg9) = m ((c : Thread nD τ).loc main_arg9) :=
  (skip0_main_arg9 _).trans rfl
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (skip1_main_arg9 _).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (skip2_main_arg9 _).trans (W4_arg9 m ρ c)
theorem W6_arg9 : W6 m ρ c (Proc.devRef .tc main_arg9) = m ((c : Thread nD τ).loc main_arg9) :=
  (W6_of_ne m ρ c main_arg9 (by decide)).trans (W5_arg9 m ρ c)
theorem W7_arg9 : W7 m ρ c (Proc.devRef .tc main_arg9) = m ((c : Thread nD τ).loc main_arg9) :=
  (skip3_main_arg9 _).trans (W6_arg9 m ρ c)
theorem W8_arg9 : W8 m ρ c (Proc.devRef .tc main_arg9) = m ((c : Thread nD τ).loc main_arg9) :=
  (W8_of_ne m ρ c main_arg9 (by decide)).trans (W7_arg9 m ρ c)
theorem W9_arg9 : W9 m ρ c (Proc.devRef .tc main_arg9) = m ((c : Thread nD τ).loc main_arg9) :=
  (skip4_main_arg9 _).trans (W8_arg9 m ρ c)
theorem W1_arg10 : W1 m ρ c (Proc.devRef .tc main_arg10) = m ((c : Thread nD τ).loc main_arg10) :=
  (skip0_main_arg10 _).trans rfl
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (skip1_main_arg10 _).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (skip2_main_arg10 _).trans (W4_arg10 m ρ c)
theorem W6_arg10 : W6 m ρ c (Proc.devRef .tc main_arg10) = m ((c : Thread nD τ).loc main_arg10) :=
  (W6_of_ne m ρ c main_arg10 (by decide)).trans (W5_arg10 m ρ c)
theorem W7_arg10 : W7 m ρ c (Proc.devRef .tc main_arg10) = m ((c : Thread nD τ).loc main_arg10) :=
  (skip3_main_arg10 _).trans (W6_arg10 m ρ c)
theorem W8_arg10 : W8 m ρ c (Proc.devRef .tc main_arg10) = m ((c : Thread nD τ).loc main_arg10) :=
  (W8_of_ne m ρ c main_arg10 (by decide)).trans (W7_arg10 m ρ c)
theorem W9_arg10 : W9 m ρ c (Proc.devRef .tc main_arg10) = m ((c : Thread nD τ).loc main_arg10) :=
  (skip4_main_arg10 _).trans (W8_arg10 m ρ c)
theorem W1_arg11 : W1 m ρ c (Proc.devRef .tc main_arg11) = m ((c : Thread nD τ).loc main_arg11) :=
  (skip0_main_arg11 _).trans rfl
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (skip1_main_arg11 _).trans (W2_arg11 m ρ c)
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) :=
  (skip2_main_arg11 _).trans (W4_arg11 m ρ c)
theorem W6_arg11 : W6 m ρ c (Proc.devRef .tc main_arg11) = m ((c : Thread nD τ).loc main_arg11) :=
  (W6_of_ne m ρ c main_arg11 (by decide)).trans (W5_arg11 m ρ c)
theorem W7_arg11 : W7 m ρ c (Proc.devRef .tc main_arg11) = m ((c : Thread nD τ).loc main_arg11) :=
  (skip3_main_arg11 _).trans (W6_arg11 m ρ c)
theorem W8_arg11 : W8 m ρ c (Proc.devRef .tc main_arg11) = m ((c : Thread nD τ).loc main_arg11) :=
  (W8_of_ne m ρ c main_arg11 (by decide)).trans (W7_arg11 m ρ c)
theorem W1_arg12 : W1 m ρ c (Proc.devRef .tc main_arg12) = m ((c : Thread nD τ).loc main_arg12) :=
  (skip0_main_arg12 _).trans rfl
theorem W2_arg12 : W2 m ρ c (Proc.devRef .tc main_arg12) = m ((c : Thread nD τ).loc main_arg12) :=
  (W2_of_ne m ρ c main_arg12 (by decide)).trans (W1_arg12 m ρ c)
theorem W1_arg13 : W1 m ρ c (Proc.devRef .tc main_arg13) = m ((c : Thread nD τ).loc main_arg13) :=
  (skip0_main_arg13 _).trans rfl
theorem W2_arg13 : W2 m ρ c (Proc.devRef .tc main_arg13) = m ((c : Thread nD τ).loc main_arg13) :=
  (W2_of_ne m ρ c main_arg13 (by decide)).trans (W1_arg13 m ρ c)
theorem W1_arg14 : W1 m ρ c (Proc.devRef .tc main_arg14) = m ((c : Thread nD τ).loc main_arg14) :=
  (skip0_main_arg14 _).trans rfl
theorem W2_arg14 : W2 m ρ c (Proc.devRef .tc main_arg14) = m ((c : Thread nD τ).loc main_arg14) :=
  (W2_of_ne m ρ c main_arg14 (by decide)).trans (W1_arg14 m ρ c)
theorem W3_arg14 : W3 m ρ c (Proc.devRef .tc main_arg14) = m ((c : Thread nD τ).loc main_arg14) :=
  (skip1_main_arg14 _).trans (W2_arg14 m ρ c)
theorem W4_arg14 : W4 m ρ c (Proc.devRef .tc main_arg14) = m ((c : Thread nD τ).loc main_arg14) :=
  (W4_of_ne m ρ c main_arg14 (by decide)).trans (W3_arg14 m ρ c)
theorem W5_arg14 : W5 m ρ c (Proc.devRef .tc main_arg14) = m ((c : Thread nD τ).loc main_arg14) :=
  (skip2_main_arg14 _).trans (W4_arg14 m ρ c)
theorem W6_arg14 : W6 m ρ c (Proc.devRef .tc main_arg14) = m ((c : Thread nD τ).loc main_arg14) :=
  (W6_of_ne m ρ c main_arg14 (by decide)).trans (W5_arg14 m ρ c)
theorem W1_arg15 : W1 m ρ c (Proc.devRef .tc main_arg15) = m ((c : Thread nD τ).loc main_arg15) :=
  (skip0_main_arg15 _).trans rfl
theorem W2_arg15 : W2 m ρ c (Proc.devRef .tc main_arg15) = m ((c : Thread nD τ).loc main_arg15) :=
  (W2_of_ne m ρ c main_arg15 (by decide)).trans (W1_arg15 m ρ c)
theorem W3_arg15 : W3 m ρ c (Proc.devRef .tc main_arg15) = m ((c : Thread nD τ).loc main_arg15) :=
  (skip1_main_arg15 _).trans (W2_arg15 m ρ c)
theorem W4_arg15 : W4 m ρ c (Proc.devRef .tc main_arg15) = m ((c : Thread nD τ).loc main_arg15) :=
  (W4_of_ne m ρ c main_arg15 (by decide)).trans (W3_arg15 m ρ c)
theorem W5_arg15 : W5 m ρ c (Proc.devRef .tc main_arg15) = m ((c : Thread nD τ).loc main_arg15) :=
  (skip2_main_arg15 _).trans (W4_arg15 m ρ c)
theorem W6_arg15 : W6 m ρ c (Proc.devRef .tc main_arg15) = m ((c : Thread nD τ).loc main_arg15) :=
  (W6_of_ne m ρ c main_arg15 (by decide)).trans (W5_arg15 m ρ c)

end Cert.KernelIdeal.Keep

end
-- ==== Proof.KHostA.lean ====
/-
  The operations before the first, third and fifth kernel: the neighbourhood mean of the features the kernel is
  about to read, and the layer's shift as a one-row matrix. Each is the program's own chain of operations applied to
  the contents found at the boundary before it.
-/
import proofs.«165639_j20710332301837_1_alg».proof.Proof.Gen.KernelIdeal.Frame
import proofs.«165639_j20710332301837_1_alg».proof.Proof.AggFacts
import Idealize.ShloMosaic.Lib.StableHlo.Run
import Idealize.ShloMosaic.Lib.Pipeline.Value
import Idealize.ShloMosaic.Lib.ValueLayout
import Idealize.ShloMosaic.Lib.Tactic

set_option maxRecDepth 16384

noncomputable section

namespace Cert.KernelIdeal.HostA

open Cert.KernelIdeal Cert.KernelIdeal.Gen Cert.KernelIdeal.Facts₀ Cert.Sage
open Idealize.ShloMosaic Idealize.ShloMosaic.TcCoe Idealize.SL.Sem Idealize.ShloMosaic.Tactic Idealize.ShloMosaic.ValueIdx

variable (m : (ℓ : Loc nD τ sig) → Buf (Elt Ideal) ℓ) (ρ : Dev nD → PrngReg) (c : Dev nD)

/-- A vector cast to a one-row matrix has the vector as its row. -/
theorem row1_cast {a : ℕ} (x : (⟨1, ![a]⟩ : Shape).Idx → EReal) (h : (⟨1, ![a]⟩ : Shape).ShapeCasts ⟨2, ![1, a]⟩) :
    row1 (shapeCast ⟨2, ![1, a]⟩ x h) = fn1 x := by
  funext q
  exact shapeCast_a_1a_apply x h 0 q

/-! ## Before the first kernel -/

set_option maxHeartbeats 2000000 in
theorem agg0 : V1 m ρ c main_v18 = Agg.mean (W0 m ρ c (Proc.devRef .tc main_arg0)) (W0 m ρ c (Proc.devRef .tc main_arg1))
    (W0 m ρ c (Proc.devRef .tc main_arg2)) := by
  show StableHlo.after hostOps0 (W0 m ρ c) (Proc.devRef .tc main_v18) = _
  after_results
  rfl

set_option maxHeartbeats 2000000 in
theorem bias0 : row1 (V1 m ρ c main_v19 : S1x128.Idx → EReal) = fn1 (W0 m ρ c (Proc.devRef .tc main_arg5) : S128.Idx → EReal) := by
  have e : (V1 m ρ c main_v19 : S1x128.Idx → EReal)
      = shapeCast S1x128 (W0 m ρ c (Proc.devRef .tc main_arg5) : S128.Idx → EReal) Facts₀.shapeCasts_S128_S1x128 := by
    show StableHlo.after hostOps0 (W0 m ρ c) (Proc.devRef .tc main_v19) = _
    after_results
    rfl
  rw [e]
  exact row1_cast _ _

/-! ## Before the third kernel -/

set_option maxHeartbeats 2000000 in
theorem agg2 : V5 m ρ c main_v48 = Agg.mean (W4 m ρ c (Proc.devRef .tc main_v29)) (W4 m ρ c (Proc.devRef .tc main_arg1))
    (W4 m ρ c (Proc.devRef .tc main_arg2)) := by
  show StableHlo.after hostOps2 (W4 m ρ c) (Proc.devRef .tc main_v48) = _
  after_results
  rfl

set_option maxHeartbeats 2000000 in
theorem bias2 : row1 (V5 m ρ c main_v49 : S1x128.Idx → EReal) = fn1 (W4 m ρ c (Proc.devRef .tc main_arg8) : S128.Idx → EReal) := by
  have e : (V5 m ρ c main_v49 : S1x128.Idx → EReal)
      = shapeCast S1x128 (W4 m ρ c (Proc.devRef .tc main_arg8) : S128.Idx → EReal) Facts₀.shapeCasts_S128_S1x128 := by
    show StableHlo.after hostOps2 (W4 m ρ c) (Proc.devRef .tc main_v49) = _
    after_results
    rfl
  rw [e]
  exact row1_cast _ _

/-! ## Before the fifth kernel -/

set_option maxHeartbeats 2000000 in
theorem agg4 : V9 m ρ c main_v78 = Agg.mean (W8 m ρ c (Proc.devRef .tc main_v59)) (W8 m ρ c (Proc.devRef .tc main_arg1))
    (W8 m ρ c (Proc.devRef .tc main_arg2)) := by
  show StableHlo.after hostOps4 (W8 m ρ c) (Proc.devRef .tc main_v78) = _
  after_results
  rfl

set_option maxHeartbeats 2000000 in
theorem bias4 : row1 (V9 m ρ c main_v79 : S1x64.Idx → EReal) = fn1 (W8 m ρ c (Proc.devRef .tc main_arg11) : S64.Idx → EReal) := by
  have e : (V9 m ρ c main_v79 : S1x64.Idx → EReal)
      = shapeCast S1x64 (W8 m ρ c (Proc.devRef .tc main_arg11) : S64.Idx → EReal) Facts₀.shapeCasts_S64_S1x64 := by
    show StableHlo.after hostOps4 (W8 m ρ c) (Proc.devRef .tc main_v79) = _
    after_results
    rfl
  rw [e]
  exact row1_cast _ _

end Cert.KernelIdeal.HostA

end
-- ==== Proof.ConvStats0.lean ====
/-
  The statistics step of the first layer, read as values over the extended reals.

  The step walks the 50000 rows of the node features `h` and of the neighbourhood means `a` in ten blocks of 5000 rows.
  At block `t` it forms `z = h · Ws + a · Wn + b` on the block's rows and stores it as rows `5000 t … 5000 t + 4999`
  of its first result; two row vectors, set to zero before the first block, receive the block's column sums of `z` and
  of `z * z` on top of what they held, and are written out once, after the last block.

  Here: what each of the two control cases (first block, later block) leaves in the three result buffers, as the stored
  arithmetic of the buffers read; that arithmetic at a row and a column (a product into the zero matrix is the plain sum
  over the inner index, a change of float format is the identity, a reduction along the rows is the plain sum over the
  rows); each block of the inputs as rows of the arrays; by induction on the block, the running contents of the two row
  vectors as the sum of the blocks' column sums so far; the ten partial sums regrouped into ONE sum over all 50000 rows
  (addition on the extended reals is associative and commutative with neutral zero, so no finiteness is needed); and
  the three result arrays after the last block: the layer itself, its column sums, its column sums of squares.
-/
import proofs.«165639_j20710332301837_1_alg».proof.Proof.Gen.KernelIdeal.Frame
import proofs.«165639_j20710332301837_1_alg».proof.Proof.Spec
import Idealize.ShloMosaic.Lib.Pipeline.Value
import Idealize.ShloMosaic.Lib.Tactic
import Idealize.ShloMosaic.PureOps.Ideal.Laws
import Idealize.ShloMosaic.Lib.ValueIdx

noncomputable section

namespace Cert.KernelIdeal.ConvStats0

open Idealize.ShloMosaic Idealize.ShloMosaic.TcCoe Idealize.SL.Sem
open Idealize.ShloMosaic.Pipeline (Dat)
open Cert.KernelIdeal Cert.KernelIdeal.Gen Cert.Sage

variable {F : FTy → Type} [FloatOps F]

theorem hz : (![0, 0] : Fin 2 → Nat) = fun _ => 0 := funext fun a => by fin_cases a <;> rfl

theorem out_A_5 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_5 c i a1 h1 a2 h2 a3 h3 a4 h4 a5 h5 a6 h6 a7 h7 a8 h8 hc x0 x1 x2 x3 x4 = k0_pay3 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_A_6 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay4 x0 x1 x2 x3 x4 k0_pay1 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_A_7 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond0_0 i) (x0 x1 : Vec F S5000x128 .f32) (x2 x3 : Vec F S128x128 .f32) (x4 : Vec F S1x128 .f32) :
    out0_A_7 c i a1 h1 a2 h2 a3 h3 a4 h4 a5 h5 a6 h6 a7 h7 a8 h8 hc x0 x1 x2 x3 x4 = k0_pay5 x0 x1 x2 x3 x4 k0_pay2 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_B_5 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay3 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_B_6 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread,
    View.ld_unit_zero (S := S5000x128) hz, View.ld_unit_zero (S := S128x128) hz, View.ld_unit_zero (S := S1x128) hz]

theorem out_B_7 (c : Dev nD) (i : grid0.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond0_0 i) (x0 x1 : Vec F S5000x128 .f32) (x2 x3 : Vec F S128x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S5000x128) hz, View.ld_unit_zero (S := S128x128) hz, View.ld_unit_zero (S := S1x128) hz]

/-! ## The body's arithmetic at an index, over the extended reals -/

section Payloads
open Idealize.ShloMosaic.ValueIdx

theorem lhs_row (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_col (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a block with a weight matrix into the zero accumulator, at row `p` and column `q`: the sum over the inner index. -/
theorem mm_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q) = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The stored block at row `p`, column `q`: the two products' sums and the bias. -/
theorem pay3_apply (x0 x1 : Vec Ideal S5000x128 .f32) (x2 x3 : Vec Ideal S128x128 .f32) (x4 : Vec Ideal S1x128 .f32) (p : Fin 5000) (q : Fin 128) :
    k0_pay3 x0 x1 x2 x3 x4 (ix2 p q)
      = ((∑ k : Fin 128, x0 (ix2 p k) * x2 (ix2 k q)) + (∑ k : Fin 128, x1 (ix2 p k) * x3 (ix2 k q))) + x4 (ix2 0 q) := by
  unfold k0_pay3
  refine congrArg₂ (· + ·) (congrArg₂ (· + ·) ?_ ?_) ?_
  · exact mm_apply _ _ p q
  · refine (mm_apply _ _ p q).trans ?_
    rw [shapeCast_self]
    rfl
  · rw [shapeCast_self]
    exact broadcastTo_apply x4 _ (ix2 p q) (ix2 0 q) (fun a => by match a with | ⟨0, _⟩ => rfl | ⟨1, _⟩ => rfl)

end Payloads

section Sums
open Idealize.ShloMosaic.ValueIdx

/-- A sum over the rows of a block, reshaped to one row, at column `q`. -/
theorem rowsum_apply (z : FVec Ideal S5000x128 .f32) (hacc : (0x00000000#32 : BitVec 32) = 0x00000000#32) (q : Fin 128) :
    shapeCast S1x128 (multiReduction .add [0] S128 z 0x00000000#32 reduces_S5000x128_S128 (.inl rfl) hacc) shapeCasts_S128_S1x128 (ix2 0 q)
      = ∑ p : Fin 5000, z (ix2 p q) := by
  refine (shapeCast_addUnit_apply ![128] _ shapeCasts_S128_S1x128 (ix2 0 q)).trans ?_
  refine (Ideal.multiReduction_add_single z 0x00000000#32 reduces_S5000x128_S128 (.inl rfl) hacc _).trans ?_
  refine Finset.sum_congr rfl fun p _ => congrArg z (funext fun a => Fin.ext ?_)
  match a with
  | ⟨0, _⟩ => rfl
  | ⟨1, _⟩ => rfl

/-- The first accumulator's new contents at column `q`: what it held plus the block's column sum. -/
theorem pay4_apply (x0 x1 : Vec Ideal S5000x128 .f32) (x2 x3 : Vec Ideal S128x128 .f32) (x4 : Vec Ideal S1x128 .f32) (acc : Vec Ideal S1x128 .f32) (q : Fin 128) :
    k0_pay4 x0 x1 x2 x3 x4 acc (ix2 0 q) = acc (ix2 0 q) + ∑ p : Fin 5000, k0_pay3 x0 x1 x2 x3 x4 (ix2 p q) := by
  unfold k0_pay4
  refine congrArg₂ (· + ·) ?_ (rowsum_apply _ rfl q)
  rw [shapeCast_self]

/-- The second accumulator's new contents at column `q`: what it held plus the block's column sum of squares. -/
theorem pay5_apply (x0 x1 : Vec Ideal S5000x128 .f32) (x2 x3 : Vec Ideal S128x128 .f32) (x4 : Vec Ideal S1x128 .f32) (acc : Vec Ideal S1x128 .f32) (q : Fin 128) :
    k0_pay5 x0 x1 x2 x3 x4 acc (ix2 0 q)
      = acc (ix2 0 q) + ∑ p : Fin 5000, k0_pay3 x0 x1 x2 x3 x4 (ix2 p q) * k0_pay3 x0 x1 x2 x3 x4 (ix2 p q) := by
  unfold k0_pay5
  refine congrArg₂ (· + ·) ?_ (rowsum_apply _ rfl q)
  rw [shapeCast_self]

/-- The accumulators start at zero. -/
theorem pay1_apply (j : S1x128.Idx) : (k0_pay1 : FVec Ideal S1x128 .f32) j = 0 := Ideal.ofBits_zero_f32
theorem pay2_apply (j : S1x128.Idx) : (k0_pay2 : FVec Ideal S1x128 .f32) j = 0 := Ideal.ofBits_zero_f32

end Sums

/-! ## The blocks as rows of the arrays -/

section Reads
open Idealize.ShloMosaic.ValueIdx

variable (V : (c : Dev nD) → (b : Ref sig .tc) → Buf (Elt Ideal) ((c : Thread nD τ).loc b))

/-- One layer before normalisation, of the arrays as the region finds them. -/
def pre (c : Dev nD) : Mat 50000 128 :=
  conv (fn2 (V c main_arg0 : S50000x128.Idx → EReal)) (fn2 (V c main_v18 : S50000x128.Idx → EReal))
    (fn2 (V c main_arg3 : S128x128.Idx → EReal)) (fn2 (V c main_arg4 : S128x128.Idx → EReal)) (row1 (V c main_v19 : S1x128.Idx → EReal))

/-- The block indices of every window at a point: the two row-blocked inputs and the row-blocked output move with the
    point, everything else stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of the node-feature block at point `t` is row `5000 t + p` of the array. -/
theorem iblk_h (c : Dev nD) (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → EReal) (ix2 r k) := by
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [(idx_facts t).1, hr]; omega
  | ⟨1, _⟩ => show win0_0.index t (1 : Fin 2) * 128 + 1 * k.val = k.val; rw [(idx_facts t).2.1]; omega

/-- Row `p` of the neighbourhood-mean block at point `t` is row `5000 t + p` of the array. -/
theorem iblk_a (c : Dev nD) (t : Fin cfg0.N) (p : Fin 5000) (k : Fin 128) (r : Fin 50000) (hr : r.val = 5000 * t.val + p.val) :
    (iblk0 V c 1 t : Vec Ideal S5000x128 .f32) (ix2 p k) = (V c main_v18 : S50000x128.Idx → EReal) (ix2 r k) := by
  unfold iblk0
  rw [View.read_apply]
  show V c main_v18 _ = V c main_v18 _
  refine congrArg _ (funext fun a => Fin.ext ?_)
  match a with
  | ⟨0, _⟩ => show win0_1.index t (0 : Fin 2) * 5000 + 1 * p.val = r.val; rw [(idx_facts t).2.2.1, hr]; omega
  | ⟨1, _⟩ => show win0_1.index t (1 : Fin 2) * 128 + 1 * k.val = k.val; rw [(idx_facts t).2.2.2.1]; omega

/-- The two weight blocks and the bias block are the whole arrays at every point. -/
theorem iblk_ws (c : Dev nD) (t : Fin cfg0.N) (k q : Fin 128) :
    (iblk0 V c 2 t : Vec Ideal S128x128 .f32) (ix2 k q) = (V c main_arg3 : S128x128.Idx → EReal) (ix2 k q) := by
  unfold iblk0
  rw [View.read_apply]
  show V c main_arg3 _ = V c main_arg3 _
  refine congrArg _ (funext fun a => Fin.ext ?_)
  match a with
  | ⟨0, _⟩ => show win0_2.index t (0 : Fin 2) * 128 + 1 * k.val = k.val; rw [(idx_facts t).2.2.2.2.1]; omega
  | ⟨1, _⟩ => show win0_2.index t (1 : Fin 2) * 128 + 1 * q.val = q.val; rw [(idx_facts t).2.2.2.2.2.1]; omega
theorem iblk_wn (c : Dev nD) (t : Fin cfg0.N) (k q : Fin 128) :
    (iblk0 V c 3 t : Vec Ideal S128x128 .f32) (ix2 k q) = (V c main_arg4 : S128x128.Idx → EReal) (ix2 k q) := by
  unfold iblk0
  rw [View.read_apply]
  show V c main_arg4 _ = V c main_arg4 _
  refine congrArg _ (funext fun a => Fin.ext ?_)
  match a with
  | ⟨0, _⟩ => show win0_3.index t (0 : Fin 2) * 128 + 1 * k.val = k.val; rw [(idx_facts t).2.2.2.2.2.2.1]; omega
  | ⟨1, _⟩ => show win0_3.index t (1 : Fin 2) * 128 + 1 * q.val = q.val; rw [(idx_facts t).2.2.2.2.2.2.2.1]; omega
theorem iblk_b (c : Dev nD) (t : Fin cfg0.N) (q : Fin 128) :
    (iblk0 V c 4 t : Vec Ideal S1x128 .f32) (ix2 0 q) = (V c main_v19 : S1x128.Idx → EReal) (ix2 0 q) := by
  unfold iblk0
  rw [View.read_apply]
  show V c main_v19 _ = V c main_v19 _
  refine congrArg _ (funext fun a => Fin.ext ?_)
  match a with
  | ⟨0, _⟩ => show win0_4.index t (0 : Fin 2) * 1 + 1 * 0 = 0; rw [(idx_facts t).2.2.2.2.2.2.2.2.1]
  | ⟨1, _⟩ => show win0_4.index t (1 : Fin 2) * 128 + 1 * q.val = q.val; rw [(idx_facts t).2.2.2.2.2.2.2.2.2.1]; omega

/-- What the body stores to the first output at point `t`. -/
def blockAt (c : Dev nD) (t : Fin cfg0.N) : FVec Ideal S5000x128 .f32 :=
  k0_pay3 (iblk0 V c 0 t) (iblk0 V c 1 t) (iblk0 V c 2 t) (iblk0 V c 3 t) (iblk0 V c 4 t)

/-- It is rows `5000 t … 5000 t + 4999` of the layer. -/
theorem blockAt_apply (c : Dev nD) (t : Fin cfg0.N) (p : Fin 5000) (q : Fin 128) (r : Fin 50000) (hr : r.val = 5000 * t.val + p.val) :
    blockAt V c t (ix2 p q) = pre V c r q := by
  unfold blockAt
  rw [pay3_apply]
  unfold pre conv fn2 row1
  refine congrArg₂ (· + ·) (congrArg₂ (· + ·) (Finset.sum_congr rfl fun k _ => ?_) (Finset.sum_congr rfl fun k _ => ?_)) (iblk_b V c t q)
  · rw [iblk_h V c t p k r hr, iblk_ws V c t k q]
  · rw [iblk_a V c t p k r hr, iblk_wn V c t k q]

end Reads

/-! ## What the outputs hold after each point -/

section Accumulation
open Idealize.ShloMosaic.ValueIdx

variable (V : (c : Dev nD) → (b : Ref sig .tc) → Buf (Elt Ideal) ((c : Thread nD τ).loc b))

/-- The layer's entry at a row given as a natural number (zero past the last row). -/
def preN (c : Dev nD) (r : ℕ) (q : Fin 128) : EReal := if h : r < 50000 then pre V c ⟨r, h⟩ q else 0

theorem blockAt_preN (c : Dev nD) (t : Fin cfg0.N) (p : Fin 5000) (q : Fin 128) :
    blockAt V c t (ix2 p q) = preN V c (5000 * t.val + p.val) q := by
  have hN : t.val < 10 := lt_of_lt_of_eq t.isLt (show cfg0.N = 10 from N_0)
  have hlt : 5000 * t.val + p.val < 50000 := by have := p.isLt; omega
  unfold preN
  rw [dif_pos hlt]
  exact blockAt_apply V c t p q ⟨_, hlt⟩ rfl

/-- Block `t`'s column sum, and its column sum of squares. -/
def sumAt (c : Dev nD) (t : ℕ) (q : Fin 128) : EReal := ∑ p : Fin 5000, preN V c (5000 * t + p.val) q
def sumSqAt (c : Dev nD) (t : ℕ) (q : Fin 128) : EReal := ∑ p : Fin 5000, preN V c (5000 * t + p.val) q * preN V c (5000 * t + p.val) q

/-- After point `n` the first output's buffer holds block `n` of the layer, and the two accumulators hold the column
    sums and the column sums of squares of blocks `0 … n`: by induction on the point. -/
theorem outsAt_eq (c : Dev nD) : ∀ (n : ℕ) (h : n < cfg0.N),
    (outsAt0 V c n h).1 = blockAt V c ⟨n, h⟩
    ∧ (∀ q : Fin 128, (outsAt0 V c n h).2.1 (ix2 0 q) = ∑ t ∈ Finset.range (n + 1), sumAt V c t q)
    ∧ (∀ q : Fin 128, (outsAt0 V c n h).2.2 (ix2 0 q) = ∑ t ∈ Finset.range (n + 1), sumSqAt V c t q)
  | 0, h => by
    rw [outsAt0_A V c ⟨0, h⟩ rfl]
    dsimp only
    refine ⟨out_A_5 .., fun q => ?_, fun q => ?_⟩
    · rw [out_A_6, pay4_apply, pay1_apply, zero_add, Finset.sum_range_one]
      exact Finset.sum_congr rfl fun p _ => blockAt_preN V c ⟨0, h⟩ p q
    · rw [out_A_7, pay5_apply, pay2_apply, zero_add, Finset.sum_range_one]
      exact Finset.sum_congr rfl fun p _ => by rw [← blockAt_preN V c ⟨0, h⟩ p q]; rfl
  | n + 1, h => by
    have hN : cfg0.N = 10 := N_0
    have hB : ¬(⟨n + 1, h⟩ : Fin cfg0.N).val % 10 = 0 := by dsimp only; omega
    obtain ⟨-, ih6, ih7⟩ := outsAt_eq c n (Nat.lt_of_succ_lt h)
    rw [outsAt0_B V c ⟨n + 1, h⟩ hB]
    dsimp only
    refine ⟨out_B_5 .., fun q => ?_, fun q => ?_⟩
    · rw [out_B_6, pay4_apply, Finset.sum_range_succ]
      exact congrArg₂ (· + ·) (ih6 q) (Finset.sum_congr rfl fun p _ => blockAt_preN V c ⟨n + 1, h⟩ p q)
    · rw [out_B_7, pay5_apply, Finset.sum_range_succ]
      exact congrArg₂ (· + ·) (ih7 q) (Finset.sum_congr rfl fun p _ => by rw [← blockAt_preN V c ⟨n + 1, h⟩ p q]; rfl)

/-- The ten blocks' sums regroup into one sum over all rows. -/
theorem sum_blocks (g : ℕ → EReal) :
    ∑ t ∈ Finset.range 10, ∑ p : Fin 5000, g (5000 * t + p.val) = ∑ r : Fin 50000, g r.val := by
  rw [Finset.sum_range (fun t => ∑ p : Fin 5000, g (5000 * t + p.val)), ← Fintype.sum_prod_type (f := fun x : Fin 10 × Fin 5000 => g (5000 * x.1.val + x.2.val))]
  rw [← Equiv.sum_comp (finProdFinEquiv (m := 10) (n := 5000)) (fun r : Fin (10 * 5000) => g r.val)]
  refine Finset.sum_congr rfl fun x _ => congrArg g ?_
  show 5000 * x.1.val + x.2.val = x.2.val + 5000 * x.1.val
  omega

theorem preN_val (c : Dev nD) (r : Fin 50000) (q : Fin 128) : preN V c r.val q = pre V c r q := by
  unfold preN
  rw [dif_pos r.isLt]

/-- After the last point the accumulators hold the layer's column sums and column sums of squares. -/
theorem acc6_last (c : Dev nD) : (outsAt0 V c t0_9.val t0_9.isLt).2.1 = arrRow (colSum (pre V c)) := by
  funext j
  obtain ⟨z, q, rfl⟩ : ∃ (z : Fin 1) (q : Fin 128), j = ix2 z q := ⟨j 0, j 1, eq_ix2 j⟩
  obtain rfl : z = 0 := Subsingleton.elim _ _
  rw [(outsAt_eq V c t0_9.val t0_9.isLt).2.1 q]
  show ∑ t ∈ Finset.range 10, sumAt V c t q = colSum (pre V c) q
  unfold sumAt colSum
  rw [sum_blocks (fun r => preN V c r q)]
  exact Finset.sum_congr rfl fun r _ => preN_val V c r q

theorem acc7_last (c : Dev nD) : (outsAt0 V c t0_9.val t0_9.isLt).2.2 = arrRow (colSumSq (pre V c)) := by
  funext j
  obtain ⟨z, q, rfl⟩ : ∃ (z : Fin 1) (q : Fin 128), j = ix2 z q := ⟨j 0, j 1, eq_ix2 j⟩
  obtain rfl : z = 0 := Subsingleton.elim _ _
  rw [(outsAt_eq V c t0_9.val t0_9.isLt).2.2 q]
  show ∑ t ∈ Finset.range 10, sumSqAt V c t q = colSumSq (pre V c) q
  unfold sumSqAt colSumSq
  rw [sum_blocks (fun r => preN V c r q * preN V c r q)]
  exact Finset.sum_congr rfl fun r _ => by rw [preN_val V c r q]

end Accumulation

/-! ## The arrays after the region -/

section Arrays
open Idealize.ShloMosaic.ValueIdx

variable (V : (c : Dev nD) → (b : Ref sig .tc) → Buf (Elt Ideal) ((c : Thread nD τ).loc b))

/-- What point `t` writes back to the first output is block `t` of the layer. -/
theorem flushed5_eq (c : Dev nD) (t : Fin cfg0.N) :
    (dat0 (F := Ideal) V c).flushed 5 t = ((cfg0.win 5).blk t).view.read (Elt Ideal) (arr2 (pre V c)) := by
  show (cfg0.win 5).cut (grid0.coords t) ((dat0 (F := Ideal) V c).after 5 t) = _
  rw [after0_5, (outsAt_eq V c t.val t.isLt).1]
  funext j
  have hN : t.val < 10 := lt_of_lt_of_eq t.isLt (show cfg0.N = 10 from N_0)
  have hj0 : (j 0).val < 5000 := (j 0).isLt
  have hj1 : (j 1).val < 128 := (j 1).isLt
  show blockAt V c t j = arr2 (pre V c) (((cfg0.win 5).blk t).view.emb j)
  have hlt : 5000 * t.val + (j 0).val < 50000 := by omega
  have e : ((cfg0.win 5).blk t).view.emb j = ix2 (⟨5000 * t.val + (j 0).val, hlt⟩ : Fin 50000) (⟨(j 1).val, hj1⟩ : Fin 128) := by
    funext a; apply Fin.ext
    match a with
    | ⟨0, _⟩ => show win0_5.index t (0 : Fin 2) * 5000 + 1 * (j 0).val = 5000 * t.val + (j 0).val; rw [(idx_facts t).2.2.2.2.2.2.2.2.2.2.1]; omega
    | ⟨1, _⟩ => show win0_5.index t (1 : Fin 2) * 128 + 1 * (j 1).val = (j 1).val; rw [(idx_facts t).2.2.2.2.2.2.2.2.2.2.2.1]; omega
  rw [e, arr2_apply]
  have ej : j = ix2 (⟨(j 0).val, hj0⟩ : Fin 5000) (⟨(j 1).val, hj1⟩ : Fin 128) := by
    funext a
    match a with
    | ⟨0, _⟩ => rfl
    | ⟨1, _⟩ => rfl
  exact (congrArg (blockAt V c t) ej).trans (blockAt_apply V c t _ _ _ rfl)

/-- An index of the first output's array is in point `t`'s block iff each coordinate is in the block's range. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20_0).slice (win0_5.rect t)).set ↔ _
  rw [View.set_slice_whole, Rect.mem_set_unit]
  exact Iff.rfl

/-- The first output's array ends holding the layer: row `r` is written at point `r / 5000`. -/
theorem out5 (c : Dev nD) : (dat0 (F := Ideal) V c).arrAt 5 cfg0.N = arr2 (pre V c) :=
  (dat0 (F := Ideal) V c).arrAt_eq_of_cover 5 (arr2 (pre V c)) (fun t _ => flushed5_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_5 _, ?_⟩
    rw [mem_blk5]
    intro a
    match a with
    | ⟨0, _⟩ =>
      show win0_5.index _ (0 : Fin 2) * 5000 ≤ (i 0).val ∧ (i 0).val < win0_5.index _ (0 : Fin 2) * 5000 + 5000
      rw [(idx_facts _).2.2.2.2.2.2.2.2.2.2.1]; dsimp only; omega
    | ⟨1, _⟩ =>
      show win0_5.index _ (1 : Fin 2) * 128 ≤ (i 1).val ∧ (i 1).val < win0_5.index _ (1 : Fin 2) * 128 + 128
      rw [(idx_facts _).2.2.2.2.2.2.2.2.2.2.2.1]; omega

/-- The one write-back of the first accumulator, at the last point, writes the layer's column sums. -/
theorem flushed6_eq (c : Dev nD) (t : Fin cfg0.N) (hf : (cfg0.win 6).flush t = true) :
    (dat0 (F := Ideal) V c).flushed 6 t = ((cfg0.win 6).blk t).view.read (Elt Ideal) (arrRow (colSum (pre V c))) := by
  have hN : cfg0.N = 10 := N_0
  have h9 : t.val = 9 := by have := (flush0_6 t).mp hf; have := t.isLt; omega
  obtain rfl : t = t0_9 := Fin.ext h9
  show (cfg0.win 6).cut (grid0.coords t0_9) ((dat0 (F := Ideal) V c).after 6 t0_9) = _
  rw [after0_6, acc6_last V c]
  have hz' : (fun a => win0_6.index t0_9 a * main_v20_1.ty.shape.size a) = fun _ => 0 := funext fun a => by fin_cases a <;> decide
  exact (Memref.read_access_unit_zero (Elt Ideal) main_v20_1 hz' (fun a => by rw [congrFun hz' a]; simp) (arrRow (colSum (pre V c)))).symm

theorem flushed7_eq (c : Dev nD) (t : Fin cfg0.N) (hf : (cfg0.win 7).flush t = true) :
    (dat0 (F := Ideal) V c).flushed 7 t = ((cfg0.win 7).blk t).view.read (Elt Ideal) (arrRow (colSumSq (pre V c))) := by
  have hN : cfg0.N = 10 := N_0
  have h9 : t.val = 9 := by have := (flush0_7 t).mp hf; have := t.isLt; omega
  obtain rfl : t = t0_9 := Fin.ext h9
  show (cfg0.win 7).cut (grid0.coords t0_9) ((dat0 (F := Ideal) V c).after 7 t0_9) = _
  rw [after0_7, acc7_last V c]
  have hz' : (fun a => win0_7.index t0_9 a * main_v20_2.ty.shape.size a) = fun _ => 0 := funext fun a => by fin_cases a <;> decide
  exact (Memref.read_access_unit_zero (Elt Ideal) main_v20_2 hz' (fun a => by rw [congrFun hz' a]; simp) (arrRow (colSumSq (pre V c)))).symm

/-- The last point's block of an accumulator's array is the whole array. -/
theorem cover6 (i : S1x128.Idx) : ∃ t : Fin cfg0.N, (cfg0.win 6).flush t = true ∧ i ∈ ((cfg0.win 6).blk t).view.set :=
  ⟨t0_9, (flush0_6 t0_9).mpr rfl, by
    show i ∈ ((View.whole main_v20_1).slice (win0_6.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_6.index t0_9 0 * win0_6.size 0 ≤ (i 0 : Nat) ∧ (i 0 : Nat) < win0_6.index t0_9 0 * win0_6.size 0 + win0_6.xsize (grid0.coords t0_9) 0
                rw [show win0_6.index t0_9 0 * win0_6.size 0 = 0 from by decide +kernel, show win0_6.xsize (grid0.coords t0_9) 0 = 1 from by decide +kernel]; omega
    | ⟨1, _⟩ => show win0_6.index t0_9 1 * win0_6.size 1 ≤ (i 1 : Nat) ∧ (i 1 : Nat) < win0_6.index t0_9 1 * win0_6.size 1 + win0_6.xsize (grid0.coords t0_9) 1
                rw [show win0_6.index t0_9 1 * win0_6.size 1 = 0 from by decide +kernel, show win0_6.xsize (grid0.coords t0_9) 1 = 128 from by decide +kernel]; omega⟩

theorem cover7 (i : S1x128.Idx) : ∃ t : Fin cfg0.N, (cfg0.win 7).flush t = true ∧ i ∈ ((cfg0.win 7).blk t).view.set :=
  ⟨t0_9, (flush0_7 t0_9).mpr rfl, by
    show i ∈ ((View.whole main_v20_2).slice (win0_7.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_7.index t0_9 0 * win0_7.size 0 ≤ (i 0 : Nat) ∧ (i 0 : Nat) < win0_7.index t0_9 0 * win0_7.size 0 + win0_7.xsize (grid0.coords t0_9) 0
                rw [show win0_7.index t0_9 0 * win0_7.size 0 = 0 from by decide +kernel, show win0_7.xsize (grid0.coords t0_9) 0 = 1 from by decide +kernel]; omega
    | ⟨1, _⟩ => show win0_7.index t0_9 1 * win0_7.size 1 ≤ (i 1 : Nat) ∧ (i 1 : Nat) < win0_7.index t0_9 1 * win0_7.size 1 + win0_7.xsize (grid0.coords t0_9) 1
                rw [show win0_7.index t0_9 1 * win0_7.size 1 = 0 from by decide +kernel, show win0_7.xsize (grid0.coords t0_9) 1 = 128 from by decide +kernel]; omega⟩

/-- The two accumulators' arrays end holding the layer's column sums and column sums of squares. -/
theorem out6 (c : Dev nD) : (dat0 (F := Ideal) V c).arrAt 6 cfg0.N = arrRow (colSum (pre V c)) :=
  (dat0 (F := Ideal) V c).arrAt_eq_of_cover 6 (arrRow (colSum (pre V c))) (flushed6_eq V c) cover6

theorem out7 (c : Dev nD) : (dat0 (F := Ideal) V c).arrAt 7 cfg0.N = arrRow (colSumSq (pre V c)) :=
  (dat0 (F := Ideal) V c).arrAt_eq_of_cover 7 (arrRow (colSumSq (pre V c))) (flushed7_eq V c) cover7

end Arrays

end Cert.KernelIdeal.ConvStats0

end
-- ==== Proof.BnRelu1.lean ====
/-
  The normalisation kernel of layer one, read as a function of the arrays it is entered with.

  The kernel walks the 50000 rows in ten blocks of 5000. At each block it reads the block of pre-activations
  and the four rows (mean, variance, scale, shift), each row broadcast down the block, and stores
  max(((z - mean) * rsqrt(variance + eps)) * scale + shift, 0) entry by entry. Block `t` holds rows
  `5000 t … 5000 t + 4999`, so the ten blocks tile the array and the array ends holding that same formula
  at every row and column: `normRelu` of the whole arrays.
-/
import proofs.«165639_j20710332301837_1_alg».proof.Proof.Gen.KernelIdeal.Frame
import proofs.«165639_j20710332301837_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.BnRelu1

open Cert.KernelIdeal Cert.KernelIdeal.Gen Cert.Sage

variable (V : (c : Dev nD) → (b : Ref sig .tc) → Buf (Elt Ideal) ((c : Thread nD τ).loc b))

/-- The zero offsets of a whole-block rectangle. -/
theorem hz : (![0, 0] : Fin 2 → Nat) = fun _ => 0 := funext fun a => by fin_cases a <;> rfl

/-- The inverse square root of a vector, entry by entry. -/
theorem rsqrt_apply {s : Shape} (a : FVec Ideal s .f32) (i : s.Idx) : rsqrt a i = Ideal.rsqrt (a i) := rfl

/-- A row broadcast down the block reads the row's entry in the same column. -/
theorem bcast_row (x : S1x128.Idx → EReal) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The stored value at row `p`, column `q` of a block, from the block of pre-activations and the four rows. -/
theorem pay_apply (x0 : Vec Ideal S5000x128 .f32) (x1 x2 x3 x4 : Vec Ideal S1x128 .f32) (p : Fin 5000) (q : Fin 128) :
    k1_pay1 x0 x1 x2 x3 x4 (ix2 p q)
      = max ((((x0 (ix2 p q) - x1 (ix2 0 q)) * Ideal.rsqrt (x2 (ix2 0 q) + epsW)) * x3 (ix2 0 q)) + x4 (ix2 0 q)) zeroW := by
  unfold k1_pay1
  simp only [shapeCast_self, maximumf_apply, addf_apply, mulf_apply, subf_apply, broadcast_apply, bcast_row, rsqrt_apply]
  rfl

/-- The whole array the output ends holding. -/
abbrev G (c : Dev nD) : S50000x128.Idx → EReal :=
  arr2 (normRelu (fn2 (V c main_v20_0 : S50000x128.Idx → EReal)) (row1 (V c main_v22 : S1x128.Idx → EReal)) (row1 (V c main_v26 : S1x128.Idx → EReal)) (row1 (V c main_v27 : S1x128.Idx → EReal)) (row1 (V c main_v28 : S1x128.Idx → EReal)))

/-- The block indices over the grid: the pre-activations and the output move one block of rows per point, the four
    rows stay in place. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of pre-activations at point `t` is rows `5000 t …` of the array. -/
theorem blk0_apply (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v20_0 : S50000x128.Idx → EReal) k := by
  obtain ⟨e0, e1, -⟩ := idx_facts t
  unfold iblk1
  rw [View.read_apply]
  show V c main_v20_0 _ = V c main_v20_0 _
  congr 1
  funext a; apply Fin.ext
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- Row window 1's block at every point is the row itself. -/
theorem blk1_apply (c : Dev nD) (t : Fin cfg1.N) (x : S1x128.Idx) (k : S1x128.Idx)
    (hk0 : (k 0).val = 0) (hk1 : (k 1).val = (x 1).val) :
    (iblk1 V c 1 t : Vec Ideal S1x128 .f32) x = (V c main_v22 : S1x128.Idx → EReal) k := by
  obtain ⟨-, -, e0, e1, -⟩ := idx_facts t
  have hx : (x 0).val < 1 := (x 0).isLt
  unfold iblk1
  rw [View.read_apply]
  show V c main_v22 _ = V c main_v22 _
  congr 1
  funext a; apply Fin.ext
  match a with
  | ⟨0, _⟩ => show win1_1.index t (0 : Fin 2) * 1 + 1 * (x 0).val = (k 0).val; omega
  | ⟨1, _⟩ => show win1_1.index t (1 : Fin 2) * 128 + 1 * (x 1).val = (k 1).val; omega

/-- Row window 2's block at every point is the row itself. -/
theorem blk2_apply (c : Dev nD) (t : Fin cfg1.N) (x : S1x128.Idx) (k : S1x128.Idx)
    (hk0 : (k 0).val = 0) (hk1 : (k 1).val = (x 1).val) :
    (iblk1 V c 2 t : Vec Ideal S1x128 .f32) x = (V c main_v26 : S1x128.Idx → EReal) k := by
  obtain ⟨-, -, -, -, e0, e1, -⟩ := idx_facts t
  have hx : (x 0).val < 1 := (x 0).isLt
  unfold iblk1
  rw [View.read_apply]
  show V c main_v26 _ = V c main_v26 _
  congr 1
  funext a; apply Fin.ext
  match a with
  | ⟨0, _⟩ => show win1_2.index t (0 : Fin 2) * 1 + 1 * (x 0).val = (k 0).val; omega
  | ⟨1, _⟩ => show win1_2.index t (1 : Fin 2) * 128 + 1 * (x 1).val = (k 1).val; omega

/-- Row window 3's block at every point is the row itself. -/
theorem blk3_apply (c : Dev nD) (t : Fin cfg1.N) (x : S1x128.Idx) (k : S1x128.Idx)
    (hk0 : (k 0).val = 0) (hk1 : (k 1).val = (x 1).val) :
    (iblk1 V c 3 t : Vec Ideal S1x128 .f32) x = (V c main_v27 : S1x128.Idx → EReal) k := by
  obtain ⟨-, -, -, -, -, -, e0, e1, -⟩ := idx_facts t
  have hx : (x 0).val < 1 := (x 0).isLt
  unfold iblk1
  rw [View.read_apply]
  show V c main_v27 _ = V c main_v27 _
  congr 1
  funext a; apply Fin.ext
  match a with
  | ⟨0, _⟩ => show win1_3.index t (0 : Fin 2) * 1 + 1 * (x 0).val = (k 0).val; omega
  | ⟨1, _⟩ => show win1_3.index t (1 : Fin 2) * 128 + 1 * (x 1).val = (k 1).val; omega

/-- Row window 4's block at every point is the row itself. -/
theorem blk4_apply (c : Dev nD) (t : Fin cfg1.N) (x : S1x128.Idx) (k : S1x128.Idx)
    (hk0 : (k 0).val = 0) (hk1 : (k 1).val = (x 1).val) :
    (iblk1 V c 4 t : Vec Ideal S1x128 .f32) x = (V c main_v28 : S1x128.Idx → EReal) k := by
  obtain ⟨-, -, -, -, -, -, -, -, e0, e1, -⟩ := idx_facts t
  have hx : (x 0).val < 1 := (x 0).isLt
  unfold iblk1
  rw [View.read_apply]
  show V c main_v28 _ = V c main_v28 _
  congr 1
  funext a; apply Fin.ext
  match a with
  | ⟨0, _⟩ => show win1_4.index t (0 : Fin 2) * 1 + 1 * (x 0).val = (k 0).val; omega
  | ⟨1, _⟩ => show win1_4.index t (1 : Fin 2) * 128 + 1 * (x 1).val = (k 1).val; omega

/-- The stored value at an entry of block `t` is the whole-array formula at the entry's place in the array. -/
theorem point_eq (c : Dev nD) (t : Fin cfg1.N) (p : Fin 5000) (q : Fin 128) :
    k1_pay1 (iblk1 V c 0 t) (iblk1 V c 1 t) (iblk1 V c 2 t) (iblk1 V c 3 t) (iblk1 V c 4 t) (ix2 p q)
      = G V c (((cfg1.win 5).blk t).view.emb (ix2 p q)) := by
  obtain ⟨-, -, -, -, -, -, -, -, -, -, e0, e1⟩ := idx_facts t
  have he0 : ((((cfg1.win 5).blk t).view.emb (ix2 p q) : S50000x128.Idx) 0).val = t.val * 5000 + p.val := by
    show win1_5.index t (0 : Fin 2) * 5000 + 1 * p.val = _; omega
  have he1 : ((((cfg1.win 5).blk t).view.emb (ix2 p q) : S50000x128.Idx) 1).val = q.val := by
    show win1_5.index t (1 : Fin 2) * 128 + 1 * q.val = _; omega
  refine (pay_apply (iblk1 V c 0 t) (iblk1 V c 1 t) (iblk1 V c 2 t) (iblk1 V c 3 t) (iblk1 V c 4 t) p q).trans ?_
  rw [blk0_apply V c t (ix2 p q) (ix2 ((((cfg1.win 5).blk t).view.emb (ix2 p q) : S50000x128.Idx) 0) ((((cfg1.win 5).blk t).view.emb (ix2 p q) : S50000x128.Idx) 1)) he0 he1,
    blk1_apply V c t (ix2 0 q) (ix2 0 ((((cfg1.win 5).blk t).view.emb (ix2 p q) : S50000x128.Idx) 1)) rfl he1,
    blk2_apply V c t (ix2 0 q) (ix2 0 ((((cfg1.win 5).blk t).view.emb (ix2 p q) : S50000x128.Idx) 1)) rfl he1,
    blk3_apply V c t (ix2 0 q) (ix2 0 ((((cfg1.win 5).blk t).view.emb (ix2 p q) : S50000x128.Idx) 1)) rfl he1,
    blk4_apply V c t (ix2 0 q) (ix2 0 ((((cfg1.win 5).blk t).view.emb (ix2 p q) : S50000x128.Idx) 1)) rfl he1]
  rfl

/-- What point `t` writes back is block `t` of the whole array `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  exact point_eq V c t p q

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Row `r` of the array lies in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the ten points: the normalised, scaled, shifted and clipped pre-activations. -/
theorem out5 (c : Dev nD) : (dat1 (F := Ideal) V c).arrAt 5 cfg1.N = arr2 (normRelu (fn2 (V c main_v20_0 : S50000x128.Idx → EReal)) (row1 (V c main_v22 : S1x128.Idx → EReal)) (row1 (V c main_v26 : S1x128.Idx → EReal)) (row1 (V c main_v27 : S1x128.Idx → EReal)) (row1 (V c main_v28 : S1x128.Idx → EReal))) :=
  (dat1 (F := Ideal) V c).arrAt_eq_of_cover 5 (G V c) (fun t _ => flushed_eq V c t) cover

end Cert.KernelIdeal.BnRelu1
end
-- ==== Proof.KHost1.lean ====
/-
  The rows the first normalisation kernel is entered with, as functions of what the layer's first kernel left.

  Between the two kernels of a layer the program divides the row of column sums and the row of sums of squares by
  the number of nodes, takes the mean of the squares minus the square of the mean, and gives the scale and shift
  vectors a leading axis of extent one. Read at a column these are `meanOf`, `varOfSums` and the two vectors
  themselves: a division of rows is entry by entry, a scalar broadcast to a row reads the scalar at every column,
  and a vector given a leading unit axis reads the vector at the same column.
-/
import proofs.«165639_j20710332301837_1_alg».proof.Proof.Gen.KernelIdeal.Frame
import proofs.«165639_j20710332301837_1_alg».proof.Proof.Spec
import Idealize.ShloMosaic.Lib.StableHlo.Run
import Idealize.ShloMosaic.Lib.Tactic
import Idealize.ShloMosaic.Lib.ValueLayout
import Idealize.ShloMosaic.Lib.ValueIdx

noncomputable section

namespace Cert.KernelIdeal.Host1

open Cert.KernelIdeal Cert.KernelIdeal.Gen Cert.Sage
open Idealize.ShloMosaic Idealize.ShloMosaic.TcCoe Idealize.SL.Sem Idealize.ShloMosaic.Tactic Idealize.ShloMosaic.ValueIdx

variable (m : (ℓ : Loc nD τ sig) → Buf (Elt Ideal) ℓ) (ρ : Dev nD → PrngReg) (c : Dev nD)

/-- The number of nodes broadcast to a row reads the number of nodes at every column. -/
theorem nodes_row (j : S1x128.Idx) :
    broadcastInDim S1x128 ![] bcast_S_S1x128 (constant (F := Ideal) S_ .f32 0x47435000#32) j = nodesW :=
  broadcastInDim_apply ![] bcast_S_S1x128 (constant (F := Ideal) S_ .f32 0x47435000#32) j (fun a => a.elim0) (fun a => a.elim0)

/-- The mean row as the program computes it: the column sums divided by the number of nodes. -/
theorem mean_arr : (V3 m ρ c main_v22 : S1x128.Idx → EReal)
    = Host.divf (W2 m ρ c (Proc.devRef .tc main_v20_1) : S1x128.Idx → EReal) (broadcastInDim S1x128 ![] bcast_S_S1x128 (constant (F := Ideal) S_ .f32 0x47435000#32)) := by
  show StableHlo.after hostOps1 (W2 m ρ c) (Proc.devRef .tc main_v22) = _
  after_results

/-- The variance row as the program computes it: the sums of squares divided by the number of nodes, minus the
    square of the mean. -/
theorem var_arr : (V3 m ρ c main_v26 : S1x128.Idx → EReal)
    = subf (Host.divf (W2 m ρ c (Proc.devRef .tc main_v20_2) : S1x128.Idx → EReal) (broadcastInDim S1x128 ![] bcast_S_S1x128 (constant (F := Ideal) S_ .f32 0x47435000#32)))
        (mulf (Host.divf (W2 m ρ c (Proc.devRef .tc main_v20_1) : S1x128.Idx → EReal) (broadcastInDim S1x128 ![] bcast_S_S1x128 (constant (F := Ideal) S_ .f32 0x47435000#32)))
          (Host.divf (W2 m ρ c (Proc.devRef .tc main_v20_1) : S1x128.Idx → EReal) (broadcastInDim S1x128 ![] bcast_S_S1x128 (constant (F := Ideal) S_ .f32 0x47435000#32)))) := by
  show StableHlo.after hostOps1 (W2 m ρ c) (Proc.devRef .tc main_v26) = _
  after_results

/-- The scale row as the program computes it: the scale vector given a leading axis of extent one. -/
theorem scale_arr : (V3 m ρ c main_v27 : S1x128.Idx → EReal)
    = shapeCast S1x128 (W2 m ρ c (Proc.devRef .tc main_arg12) : S128.Idx → EReal) shapeCasts_S128_S1x128 := by
  show StableHlo.after hostOps1 (W2 m ρ c) (Proc.devRef .tc main_v27) = _
  after_results
  rfl

/-- The shift row as the program computes it: the shift vector given a leading axis of extent one. -/
theorem shift_arr : (V3 m ρ c main_v28 : S1x128.Idx → EReal)
    = shapeCast S1x128 (W2 m ρ c (Proc.devRef .tc main_arg13) : S128.Idx → EReal) shapeCasts_S128_S1x128 := by
  show StableHlo.after hostOps1 (W2 m ρ c) (Proc.devRef .tc main_v28) = _
  after_results
  rfl

/-- The mean row the normalisation kernel is entered with is the mean of the column sums. -/
theorem mean_row : row1 (V3 m ρ c main_v22 : S1x128.Idx → EReal) = meanOf (row1 (W2 m ρ c (Proc.devRef .tc main_v20_1) : S1x128.Idx → EReal)) := by
  rw [mean_arr]
  funext q
  show Ideal.div _ (broadcastInDim S1x128 ![] bcast_S_S1x128 (constant (F := Ideal) S_ .f32 0x47435000#32) (ix2 0 q)) = Ideal.div _ nodesW
  rw [nodes_row]
  rfl

/-- The variance row it is entered with is the mean of the squares minus the square of the mean. -/
theorem var_row : row1 (V3 m ρ c main_v26 : S1x128.Idx → EReal) = varOfSums (row1 (W2 m ρ c (Proc.devRef .tc main_v20_1) : S1x128.Idx → EReal)) (row1 (W2 m ρ c (Proc.devRef .tc main_v20_2) : S1x128.Idx → EReal)) := by
  rw [var_arr]
  funext q
  show Ideal.div _ (broadcastInDim S1x128 ![] bcast_S_S1x128 (constant (F := Ideal) S_ .f32 0x47435000#32) (ix2 0 q))
      - Ideal.div _ (broadcastInDim S1x128 ![] bcast_S_S1x128 (constant (F := Ideal) S_ .f32 0x47435000#32) (ix2 0 q))
        * Ideal.div _ (broadcastInDim S1x128 ![] bcast_S_S1x128 (constant (F := Ideal) S_ .f32 0x47435000#32) (ix2 0 q))
    = Ideal.div _ nodesW - Ideal.div _ nodesW * Ideal.div _ nodesW
  rw [nodes_row]
  rfl

/-- The scale row it is entered with is the scale vector. -/
theorem scale_row : row1 (V3 m ρ c main_v27 : S1x128.Idx → EReal) = fn1 (W2 m ρ c (Proc.devRef .tc main_arg12) : S128.Idx → EReal) := by
  rw [scale_arr]
  funext q
  exact shapeCast_a_1a_apply _ shapeCasts_S128_S1x128 0 q

/-- The shift row it is entered with is the shift vector. -/
theorem shift_row : row1 (V3 m ρ c main_v28 : S1x128.Idx → EReal) = fn1 (W2 m ρ c (Proc.devRef .tc main_arg13) : S128.Idx → EReal) := by
  rw [shift_arr]
  funext q
  exact shapeCast_a_1a_apply _ shapeCasts_S128_S1x128 0 q

end Cert.KernelIdeal.Host1
end
-- ==== Proof.KValueA.lean ====
/-
  The kernel program's values, first half: what the first kernel (the layer before normalisation, with the column
  sums and the column sums of squares) and the second kernel (the normalisation) leave, as functions of the
  argument arrays. The names below are the arguments, the neighbourhood mean as a map of feature matrices, the
  first layer before normalisation, and the first layer.
-/
import proofs.«165639_j20710332301837_1_alg».proof.Proof.Gen.KernelIdeal.Frame
import proofs.«165639_j20710332301837_1_alg».proof.Proof.Spec
import proofs.«165639_j20710332301837_1_alg».proof.Proof.AggFacts
import proofs.«165639_j20710332301837_1_alg».proof.Proof.KArgs
import proofs.«165639_j20710332301837_1_alg».proof.Proof.KHostA
import proofs.«165639_j20710332301837_1_alg».proof.Proof.ConvStats0
import proofs.«165639_j20710332301837_1_alg».proof.Proof.BnRelu1
import proofs.«165639_j20710332301837_1_alg».proof.Proof.KHost1

set_option maxRecDepth 16384

noncomputable section

namespace Cert.KernelIdeal.KValue

open Cert.KernelIdeal Cert.KernelIdeal.Gen Cert.Sage
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The arguments -/

abbrev aX : S50000x128.Idx → EReal := m ((c : Thread nD τ).loc main_arg0)
abbrev aSrc : IVec S640000 32 := m ((c : Thread nD τ).loc main_arg1)
abbrev aDst : IVec S640000 32 := m ((c : Thread nD τ).loc main_arg2)
abbrev aWs0 : S128x128.Idx → EReal := m ((c : Thread nD τ).loc main_arg3)
abbrev aWn0 : S128x128.Idx → EReal := m ((c : Thread nD τ).loc main_arg4)
abbrev aB0 : S128.Idx → EReal := m ((c : Thread nD τ).loc main_arg5)
abbrev aWs1 : S128x128.Idx → EReal := m ((c : Thread nD τ).loc main_arg6)
abbrev aWn1 : S128x128.Idx → EReal := m ((c : Thread nD τ).loc main_arg7)
abbrev aB1 : S128.Idx → EReal := m ((c : Thread nD τ).loc main_arg8)
abbrev aWs2 : S128x64.Idx → EReal := m ((c : Thread nD τ).loc main_arg9)
abbrev aWn2 : S128x64.Idx → EReal := m ((c : Thread nD τ).loc main_arg10)
abbrev aB2 : S64.Idx → EReal := m ((c : Thread nD τ).loc main_arg11)
abbrev aG0 : S128.Idx → EReal := m ((c : Thread nD τ).loc main_arg12)
abbrev aBe0 : S128.Idx → EReal := m ((c : Thread nD τ).loc main_arg13)
abbrev aG1 : S128.Idx → EReal := m ((c : Thread nD τ).loc main_arg14)
abbrev aBe1 : S128.Idx → EReal := m ((c : Thread nD τ).loc main_arg15)

/-- The neighbourhood mean over the program's edges, as a map of feature matrices. -/
def aggM : Mat 50000 128 → Mat 50000 128 := fun h => fn2 (Agg.mean (arr2 h) (aSrc m c) (aDst m c))

/-- The first layer before normalisation, and the first layer. -/
def z0 : Mat 50000 128 := conv (fn2 (aX m c)) (aggM m c (fn2 (aX m c))) (fn2 (aWs0 m c)) (fn2 (aWn0 m c)) (fn1 (aB0 m c))
def h1 : Mat 50000 128 :=
  layerSums (aggM m c) (fn2 (aX m c)) (fn2 (aWs0 m c)) (fn2 (aWn0 m c)) (fn1 (aB0 m c)) (fn1 (aG0 m c)) (fn1 (aBe0 m c))

theorem h1_eq : h1 m c = normRelu (z0 m c) (meanOf (colSum (z0 m c))) (varOfSums (colSum (z0 m c)) (colSumSq (z0 m c)))
    (fn1 (aG0 m c)) (fn1 (aBe0 m c)) := rfl

/-! ## The first kernel -/

set_option maxHeartbeats 2000000 in
theorem pre0 : ConvStats0.pre (V1 m ρ) c = z0 m c := by
  have e0 : (V1 m ρ c main_arg0 : S50000x128.Idx → EReal) = aX m c := Keep.W1_arg0 m ρ c
  have e1 : (V1 m ρ c main_v18 : S50000x128.Idx → EReal) = Agg.mean (aX m c) (aSrc m c) (aDst m c) := HostA.agg0 m ρ c
  have e3 : (V1 m ρ c main_arg3 : S128x128.Idx → EReal) = aWs0 m c := Keep.W1_arg3 m ρ c
  have e4 : (V1 m ρ c main_arg4 : S128x128.Idx → EReal) = aWn0 m c := Keep.W1_arg4 m ρ c
  have e5 : row1 (V1 m ρ c main_v19 : S1x128.Idx → EReal) = fn1 (aB0 m c) := HostA.bias0 m ρ c
  unfold ConvStats0.pre z0 aggM
  rw [e0, e1, e3, e4, e5, arr2_fn2]

set_option maxHeartbeats 2000000 in
theorem w2_pre : (W2 m ρ c (Proc.devRef .tc main_v20_0) : S50000x128.Idx → EReal) = arr2 (z0 m c) :=
  (W2_arr m ρ c 5).trans ((ConvStats0.out5 (V1 m ρ) c).trans (congrArg arr2 (pre0 m ρ c)))

set_option maxHeartbeats 2000000 in
theorem w2_sum : (W2 m ρ c (Proc.devRef .tc main_v20_1) : S1x128.Idx → EReal) = arrRow (colSum (z0 m c)) :=
  (W2_arr m ρ c 6).trans ((ConvStats0.out6 (V1 m ρ) c).trans (congrArg (fun z => arrRow (colSum z)) (pre0 m ρ c)))

set_option maxHeartbeats 2000000 in
theorem w2_sumsq : (W2 m ρ c (Proc.devRef .tc main_v20_2) : S1x128.Idx → EReal) = arrRow (colSumSq (z0 m c)) :=
  (W2_arr m ρ c 7).trans ((ConvStats0.out7 (V1 m ρ) c).trans (congrArg (fun z => arrRow (colSumSq z)) (pre0 m ρ c)))

/-! ## Between the first and the second kernel -/

set_option maxHeartbeats 2000000 in
theorem v3_pre : (V3 m ρ c main_v20_0 : S50000x128.Idx → EReal) = arr2 (z0 m c) :=
  (Keep.skip1_main_v20_0 (W2 m ρ c)).trans (w2_pre m ρ c)

set_option maxHeartbeats 2000000 in
theorem v3_mu : row1 (V3 m ρ c main_v22 : S1x128.Idx → EReal) = meanOf (colSum (z0 m c)) := by
  rw [Host1.mean_row m ρ c, w2_sum m ρ c, row1_arrRow]

set_option maxHeartbeats 2000000 in
theorem v3_var : row1 (V3 m ρ c main_v26 : S1x128.Idx → EReal) = varOfSums (colSum (z0 m c)) (colSumSq (z0 m c)) := by
  rw [Host1.var_row m ρ c, w2_sum m ρ c, w2_sumsq m ρ c, row1_arrRow, row1_arrRow]

set_option maxHeartbeats 2000000 in
theorem v3_g : row1 (V3 m ρ c main_v27 : S1x128.Idx → EReal) = fn1 (aG0 m c) :=
  (Host1.scale_row m ρ c).trans (congrArg fn1 (Keep.W2_arg12 m ρ c))

set_option maxHeartbeats 2000000 in
theorem v3_be : row1 (V3 m ρ c main_v28 : S1x128.Idx → EReal) = fn1 (aBe0 m c) :=
  (Host1.shift_row m ρ c).trans (congrArg fn1 (Keep.W2_arg13 m ρ c))

/-! ## The second kernel -/

set_option maxHeartbeats 2000000 in
theorem w4_h1 : (W4 m ρ c (Proc.devRef .tc main_v29) : S50000x128.Idx → EReal) = arr2 (h1 m c) := by
  refine (W4_arr m ρ c 5).trans ((BnRelu1.out5 (V3 m ρ) c).trans (congrArg arr2 ?_))
  rw [v3_pre m ρ c, v3_mu m ρ c, v3_var m ρ c, v3_g m ρ c, v3_be m ρ c, fn2_arr2, h1_eq]

end Cert.KernelIdeal.KValue

end
-- ==== Proof.ConvStats2.lean ====
/-
  The statistics step of the second layer, read as values over the extended reals.

  The step walks the 50000 rows of the layer's input features `h` (the first layer's result) and of their neighbourhood
  means `a` in ten blocks of 5000 rows.
  At block `t` it forms `z = h · Ws + a · Wn + b` on the block's rows and stores it as rows `5000 t … 5000 t + 4999`
  of its first result; two row vectors, set to zero before the first block, receive the block's column sums of `z` and
  of `z * z` on top of what they held, and are written out once, after the last block.

  Here: what each of the two control cases (first block, later block) leaves in the three result buffers, as the stored
  arithmetic of the buffers read; that arithmetic at a row and a column (a product into the zero matrix is the plain sum
  over the inner index, a change of float format is the identity, a reduction along the rows is the plain sum over the
  rows); each block of the inputs as rows of the arrays; by induction on the block, the running contents of the two row
  vectors as the sum of the blocks' column sums so far; the ten partial sums regrouped into ONE sum over all 50000 rows
  (addition on the extended reals is associative and commutative with neutral zero, so no finiteness is needed); and
  the three result arrays after the last block: the layer itself, its column sums, its column sums of squares.
-/
import proofs.«165639_j20710332301837_1_alg».proof.Proof.Gen.KernelIdeal.Frame
import proofs.«165639_j20710332301837_1_alg».proof.Proof.Spec
import Idealize.ShloMosaic.Lib.Pipeline.Value
import Idealize.ShloMosaic.Lib.Tactic
import Idealize.ShloMosaic.PureOps.Ideal.Laws
import Idealize.ShloMosaic.Lib.ValueIdx

noncomputable section

namespace Cert.KernelIdeal.ConvStats2

open Idealize.ShloMosaic Idealize.ShloMosaic.TcCoe Idealize.SL.Sem
open Idealize.ShloMosaic.Pipeline (Dat)
open Cert.KernelIdeal Cert.KernelIdeal.Gen Cert.Sage

variable {F : FTy → Type} [FloatOps F]

theorem hz : (![0, 0] : Fin 2 → Nat) = fun _ => 0 := funext fun a => by fin_cases a <;> rfl

theorem out_A_5 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond2_0 i) (x0 x1 : Vec F S5000x128 .f32) (x2 x3 : Vec F S128x128 .f32) (x4 : Vec F S1x128 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_A_6 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond2_0 i) (x0 x1 : Vec F S5000x128 .f32) (x2 x3 : Vec F S128x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_A_7 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond2_0 i) (x0 x1 : Vec F S5000x128 .f32) (x2 x3 : Vec F S128x128 .f32) (x4 : Vec F S1x128 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_B_5 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond2_0 i) (x0 x1 : Vec F S5000x128 .f32) (x2 x3 : Vec F S128x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

theorem out_B_6 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond2_0 i) (x0 x1 : Vec F S5000x128 .f32) (x2 x3 : Vec F S128x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread,
    View.ld_unit_zero (S := S5000x128) hz, View.ld_unit_zero (S := S128x128) hz, View.ld_unit_zero (S := S1x128) hz]

theorem out_B_7 (c : Dev nD) (i : grid2.Coords) (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond2_0 i) (x0 x1 : Vec F S5000x128 .f32) (x2 x3 : Vec F S128x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h8.read_unread,
    View.ld_unit_zero (S := S5000x128) hz, View.ld_unit_zero (S := S128x128) hz, View.ld_unit_zero (S := S1x128) hz]

/-! ## The body's arithmetic at an index, over the extended reals -/

section Payloads
open Idealize.ShloMosaic.ValueIdx

theorem lhs_row (j : S5000x128.Idx) (k : dot_S5000x128_S128x128_S5000x128_1_0_0_1_n_n.contr.Idx) : (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_col (j : S5000x128.Idx) (k : dot_S5000x128_S128x128_S5000x128_1_0_0_1_n_n.contr.Idx) : (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a block with a weight matrix into the zero accumulator, at row `p` and column `q`: the sum over the inner index. -/
theorem mm_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q) = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The stored block at row `p`, column `q`: the two products' sums and the bias. -/
theorem pay3_apply (x0 x1 : Vec Ideal S5000x128 .f32) (x2 x3 : Vec Ideal S128x128 .f32) (x4 : Vec Ideal S1x128 .f32) (p : Fin 5000) (q : Fin 128) :
    k2_pay4 x0 x1 x2 x3 x4 (ix2 p q)
      = ((∑ k : Fin 128, x0 (ix2 p k) * x2 (ix2 k q)) + (∑ k : Fin 128, x1 (ix2 p k) * x3 (ix2 k q))) + x4 (ix2 0 q) := by
  unfold k2_pay4
  refine congrArg₂ (· + ·) (congrArg₂ (· + ·) ?_ ?_) ?_
  · refine (mm_apply _ _ p q).trans ?_
    rw [shapeCast_self]
    rfl
  · refine (mm_apply _ _ p q).trans ?_
    rw [shapeCast_self]
    rfl
  · rw [shapeCast_self]
    exact broadcastTo_apply x4 _ (ix2 p q) (ix2 0 q) (fun a => by match a with | ⟨0, _⟩ => rfl | ⟨1, _⟩ => rfl)

end Payloads

section Sums
open Idealize.ShloMosaic.ValueIdx

/-- A sum over the rows of a block, reshaped to one row, at column `q`. -/
theorem rowsum_apply (z : FVec Ideal S5000x128 .f32) (hacc : (0x00000000#32 : BitVec 32) = 0x00000000#32) (q : Fin 128) :
    shapeCast S1x128 (multiReduction .add [0] S128 z 0x00000000#32 reduces_S5000x128_S128 (.inl rfl) hacc) shapeCasts_S128_S1x128 (ix2 0 q)
      = ∑ p : Fin 5000, z (ix2 p q) := by
  refine (shapeCast_addUnit_apply ![128] _ shapeCasts_S128_S1x128 (ix2 0 q)).trans ?_
  refine (Ideal.multiReduction_add_single z 0x00000000#32 reduces_S5000x128_S128 (.inl rfl) hacc _).trans ?_
  refine Finset.sum_congr rfl fun p _ => congrArg z (funext fun a => Fin.ext ?_)
  match a with
  | ⟨0, _⟩ => rfl
  | ⟨1, _⟩ => rfl

/-- The first accumulator's new contents at column `q`: what it held plus the block's column sum. -/
theorem pay4_apply (x0 x1 : Vec Ideal S5000x128 .f32) (x2 x3 : Vec Ideal S128x128 .f32) (x4 : Vec Ideal S1x128 .f32) (acc : Vec Ideal S1x128 .f32) (q : Fin 128) :
    k2_pay5 x0 x1 x2 x3 x4 acc (ix2 0 q) = acc (ix2 0 q) + ∑ p : Fin 5000, k2_pay4 x0 x1 x2 x3 x4 (ix2 p q) := by
  unfold k2_pay5
  refine congrArg₂ (· + ·) ?_ (rowsum_apply _ rfl q)
  rw [shapeCast_self]

/-- The second accumulator's new contents at column `q`: what it held plus the block's column sum of squares. -/
theorem pay5_apply (x0 x1 : Vec Ideal S5000x128 .f32) (x2 x3 : Vec Ideal S128x128 .f32) (x4 : Vec Ideal S1x128 .f32) (acc : Vec Ideal S1x128 .f32) (q : Fin 128) :
    k2_pay1 (k2_pay6 acc) (k2_pay7 x0 x1 x2 x3 x4) (ix2 0 q)
      = acc (ix2 0 q) + ∑ p : Fin 5000, k2_pay4 x0 x1 x2 x3 x4 (ix2 p q) * k2_pay4 x0 x1 x2 x3 x4 (ix2 p q) := by
  unfold k2_pay1 k2_pay6 k2_pay7
  refine congrArg₂ (· + ·) ?_ (rowsum_apply _ rfl q)
  rw [shapeCast_self]

/-- The accumulators start at zero. -/
theorem pay1_apply (j : S1x128.Idx) : (k2_pay2 : FVec Ideal S1x128 .f32) j = 0 := Ideal.ofBits_zero_f32
theorem pay2_apply (j : S1x128.Idx) : (k2_pay3 : FVec Ideal S1x128 .f32) j = 0 := Ideal.ofBits_zero_f32

end Sums

/-! ## The blocks as rows of the arrays -/

section Reads
open Idealize.ShloMosaic.ValueIdx

variable (V : (c : Dev nD) → (b : Ref sig .tc) → Buf (Elt Ideal) ((c : Thread nD τ).loc b))

/-- One layer before normalisation, of the arrays as the region finds them. -/
def pre (c : Dev nD) : Mat 50000 128 :=
  conv (fn2 (V c main_v29 : S50000x128.Idx → EReal)) (fn2 (V c main_v48 : S50000x128.Idx → EReal))
    (fn2 (V c main_arg6 : S128x128.Idx → EReal)) (fn2 (V c main_arg7 : S128x128.Idx → EReal)) (row1 (V c main_v49 : S1x128.Idx → EReal))

/-- The block indices of every window at a point: the two row-blocked inputs and the row-blocked output move with the
    point, everything else stays at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row `p` of the node-feature block at point `t` is row `5000 t + p` of the array. -/
theorem iblk_h (c : Dev nD) (t : Fin cfg2.N) (p : Fin 5000) (k : Fin 128) (r : Fin 50000) (hr : r.val = 5000 * t.val + p.val) :
    (iblk2 V c 0 t : Vec Ideal S5000x128 .f32) (ix2 p k) = (V c main_v29 : S50000x128.Idx → EReal) (ix2 r k) := by
  unfold iblk2
  rw [View.read_apply]
  show V c main_v29 _ = V c main_v29 _
  refine congrArg _ (funext fun a => Fin.ext ?_)
  match a with
  | ⟨0, _⟩ => show win2_0.index t (0 : Fin 2) * 5000 + 1 * p.val = r.val; rw [(idx_facts t).1, hr]; omega
  | ⟨1, _⟩ => show win2_0.index t (1 : Fin 2) * 128 + 1 * k.val = k.val; rw [(idx_facts t).2.1]; omega

/-- Row `p` of the neighbourhood-mean block at point `t` is row `5000 t + p` of the array. -/
theorem iblk_a (c : Dev nD) (t : Fin cfg2.N) (p : Fin 5000) (k : Fin 128) (r : Fin 50000) (hr : r.val = 5000 * t.val + p.val) :
    (iblk2 V c 1 t : Vec Ideal S5000x128 .f32) (ix2 p k) = (V c main_v48 : S50000x128.Idx → EReal) (ix2 r k) := by
  unfold iblk2
  rw [View.read_apply]
  show V c main_v48 _ = V c main_v48 _
  refine congrArg _ (funext fun a => Fin.ext ?_)
  match a with
  | ⟨0, _⟩ => show win2_1.index t (0 : Fin 2) * 5000 + 1 * p.val = r.val; rw [(idx_facts t).2.2.1, hr]; omega
  | ⟨1, _⟩ => show win2_1.index t (1 : Fin 2) * 128 + 1 * k.val = k.val; rw [(idx_facts t).2.2.2.1]; omega

/-- The two weight blocks and the bias block are the whole arrays at every point. -/
theorem iblk_ws (c : Dev nD) (t : Fin cfg2.N) (k q : Fin 128) :
    (iblk2 V c 2 t : Vec Ideal S128x128 .f32) (ix2 k q) = (V c main_arg6 : S128x128.Idx → EReal) (ix2 k q) := by
  unfold iblk2
  rw [View.read_apply]
  show V c main_arg6 _ = V c main_arg6 _
  refine congrArg _ (funext fun a => Fin.ext ?_)
  match a with
  | ⟨0, _⟩ => show win2_2.index t (0 : Fin 2) * 128 + 1 * k.val = k.val; rw [(idx_facts t).2.2.2.2.1]; omega
  | ⟨1, _⟩ => show win2_2.index t (1 : Fin 2) * 128 + 1 * q.val = q.val; rw [(idx_facts t).2.2.2.2.2.1]; omega
theorem iblk_wn (c : Dev nD) (t : Fin cfg2.N) (k q : Fin 128) :
    (iblk2 V c 3 t : Vec Ideal S128x128 .f32) (ix2 k q) = (V c main_arg7 : S128x128.Idx → EReal) (ix2 k q) := by
  unfold iblk2
  rw [View.read_apply]
  show V c main_arg7 _ = V c main_arg7 _
  refine congrArg _ (funext fun a => Fin.ext ?_)
  match a with
  | ⟨0, _⟩ => show win2_3.index t (0 : Fin 2) * 128 + 1 * k.val = k.val; rw [(idx_facts t).2.2.2.2.2.2.1]; omega
  | ⟨1, _⟩ => show win2_3.index t (1 : Fin 2) * 128 + 1 * q.val = q.val; rw [(idx_facts t).2.2.2.2.2.2.2.1]; omega
theorem iblk_b (c : Dev nD) (t : Fin cfg2.N) (q : Fin 128) :
    (iblk2 V c 4 t : Vec Ideal S1x128 .f32) (ix2 0 q) = (V c main_v49 : S1x128.Idx → EReal) (ix2 0 q) := by
  unfold iblk2
  rw [View.read_apply]
  show V c main_v49 _ = V c main_v49 _
  refine congrArg _ (funext fun a => Fin.ext ?_)
  match a with
  | ⟨0, _⟩ => show win2_4.index t (0 : Fin 2) * 1 + 1 * 0 = 0; rw [(idx_facts t).2.2.2.2.2.2.2.2.1]
  | ⟨1, _⟩ => show win2_4.index t (1 : Fin 2) * 128 + 1 * q.val = q.val; rw [(idx_facts t).2.2.2.2.2.2.2.2.2.1]; omega

/-- What the body stores to the first output at point `t`. -/
def blockAt (c : Dev nD) (t : Fin cfg2.N) : FVec Ideal S5000x128 .f32 :=
  k2_pay4 (iblk2 V c 0 t) (iblk2 V c 1 t) (iblk2 V c 2 t) (iblk2 V c 3 t) (iblk2 V c 4 t)

/-- It is rows `5000 t … 5000 t + 4999` of the layer. -/
theorem blockAt_apply (c : Dev nD) (t : Fin cfg2.N) (p : Fin 5000) (q : Fin 128) (r : Fin 50000) (hr : r.val = 5000 * t.val + p.val) :
    blockAt V c t (ix2 p q) = pre V c r q := by
  unfold blockAt
  rw [pay3_apply]
  unfold pre conv fn2 row1
  refine congrArg₂ (· + ·) (congrArg₂ (· + ·) (Finset.sum_congr rfl fun k _ => ?_) (Finset.sum_congr rfl fun k _ => ?_)) (iblk_b V c t q)
  · rw [iblk_h V c t p k r hr, iblk_ws V c t k q]
  · rw [iblk_a V c t p k r hr, iblk_wn V c t k q]

end Reads

/-! ## What the outputs hold after each point -/

section Accumulation
open Idealize.ShloMosaic.ValueIdx

variable (V : (c : Dev nD) → (b : Ref sig .tc) → Buf (Elt Ideal) ((c : Thread nD τ).loc b))

/-- The layer's entry at a row given as a natural number (zero past the last row). -/
def preN (c : Dev nD) (r : ℕ) (q : Fin 128) : EReal := if h : r < 50000 then pre V c ⟨r, h⟩ q else 0

theorem blockAt_preN (c : Dev nD) (t : Fin cfg2.N) (p : Fin 5000) (q : Fin 128) :
    blockAt V c t (ix2 p q) = preN V c (5000 * t.val + p.val) q := by
  have hN : t.val < 10 := lt_of_lt_of_eq t.isLt (show cfg2.N = 10 from N_2)
  have hlt : 5000 * t.val + p.val < 50000 := by have := p.isLt; omega
  unfold preN
  rw [dif_pos hlt]
  exact blockAt_apply V c t p q ⟨_, hlt⟩ rfl

/-- Block `t`'s column sum, and its column sum of squares. -/
def sumAt (c : Dev nD) (t : ℕ) (q : Fin 128) : EReal := ∑ p : Fin 5000, preN V c (5000 * t + p.val) q
def sumSqAt (c : Dev nD) (t : ℕ) (q : Fin 128) : EReal := ∑ p : Fin 5000, preN V c (5000 * t + p.val) q * preN V c (5000 * t + p.val) q

/-- After point `n` the first output's buffer holds block `n` of the layer, and the two accumulators hold the column
    sums and the column sums of squares of blocks `0 … n`: by induction on the point. -/
theorem outsAt_eq (c : Dev nD) : ∀ (n : ℕ) (h : n < cfg2.N),
    (outsAt2 V c n h).1 = blockAt V c ⟨n, h⟩
    ∧ (∀ q : Fin 128, (outsAt2 V c n h).2.1 (ix2 0 q) = ∑ t ∈ Finset.range (n + 1), sumAt V c t q)
    ∧ (∀ q : Fin 128, (outsAt2 V c n h).2.2 (ix2 0 q) = ∑ t ∈ Finset.range (n + 1), sumSqAt V c t q)
  | 0, h => by
    rw [outsAt2_A V c ⟨0, h⟩ rfl]
    dsimp only
    refine ⟨out_A_5 .., fun q => ?_, fun q => ?_⟩
    · rw [out_A_6, pay4_apply, pay1_apply, zero_add, Finset.sum_range_one]
      exact Finset.sum_congr rfl fun p _ => blockAt_preN V c ⟨0, h⟩ p q
    · rw [out_A_7, pay5_apply, pay2_apply, zero_add, Finset.sum_range_one]
      exact Finset.sum_congr rfl fun p _ => by rw [← blockAt_preN V c ⟨0, h⟩ p q]; rfl
  | n + 1, h => by
    have hN : cfg2.N = 10 := N_2
    have hB : ¬(⟨n + 1, h⟩ : Fin cfg2.N).val % 10 = 0 := by dsimp only; omega
    obtain ⟨-, ih6, ih7⟩ := outsAt_eq c n (Nat.lt_of_succ_lt h)
    rw [outsAt2_B V c ⟨n + 1, h⟩ hB]
    dsimp only
    refine ⟨out_B_5 .., fun q => ?_, fun q => ?_⟩
    · rw [out_B_6, pay4_apply, Finset.sum_range_succ]
      exact congrArg₂ (· + ·) (ih6 q) (Finset.sum_congr rfl fun p _ => blockAt_preN V c ⟨n + 1, h⟩ p q)
    · rw [out_B_7, pay5_apply, Finset.sum_range_succ]
      exact congrArg₂ (· + ·) (ih7 q) (Finset.sum_congr rfl fun p _ => by rw [← blockAt_preN V c ⟨n + 1, h⟩ p q]; rfl)

/-- The ten blocks' sums regroup into one sum over all rows. -/
theorem sum_blocks (g : ℕ → EReal) :
    ∑ t ∈ Finset.range 10, ∑ p : Fin 5000, g (5000 * t + p.val) = ∑ r : Fin 50000, g r.val := by
  rw [Finset.sum_range (fun t => ∑ p : Fin 5000, g (5000 * t + p.val)), ← Fintype.sum_prod_type (f := fun x : Fin 10 × Fin 5000 => g (5000 * x.1.val + x.2.val))]
  rw [← Equiv.sum_comp (finProdFinEquiv (m := 10) (n := 5000)) (fun r : Fin (10 * 5000) => g r.val)]
  refine Finset.sum_congr rfl fun x _ => congrArg g ?_
  show 5000 * x.1.val + x.2.val = x.2.val + 5000 * x.1.val
  omega

theorem preN_val (c : Dev nD) (r : Fin 50000) (q : Fin 128) : preN V c r.val q = pre V c r q := by
  unfold preN
  rw [dif_pos r.isLt]

/-- After the last point the accumulators hold the layer's column sums and column sums of squares. -/
theorem acc6_last (c : Dev nD) : (outsAt2 V c t2_9.val t2_9.isLt).2.1 = arrRow (colSum (pre V c)) := by
  funext j
  obtain ⟨z, q, rfl⟩ : ∃ (z : Fin 1) (q : Fin 128), j = ix2 z q := ⟨j 0, j 1, eq_ix2 j⟩
  obtain rfl : z = 0 := Subsingleton.elim _ _
  rw [(outsAt_eq V c t2_9.val t2_9.isLt).2.1 q]
  show ∑ t ∈ Finset.range 10, sumAt V c t q = colSum (pre V c) q
  unfold sumAt colSum
  rw [sum_blocks (fun r => preN V c r q)]
  exact Finset.sum_congr rfl fun r _ => preN_val V c r q

theorem acc7_last (c : Dev nD) : (outsAt2 V c t2_9.val t2_9.isLt).2.2 = arrRow (colSumSq (pre V c)) := by
  funext j
  obtain ⟨z, q, rfl⟩ : ∃ (z : Fin 1) (q : Fin 128), j = ix2 z q := ⟨j 0, j 1, eq_ix2 j⟩
  obtain rfl : z = 0 := Subsingleton.elim _ _
  rw [(outsAt_eq V c t2_9.val t2_9.isLt).2.2 q]
  show ∑ t ∈ Finset.range 10, sumSqAt V c t q = colSumSq (pre V c) q
  unfold sumSqAt colSumSq
  rw [sum_blocks (fun r => preN V c r q * preN V c r q)]
  exact Finset.sum_congr rfl fun r _ => by rw [preN_val V c r q]

end Accumulation

/-! ## The arrays after the region -/

section Arrays
open Idealize.ShloMosaic.ValueIdx

variable (V : (c : Dev nD) → (b : Ref sig .tc) → Buf (Elt Ideal) ((c : Thread nD τ).loc b))

/-- What point `t` writes back to the first output is block `t` of the layer. -/
theorem flushed5_eq (c : Dev nD) (t : Fin cfg2.N) :
    (dat2 (F := Ideal) V c).flushed 5 t = ((cfg2.win 5).blk t).view.read (Elt Ideal) (arr2 (pre V c)) := by
  show (cfg2.win 5).cut (grid2.coords t) ((dat2 (F := Ideal) V c).after 5 t) = _
  rw [after2_5, (outsAt_eq V c t.val t.isLt).1]
  funext j
  have hN : t.val < 10 := lt_of_lt_of_eq t.isLt (show cfg2.N = 10 from N_2)
  have hj0 : (j 0).val < 5000 := (j 0).isLt
  have hj1 : (j 1).val < 128 := (j 1).isLt
  show blockAt V c t j = arr2 (pre V c) (((cfg2.win 5).blk t).view.emb j)
  have hlt : 5000 * t.val + (j 0).val < 50000 := by omega
  have e : ((cfg2.win 5).blk t).view.emb j = ix2 (⟨5000 * t.val + (j 0).val, hlt⟩ : Fin 50000) (⟨(j 1).val, hj1⟩ : Fin 128) := by
    funext a; apply Fin.ext
    match a with
    | ⟨0, _⟩ => show win2_5.index t (0 : Fin 2) * 5000 + 1 * (j 0).val = 5000 * t.val + (j 0).val; rw [(idx_facts t).2.2.2.2.2.2.2.2.2.2.1]; omega
    | ⟨1, _⟩ => show win2_5.index t (1 : Fin 2) * 128 + 1 * (j 1).val = (j 1).val; rw [(idx_facts t).2.2.2.2.2.2.2.2.2.2.2.1]; omega
  rw [e, arr2_apply]
  have ej : j = ix2 (⟨(j 0).val, hj0⟩ : Fin 5000) (⟨(j 1).val, hj1⟩ : Fin 128) := by
    funext a
    match a with
    | ⟨0, _⟩ => rfl
    | ⟨1, _⟩ => rfl
  exact (congrArg (blockAt V c t) ej).trans (blockAt_apply V c t _ _ _ rfl)

/-- An index of the first output's array is in point `t`'s block iff each coordinate is in the block's range. -/
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v50_0).slice (win2_5.rect t)).set ↔ _
  rw [View.set_slice_whole, Rect.mem_set_unit]
  exact Iff.rfl

/-- The first output's array ends holding the layer: row `r` is written at point `r / 5000`. -/
theorem out5 (c : Dev nD) : (dat2 (F := Ideal) V c).arrAt 5 cfg2.N = arr2 (pre V c) :=
  (dat2 (F := Ideal) V c).arrAt_eq_of_cover 5 (arr2 (pre V c)) (fun t _ => flushed5_eq V c t) fun i => by
    have hi0 : (i 0).val < 50000 := (i 0).isLt
    have hi1 : (i 1).val < 128 := (i 1).isLt
    have hN : cfg2.N = 10 := N_2
    refine ⟨⟨(i 0).val / 5000, by rw [hN]; omega⟩, flush2_5 _, ?_⟩
    rw [mem_blk5]
    intro a
    match a with
    | ⟨0, _⟩ =>
      show win2_5.index _ (0 : Fin 2) * 5000 ≤ (i 0).val ∧ (i 0).val < win2_5.index _ (0 : Fin 2) * 5000 + 5000
      rw [(idx_facts _).2.2.2.2.2.2.2.2.2.2.1]; dsimp only; omega
    | ⟨1, _⟩ =>
      show win2_5.index _ (1 : Fin 2) * 128 ≤ (i 1).val ∧ (i 1).val < win2_5.index _ (1 : Fin 2) * 128 + 128
      rw [(idx_facts _).2.2.2.2.2.2.2.2.2.2.2.1]; omega

/-- The one write-back of the first accumulator, at the last point, writes the layer's column sums. -/
theorem flushed6_eq (c : Dev nD) (t : Fin cfg2.N) (hf : (cfg2.win 6).flush t = true) :
    (dat2 (F := Ideal) V c).flushed 6 t = ((cfg2.win 6).blk t).view.read (Elt Ideal) (arrRow (colSum (pre V c))) := by
  have hN : cfg2.N = 10 := N_2
  have h9 : t.val = 9 := by have := (flush2_6 t).mp hf; have := t.isLt; omega
  obtain rfl : t = t2_9 := Fin.ext h9
  show (cfg2.win 6).cut (grid2.coords t2_9) ((dat2 (F := Ideal) V c).after 6 t2_9) = _
  rw [after2_6, acc6_last V c]
  have hz' : (fun a => win2_6.index t2_9 a * main_v50_1.ty.shape.size a) = fun _ => 0 := funext fun a => by fin_cases a <;> decide
  exact (Memref.read_access_unit_zero (Elt Ideal) main_v50_1 hz' (fun a => by rw [congrFun hz' a]; simp) (arrRow (colSum (pre V c)))).symm

theorem flushed7_eq (c : Dev nD) (t : Fin cfg2.N) (hf : (cfg2.win 7).flush t = true) :
    (dat2 (F := Ideal) V c).flushed 7 t = ((cfg2.win 7).blk t).view.read (Elt Ideal) (arrRow (colSumSq (pre V c))) := by
  have hN : cfg2.N = 10 := N_2
  have h9 : t.val = 9 := by have := (flush2_7 t).mp hf; have := t.isLt; omega
  obtain rfl : t = t2_9 := Fin.ext h9
  show (cfg2.win 7).cut (grid2.coords t2_9) ((dat2 (F := Ideal) V c).after 7 t2_9) = _
  rw [after2_7, acc7_last V c]
  have hz' : (fun a => win2_7.index t2_9 a * main_v50_2.ty.shape.size a) = fun _ => 0 := funext fun a => by fin_cases a <;> decide
  exact (Memref.read_access_unit_zero (Elt Ideal) main_v50_2 hz' (fun a => by rw [congrFun hz' a]; simp) (arrRow (colSumSq (pre V c)))).symm

/-- The last point's block of an accumulator's array is the whole array. -/
theorem cover6 (i : S1x128.Idx) : ∃ t : Fin cfg2.N, (cfg2.win 6).flush t = true ∧ i ∈ ((cfg2.win 6).blk t).view.set :=
  ⟨t2_9, (flush2_6 t2_9).mpr rfl, by
    show i ∈ ((View.whole main_v50_1).slice (win2_6.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_6.index t2_9 0 * win2_6.size 0 ≤ (i 0 : Nat) ∧ (i 0 : Nat) < win2_6.index t2_9 0 * win2_6.size 0 + win2_6.xsize (grid2.coords t2_9) 0
                rw [show win2_6.index t2_9 0 * win2_6.size 0 = 0 from by decide +kernel, show win2_6.xsize (grid2.coords t2_9) 0 = 1 from by decide +kernel]; omega
    | ⟨1, _⟩ => show win2_6.index t2_9 1 * win2_6.size 1 ≤ (i 1 : Nat) ∧ (i 1 : Nat) < win2_6.index t2_9 1 * win2_6.size 1 + win2_6.xsize (grid2.coords t2_9) 1
                rw [show win2_6.index t2_9 1 * win2_6.size 1 = 0 from by decide +kernel, show win2_6.xsize (grid2.coords t2_9) 1 = 128 from by decide +kernel]; omega⟩

theorem cover7 (i : S1x128.Idx) : ∃ t : Fin cfg2.N, (cfg2.win 7).flush t = true ∧ i ∈ ((cfg2.win 7).blk t).view.set :=
  ⟨t2_9, (flush2_7 t2_9).mpr rfl, by
    show i ∈ ((View.whole main_v50_2).slice (win2_7.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_7.index t2_9 0 * win2_7.size 0 ≤ (i 0 : Nat) ∧ (i 0 : Nat) < win2_7.index t2_9 0 * win2_7.size 0 + win2_7.xsize (grid2.coords t2_9) 0
                rw [show win2_7.index t2_9 0 * win2_7.size 0 = 0 from by decide +kernel, show win2_7.xsize (grid2.coords t2_9) 0 = 1 from by decide +kernel]; omega
    | ⟨1, _⟩ => show win2_7.index t2_9 1 * win2_7.size 1 ≤ (i 1 : Nat) ∧ (i 1 : Nat) < win2_7.index t2_9 1 * win2_7.size 1 + win2_7.xsize (grid2.coords t2_9) 1
                rw [show win2_7.index t2_9 1 * win2_7.size 1 = 0 from by decide +kernel, show win2_7.xsize (grid2.coords t2_9) 1 = 128 from by decide +kernel]; omega⟩

/-- The two accumulators' arrays end holding the layer's column sums and column sums of squares. -/
theorem out6 (c : Dev nD) : (dat2 (F := Ideal) V c).arrAt 6 cfg2.N = arrRow (colSum (pre V c)) :=
  (dat2 (F := Ideal) V c).arrAt_eq_of_cover 6 (arrRow (colSum (pre V c))) (flushed6_eq V c) cover6

theorem out7 (c : Dev nD) : (dat2 (F := Ideal) V c).arrAt 7 cfg2.N = arrRow (colSumSq (pre V c)) :=
  (dat2 (F := Ideal) V c).arrAt_eq_of_cover 7 (arrRow (colSumSq (pre V c))) (flushed7_eq V c) cover7

end Arrays

end Cert.KernelIdeal.ConvStats2

end
-- ==== Proof.BnRelu3.lean ====
/-
  The normalisation kernel of layer two, read as a function of the arrays it is entered with.

  The kernel walks the 50000 rows in ten blocks of 5000. At each block it reads the block of pre-activations
  and the four rows (mean, variance, scale, shift), each row broadcast down the block, and stores
  max(((z - mean) * rsqrt(variance + eps)) * scale + shift, 0) entry by entry. Block `t` holds rows
  `5000 t … 5000 t + 4999`, so the ten blocks tile the array and the array ends holding that same formula
  at every row and column: `normRelu` of the whole arrays.
-/
import proofs.«165639_j20710332301837_1_alg».proof.Proof.Gen.KernelIdeal.Frame
import proofs.«165639_j20710332301837_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.BnRelu3

open Cert.KernelIdeal Cert.KernelIdeal.Gen Cert.Sage

variable (V : (c : Dev nD) → (b : Ref sig .tc) → Buf (Elt Ideal) ((c : Thread nD τ).loc b))

/-- The zero offsets of a whole-block rectangle. -/
theorem hz : (![0, 0] : Fin 2 → Nat) = fun _ => 0 := funext fun a => by fin_cases a <;> rfl

/-- The inverse square root of a vector, entry by entry. -/
theorem rsqrt_apply {s : Shape} (a : FVec Ideal s .f32) (i : s.Idx) : rsqrt a i = Ideal.rsqrt (a i) := rfl

/-- A row broadcast down the block reads the row's entry in the same column. -/
theorem bcast_row (x : S1x128.Idx → EReal) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The stored value at row `p`, column `q` of a block, from the block of pre-activations and the four rows. -/
theorem pay_apply (x0 : Vec Ideal S5000x128 .f32) (x1 x2 x3 x4 : Vec Ideal S1x128 .f32) (p : Fin 5000) (q : Fin 128) :
    k3_pay1 x0 x1 x2 x3 x4 (ix2 p q)
      = max ((((x0 (ix2 p q) - x1 (ix2 0 q)) * Ideal.rsqrt (x2 (ix2 0 q) + epsW)) * x3 (ix2 0 q)) + x4 (ix2 0 q)) zeroW := by
  unfold k3_pay1
  simp only [shapeCast_self, maximumf_apply, addf_apply, mulf_apply, subf_apply, broadcast_apply, bcast_row, rsqrt_apply]
  rfl

/-- The whole array the output ends holding. -/
abbrev G (c : Dev nD) : S50000x128.Idx → EReal :=
  arr2 (normRelu (fn2 (V c main_v50_0 : S50000x128.Idx → EReal)) (row1 (V c main_v52 : S1x128.Idx → EReal)) (row1 (V c main_v56 : S1x128.Idx → EReal)) (row1 (V c main_v57 : S1x128.Idx → EReal)) (row1 (V c main_v58 : S1x128.Idx → EReal)))

/-- The block indices over the grid: the pre-activations and the output move one block of rows per point, the four
    rows stay in place. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of pre-activations at point `t` is rows `5000 t …` of the array. -/
theorem blk0_apply (c : Dev nD) (t : Fin cfg3.N) (x : S5000x128.Idx) (k : S50000x128.Idx)
    (hk0 : (k 0).val = t.val * 5000 + (x 0).val) (hk1 : (k 1).val = (x 1).val) :
    (iblk3 V c 0 t : Vec Ideal S5000x128 .f32) x = (V c main_v50_0 : S50000x128.Idx → EReal) k := by
  obtain ⟨e0, e1, -⟩ := idx_facts t
  unfold iblk3
  rw [View.read_apply]
  show V c main_v50_0 _ = V c main_v50_0 _
  congr 1
  funext a; apply Fin.ext
  match a with
  | ⟨0, _⟩ => show win3_0.index t (0 : Fin 2) * 5000 + 1 * (x 0).val = (k 0).val; omega
  | ⟨1, _⟩ => show win3_0.index t (1 : Fin 2) * 128 + 1 * (x 1).val = (k 1).val; omega

/-- Row window 1's block at every point is the row itself. -/
theorem blk1_apply (c : Dev nD) (t : Fin cfg3.N) (x : S1x128.Idx) (k : S1x128.Idx)
    (hk0 : (k 0).val = 0) (hk1 : (k 1).val = (x 1).val) :
    (iblk3 V c 1 t : Vec Ideal S1x128 .f32) x = (V c main_v52 : S1x128.Idx → EReal) k := by
  obtain ⟨-, -, e0, e1, -⟩ := idx_facts t
  have hx : (x 0).val < 1 := (x 0).isLt
  unfold iblk3
  rw [View.read_apply]
  show V c main_v52 _ = V c main_v52 _
  congr 1
  funext a; apply Fin.ext
  match a with
  | ⟨0, _⟩ => show win3_1.index t (0 : Fin 2) * 1 + 1 * (x 0).val = (k 0).val; omega
  | ⟨1, _⟩ => show win3_1.index t (1 : Fin 2) * 128 + 1 * (x 1).val = (k 1).val; omega

/-- Row window 2's block at every point is the row itself. -/
theorem blk2_apply (c : Dev nD) (t : Fin cfg3.N) (x : S1x128.Idx) (k : S1x128.Idx)
    (hk0 : (k 0).val = 0) (hk1 : (k 1).val = (x 1).val) :
    (iblk3 V c 2 t : Vec Ideal S1x128 .f32) x = (V c main_v56 : S1x128.Idx → EReal) k := by
  obtain ⟨-, -, -, -, e0, e1, -⟩ := idx_facts t
  have hx : (x 0).val < 1 := (x 0).isLt
  unfold iblk3
  rw [View.read_apply]
  show V c main_v56 _ = V c main_v56 _
  congr 1
  funext a; apply Fin.ext
  match a with
  | ⟨0, _⟩ => show win3_2.index t (0 : Fin 2) * 1 + 1 * (x 0).val = (k 0).val; omega
  | ⟨1, _⟩ => show win3_2.index t (1 : Fin 2) * 128 + 1 * (x 1).val = (k 1).val; omega

/-- Row window 3's block at every point is the row itself. -/
theorem blk3_apply (c : Dev nD) (t : Fin cfg3.N) (x : S1x128.Idx) (k : S1x128.Idx)
    (hk0 : (k 0).val = 0) (hk1 : (k 1).val = (x 1).val) :
    (iblk3 V c 3 t : Vec Ideal S1x128 .f32) x = (V c main_v57 : S1x128.Idx → EReal) k := by
  obtain ⟨-, -, -, -, -, -, e0, e1, -⟩ := idx_facts t
  have hx : (x 0).val < 1 := (x 0).isLt
  unfold iblk3
  rw [View.read_apply]
  show V c main_v57 _ = V c main_v57 _
  congr 1
  funext a; apply Fin.ext
  match a with
  | ⟨0, _⟩ => show win3_3.index t (0 : Fin 2) * 1 + 1 * (x 0).val = (k 0).val; omega
  | ⟨1, _⟩ => show win3_3.index t (1 : Fin 2) * 128 + 1 * (x 1).val = (k 1).val; omega

/-- Row window 4's block at every point is the row itself. -/
theorem blk4_apply (c : Dev nD) (t : Fin cfg3.N) (x : S1x128.Idx) (k : S1x128.Idx)
    (hk0 : (k 0).val = 0) (hk1 : (k 1).val = (x 1).val) :
    (iblk3 V c 4 t : Vec Ideal S1x128 .f32) x = (V c main_v58 : S1x128.Idx → EReal) k := by
  obtain ⟨-, -, -, -, -, -, -, -, e0, e1, -⟩ := idx_facts t
  have hx : (x 0).val < 1 := (x 0).isLt
  unfold iblk3
  rw [View.read_apply]
  show V c main_v58 _ = V c main_v58 _
  congr 1
  funext a; apply Fin.ext
  match a with
  | ⟨0, _⟩ => show win3_4.index t (0 : Fin 2) * 1 + 1 * (x 0).val = (k 0).val; omega
  | ⟨1, _⟩ => show win3_4.index t (1 : Fin 2) * 128 + 1 * (x 1).val = (k 1).val; omega

/-- The stored value at an entry of block `t` is the whole-array formula at the entry's place in the array. -/
theorem point_eq (c : Dev nD) (t : Fin cfg3.N) (p : Fin 5000) (q : Fin 128) :
    k3_pay1 (iblk3 V c 0 t) (iblk3 V c 1 t) (iblk3 V c 2 t) (iblk3 V c 3 t) (iblk3 V c 4 t) (ix2 p q)
      = G V c (((cfg3.win 5).blk t).view.emb (ix2 p q)) := by
  obtain ⟨-, -, -, -, -, -, -, -, -, -, e0, e1⟩ := idx_facts t
  have he0 : ((((cfg3.win 5).blk t).view.emb (ix2 p q) : S50000x128.Idx) 0).val = t.val * 5000 + p.val := by
    show win3_5.index t (0 : Fin 2) * 5000 + 1 * p.val = _; omega
  have he1 : ((((cfg3.win 5).blk t).view.emb (ix2 p q) : S50000x128.Idx) 1).val = q.val := by
    show win3_5.index t (1 : Fin 2) * 128 + 1 * q.val = _; omega
  refine (pay_apply (iblk3 V c 0 t) (iblk3 V c 1 t) (iblk3 V c 2 t) (iblk3 V c 3 t) (iblk3 V c 4 t) p q).trans ?_
  rw [blk0_apply V c t (ix2 p q) (ix2 ((((cfg3.win 5).blk t).view.emb (ix2 p q) : S50000x128.Idx) 0) ((((cfg3.win 5).blk t).view.emb (ix2 p q) : S50000x128.Idx) 1)) he0 he1,
    blk1_apply V c t (ix2 0 q) (ix2 0 ((((cfg3.win 5).blk t).view.emb (ix2 p q) : S50000x128.Idx) 1)) rfl he1,
    blk2_apply V c t (ix2 0 q) (ix2 0 ((((cfg3.win 5).blk t).view.emb (ix2 p q) : S50000x128.Idx) 1)) rfl he1,
    blk3_apply V c t (ix2 0 q) (ix2 0 ((((cfg3.win 5).blk t).view.emb (ix2 p q) : S50000x128.Idx) 1)) rfl he1,
    blk4_apply V c t (ix2 0 q) (ix2 0 ((((cfg3.win 5).blk t).view.emb (ix2 p q) : S50000x128.Idx) 1)) rfl he1]
  rfl

/-- What point `t` writes back is block `t` of the whole array `G`. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  exact point_eq V c t p q

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v59).slice (win3_5.rect t)).set ↔ _
  rw [View.set_slice_whole, Rect.mem_set_unit]
  exact Iff.rfl

/-- Row `r` of the array lies in the block of point `r / 5000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the ten points: the normalised, scaled, shifted and clipped pre-activations. -/
theorem out5 (c : Dev nD) : (dat3 (F := Ideal) V c).arrAt 5 cfg3.N = arr2 (normRelu (fn2 (V c main_v50_0 : S50000x128.Idx → EReal)) (row1 (V c main_v52 : S1x128.Idx → EReal)) (row1 (V c main_v56 : S1x128.Idx → EReal)) (row1 (V c main_v57 : S1x128.Idx → EReal)) (row1 (V c main_v58 : S1x128.Idx → EReal))) :=
  (dat3 (F := Ideal) V c).arrAt_eq_of_cover 5 (G V c) (fun t _ => flushed_eq V c t) cover

end Cert.KernelIdeal.BnRelu3
end
-- ==== Proof.Conv4.lean ====
/-
  The last layer's kernel, read as a function of the arrays it is entered with.

  The kernel walks the 50000 rows in ten blocks of 5000. At each block it multiplies the block of node features by
  the first weight matrix and the block of neighbourhood means by the second, each product a sum over the 128
  shared indices, adds the two and adds the bias row broadcast down the block. A change of number format is the
  identity on extended reals, and a product into a zero accumulator is the plain sum. Block `t` holds rows
  `5000 t … 5000 t + 4999`, so the ten blocks tile the array and the array ends holding `h · Ws + a · Wn + b` at
  every row and column: `conv` of the whole arrays.
-/
import proofs.«165639_j20710332301837_1_alg».proof.Proof.Gen.KernelIdeal.Frame
import proofs.«165639_j20710332301837_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Conv4

open Cert.KernelIdeal Cert.KernelIdeal.Gen Cert.Sage

variable (V : (c : Dev nD) → (b : Ref sig .tc) → Buf (Elt Ideal) ((c : Thread nD τ).loc b))

/-- The zero offsets of a whole-block rectangle. -/
theorem hz : (![0, 0] : Fin 2 → Nat) = fun _ => 0 := funext fun a => by fin_cases a <;> rfl

/-- The bias row broadcast down the block reads the row's entry in the same column. -/
theorem bcast_row (x : S1x64.Idx → EReal) (p : Fin 5000) (q : Fin 64) :
    broadcastTo S5000x64 x broadcasts_S1x64_S5000x64 (ix2 p q) = x (ix2 0 q) :=
  broadcastTo_apply x _ (ix2 p q) (ix2 0 q) (fun a => by match a with | ⟨0, _⟩ => rfl | ⟨1, _⟩ => rfl)

/-- The left operand's index at output entry `i` and contracted index `k`: row `i 0` … -/
theorem lhs_0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … column `k`. -/
theorem lhs_1 (i : S5000x64.Idx) (k : dot_S5000x128_S128x64_S5000x64_1_0_0_1_n_n.contr.Idx) : (dot_S5000x128_S128x64_S5000x64_1_0_0_1_n_n.lhsIdx i k 1).val = (k ⟨0, by decide⟩).val :=
  dot_S5000x128_S128x64_S5000x64_1_0_0_1_n_n.lhsIdx_val_of_single rfl i k
/-- The right operand's index: row `k` … -/
theorem rhs_0 (i : S5000x64.Idx) (k : dot_S5000x128_S128x64_S5000x64_1_0_0_1_n_n.contr.Idx) : (dot_S5000x128_S128x64_S5000x64_1_0_0_1_n_n.rhsIdx i k 0).val = (k ⟨0, by decide⟩).val :=
  dot_S5000x128_S128x64_S5000x64_1_0_0_1_n_n.rhsIdx_val_of_single rfl i k
/-- … column `i 1`. -/
theorem rhs_1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product into the zero accumulator, at row `p` and column `q`, is the sum over the 128 contracted indices. -/
theorem mm_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored value at row `p`, column `q` of a block: the two products summed, plus the bias. -/
theorem pay_apply (x0 x1 : Vec Ideal S5000x128 .f32) (x2 x3 : Vec Ideal S128x64 .f32) (x4 : Vec Ideal S1x64 .f32) (p : Fin 5000) (q : Fin 64) :
    k4_pay1 x0 x1 x2 x3 x4 (ix2 p q)
      = ((∑ k : Fin 128, x0 (ix2 p k) * x2 (ix2 k q)) + (∑ k : Fin 128, x1 (ix2 p k) * x3 (ix2 k q))) + x4 (ix2 0 q) := by
  unfold k4_pay1
  simp only [shapeCast_self, addf_apply, mm_apply, truncf_apply, bcast_row]

/-- The whole array the output ends holding. -/
abbrev G (c : Dev nD) : S50000x64.Idx → EReal :=
  arr2 (conv (fn2 (V c main_v59 : S50000x128.Idx → EReal)) (fn2 (V c main_v78 : S50000x128.Idx → EReal)) (fn2 (V c main_arg9 : S128x64.Idx → EReal)) (fn2 (V c main_arg10 : S128x64.Idx → EReal)) (row1 (V c main_v79 : S1x64.Idx → EReal)))

/-- The block indices over the grid: the two feature arrays and the output move one block of rows per point, the two
    weight matrices and the bias row stay in place. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The block of node features at point `t` is rows `5000 t …` of the array. -/
theorem blk0_apply (c : Dev nD) (t : Fin cfg4.N) (x : S5000x128.Idx) (k : S50000x128.Idx)
    (hk0 : (k 0).val = t.val * 5000 + (x 0).val) (hk1 : (k 1).val = (x 1).val) :
    (iblk4 V c 0 t : Vec Ideal S5000x128 .f32) x = (V c main_v59 : S50000x128.Idx → EReal) k := by
  obtain ⟨e0, e1, -⟩ := idx_facts t
  unfold iblk4
  rw [View.read_apply]
  show V c main_v59 _ = V c main_v59 _
  congr 1
  funext a; apply Fin.ext
  match a with
  | ⟨0, _⟩ => show win4_0.index t (0 : Fin 2) * 5000 + 1 * (x 0).val = (k 0).val; omega
  | ⟨1, _⟩ => show win4_0.index t (1 : Fin 2) * 128 + 1 * (x 1).val = (k 1).val; omega

/-- The block of neighbourhood means at point `t` is rows `5000 t …` of the array. -/
theorem blk1_apply (c : Dev nD) (t : Fin cfg4.N) (x : S5000x128.Idx) (k : S50000x128.Idx)
    (hk0 : (k 0).val = t.val * 5000 + (x 0).val) (hk1 : (k 1).val = (x 1).val) :
    (iblk4 V c 1 t : Vec Ideal S5000x128 .f32) x = (V c main_v78 : S50000x128.Idx → EReal) k := by
  obtain ⟨-, -, e0, e1, -⟩ := idx_facts t
  unfold iblk4
  rw [View.read_apply]
  show V c main_v78 _ = V c main_v78 _
  congr 1
  funext a; apply Fin.ext
  match a with
  | ⟨0, _⟩ => show win4_1.index t (0 : Fin 2) * 5000 + 1 * (x 0).val = (k 0).val; omega
  | ⟨1, _⟩ => show win4_1.index t (1 : Fin 2) * 128 + 1 * (x 1).val = (k 1).val; omega

/-- The first weight matrix's block at every point is the matrix itself. -/
theorem blk2_apply (c : Dev nD) (t : Fin cfg4.N) (x : S128x64.Idx) (k : S128x64.Idx)
    (hk0 : (k 0).val = (x 0).val) (hk1 : (k 1).val = (x 1).val) :
    (iblk4 V c 2 t : Vec Ideal S128x64 .f32) x = (V c main_arg9 : S128x64.Idx → EReal) k := by
  obtain ⟨-, -, -, -, e0, e1, -⟩ := idx_facts t
  unfold iblk4
  rw [View.read_apply]
  show V c main_arg9 _ = V c main_arg9 _
  congr 1
  funext a; apply Fin.ext
  match a with
  | ⟨0, _⟩ => show win4_2.index t (0 : Fin 2) * 128 + 1 * (x 0).val = (k 0).val; omega
  | ⟨1, _⟩ => show win4_2.index t (1 : Fin 2) * 64 + 1 * (x 1).val = (k 1).val; omega

/-- The second weight matrix's block at every point is the matrix itself. -/
theorem blk3_apply (c : Dev nD) (t : Fin cfg4.N) (x : S128x64.Idx) (k : S128x64.Idx)
    (hk0 : (k 0).val = (x 0).val) (hk1 : (k 1).val = (x 1).val) :
    (iblk4 V c 3 t : Vec Ideal S128x64 .f32) x = (V c main_arg10 : S128x64.Idx → EReal) k := by
  obtain ⟨-, -, -, -, -, -, e0, e1, -⟩ := idx_facts t
  unfold iblk4
  rw [View.read_apply]
  show V c main_arg10 _ = V c main_arg10 _
  congr 1
  funext a; apply Fin.ext
  match a with
  | ⟨0, _⟩ => show win4_3.index t (0 : Fin 2) * 128 + 1 * (x 0).val = (k 0).val; omega
  | ⟨1, _⟩ => show win4_3.index t (1 : Fin 2) * 64 + 1 * (x 1).val = (k 1).val; omega

/-- The bias row's block at every point is the row itself. -/
theorem blk4_apply (c : Dev nD) (t : Fin cfg4.N) (x : S1x64.Idx) (k : S1x64.Idx)
    (hk0 : (k 0).val = 0) (hk1 : (k 1).val = (x 1).val) :
    (iblk4 V c 4 t : Vec Ideal S1x64 .f32) x = (V c main_v79 : S1x64.Idx → EReal) k := by
  obtain ⟨-, -, -, -, -, -, -, -, e0, e1, -⟩ := idx_facts t
  have hx : (x 0).val < 1 := (x 0).isLt
  unfold iblk4
  rw [View.read_apply]
  show V c main_v79 _ = V c main_v79 _
  congr 1
  funext a; apply Fin.ext
  match a with
  | ⟨0, _⟩ => show win4_4.index t (0 : Fin 2) * 1 + 1 * (x 0).val = (k 0).val; omega
  | ⟨1, _⟩ => show win4_4.index t (1 : Fin 2) * 64 + 1 * (x 1).val = (k 1).val; omega

/-- The stored value at an entry of block `t` is the whole-array formula at the entry's place in the array. -/
theorem point_eq (c : Dev nD) (t : Fin cfg4.N) (p : Fin 5000) (q : Fin 64) :
    k4_pay1 (iblk4 V c 0 t) (iblk4 V c 1 t) (iblk4 V c 2 t) (iblk4 V c 3 t) (iblk4 V c 4 t) (ix2 p q)
      = G V c (((cfg4.win 5).blk t).view.emb (ix2 p q)) := by
  obtain ⟨-, -, -, -, -, -, -, -, -, -, e0, e1⟩ := idx_facts t
  have he0 : ((((cfg4.win 5).blk t).view.emb (ix2 p q) : S50000x64.Idx) 0).val = t.val * 5000 + p.val := by
    show win4_5.index t (0 : Fin 2) * 5000 + 1 * p.val = _; omega
  have he1 : ((((cfg4.win 5).blk t).view.emb (ix2 p q) : S50000x64.Idx) 1).val = q.val := by
    show win4_5.index t (1 : Fin 2) * 64 + 1 * q.val = _; omega
  refine (pay_apply (iblk4 V c 0 t) (iblk4 V c 1 t) (iblk4 V c 2 t) (iblk4 V c 3 t) (iblk4 V c 4 t) p q).trans ?_
  rw [blk4_apply V c t (ix2 0 q) (ix2 0 ((((cfg4.win 5).blk t).view.emb (ix2 p q) : S50000x64.Idx) 1)) rfl he1]
  refine congrArg (· + _) (congrArg₂ (· + ·) (Finset.sum_congr rfl fun k _ => ?_) (Finset.sum_congr rfl fun k _ => ?_))
  · rw [blk0_apply V c t (ix2 p k) (ix2 ((((cfg4.win 5).blk t).view.emb (ix2 p q) : S50000x64.Idx) 0) k) he0 rfl,
      blk2_apply V c t (ix2 k q) (ix2 k ((((cfg4.win 5).blk t).view.emb (ix2 p q) : S50000x64.Idx) 1)) rfl he1]
    rfl
  · rw [blk1_apply V c t (ix2 p k) (ix2 ((((cfg4.win 5).blk t).view.emb (ix2 p q) : S50000x64.Idx) 0) k) he0 rfl,
      blk3_apply V c t (ix2 k q) (ix2 k ((((cfg4.win 5).blk t).view.emb (ix2 p q) : S50000x64.Idx) 1)) rfl he1]
    rfl

/-- What point `t` writes back is block `t` of the whole array `G`. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  exact point_eq V c t p q

/-- An index of the array is in point `t`'s block iff each coordinate is in the block's range on its axis. -/
theorem mem_blk (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v80).slice (win4_5.rect t)).set ↔ _
  rw [View.set_slice_whole, Rect.mem_set_unit]
  exact Iff.rfl

/-- Row `r` of the array lies in the block of point `r / 5000`. -/
theorem cover (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := idx_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The output array after the ten points: node features times the first weights, plus neighbourhood means times the
    second, plus the bias, at every row and column. -/
theorem out5 (c : Dev nD) : (dat4 (F := Ideal) V c).arrAt 5 cfg4.N = arr2 (conv (fn2 (V c main_v59 : S50000x128.Idx → EReal)) (fn2 (V c main_v78 : S50000x128.Idx → EReal)) (fn2 (V c main_arg9 : S128x64.Idx → EReal)) (fn2 (V c main_arg10 : S128x64.Idx → EReal)) (row1 (V c main_v79 : S1x64.Idx → EReal))) :=
  (dat4 (F := Ideal) V c).arrAt_eq_of_cover 5 (G V c) (fun t _ => flushed_eq V c t) cover

end Cert.KernelIdeal.Conv4
end
-- ==== Proof.KHost3.lean ====
/-
  The rows the second normalisation kernel is entered with, as functions of what the layer's first kernel left.

  Between the two kernels of a layer the program divides the row of column sums and the row of sums of squares by
  the number of nodes, takes the mean of the squares minus the square of the mean, and gives the scale and shift
  vectors a leading axis of extent one. Read at a column these are `meanOf`, `varOfSums` and the two vectors
  themselves: a division of rows is entry by entry, a scalar broadcast to a row reads the scalar at every column,
  and a vector given a leading unit axis reads the vector at the same column.
-/
import proofs.«165639_j20710332301837_1_alg».proof.Proof.Gen.KernelIdeal.Frame
import proofs.«165639_j20710332301837_1_alg».proof.Proof.Spec
import Idealize.ShloMosaic.Lib.StableHlo.Run
import Idealize.ShloMosaic.Lib.Tactic
import Idealize.ShloMosaic.Lib.ValueLayout
import Idealize.ShloMosaic.Lib.ValueIdx

noncomputable section

namespace Cert.KernelIdeal.Host3

open Cert.KernelIdeal Cert.KernelIdeal.Gen Cert.Sage
open Idealize.ShloMosaic Idealize.ShloMosaic.TcCoe Idealize.SL.Sem Idealize.ShloMosaic.Tactic Idealize.ShloMosaic.ValueIdx

variable (m : (ℓ : Loc nD τ sig) → Buf (Elt Ideal) ℓ) (ρ : Dev nD → PrngReg) (c : Dev nD)

/-- The number of nodes broadcast to a row reads the number of nodes at every column. -/
theorem nodes_row (j : S1x128.Idx) :
    broadcastInDim S1x128 ![] bcast_S_S1x128 (constant (F := Ideal) S_ .f32 0x47435000#32) j = nodesW :=
  broadcastInDim_apply ![] bcast_S_S1x128 (constant (F := Ideal) S_ .f32 0x47435000#32) j (fun a => a.elim0) (fun a => a.elim0)

/-- The mean row as the program computes it: the column sums divided by the number of nodes. -/
theorem mean_arr : (V7 m ρ c main_v52 : S1x128.Idx → EReal)
    = Host.divf (W6 m ρ c (Proc.devRef .tc main_v50_1) : S1x128.Idx → EReal) (broadcastInDim S1x128 ![] bcast_S_S1x128 (constant (F := Ideal) S_ .f32 0x47435000#32)) := by
  show StableHlo.after hostOps3 (W6 m ρ c) (Proc.devRef .tc main_v52) = _
  after_results

/-- The variance row as the program computes it: the sums of squares divided by the number of nodes, minus the
    square of the mean. -/
theorem var_arr : (V7 m ρ c main_v56 : S1x128.Idx → EReal)
    = subf (Host.divf (W6 m ρ c (Proc.devRef .tc main_v50_2) : S1x128.Idx → EReal) (broadcastInDim S1x128 ![] bcast_S_S1x128 (constant (F := Ideal) S_ .f32 0x47435000#32)))
        (mulf (Host.divf (W6 m ρ c (Proc.devRef .tc main_v50_1) : S1x128.Idx → EReal) (broadcastInDim S1x128 ![] bcast_S_S1x128 (constant (F := Ideal) S_ .f32 0x47435000#32)))
          (Host.divf (W6 m ρ c (Proc.devRef .tc main_v50_1) : S1x128.Idx → EReal) (broadcastInDim S1x128 ![] bcast_S_S1x128 (constant (F := Ideal) S_ .f32 0x47435000#32)))) := by
  show StableHlo.after hostOps3 (W6 m ρ c) (Proc.devRef .tc main_v56) = _
  after_results

/-- The scale row as the program computes it: the scale vector given a leading axis of extent one. -/
theorem scale_arr : (V7 m ρ c main_v57 : S1x128.Idx → EReal)
    = shapeCast S1x128 (W6 m ρ c (Proc.devRef .tc main_arg14) : S128.Idx → EReal) shapeCasts_S128_S1x128 := by
  show StableHlo.after hostOps3 (W6 m ρ c) (Proc.devRef .tc main_v57) = _
  after_results
  rfl

/-- The shift row as the program computes it: the shift vector given a leading axis of extent one. -/
theorem shift_arr : (V7 m ρ c main_v58 : S1x128.Idx → EReal)
    = shapeCast S1x128 (W6 m ρ c (Proc.devRef .tc main_arg15) : S128.Idx → EReal) shapeCasts_S128_S1x128 := by
  show StableHlo.after hostOps3 (W6 m ρ c) (Proc.devRef .tc main_v58) = _
  after_results
  rfl

/-- The mean row the normalisation kernel is entered with is the mean of the column sums. -/
theorem mean_row : row1 (V7 m ρ c main_v52 : S1x128.Idx → EReal) = meanOf (row1 (W6 m ρ c (Proc.devRef .tc main_v50_1) : S1x128.Idx → EReal)) := by
  rw [mean_arr]
  funext q
  show Ideal.div _ (broadcastInDim S1x128 ![] bcast_S_S1x128 (constant (F := Ideal) S_ .f32 0x47435000#32) (ix2 0 q)) = Ideal.div _ nodesW
  rw [nodes_row]
  rfl

/-- The variance row it is entered with is the mean of the squares minus the square of the mean. -/
theorem var_row : row1 (V7 m ρ c main_v56 : S1x128.Idx → EReal) = varOfSums (row1 (W6 m ρ c (Proc.devRef .tc main_v50_1) : S1x128.Idx → EReal)) (row1 (W6 m ρ c (Proc.devRef .tc main_v50_2) : S1x128.Idx → EReal)) := by
  rw [var_arr]
  funext q
  show Ideal.div _ (broadcastInDim S1x128 ![] bcast_S_S1x128 (constant (F := Ideal) S_ .f32 0x47435000#32) (ix2 0 q))
      - Ideal.div _ (broadcastInDim S1x128 ![] bcast_S_S1x128 (constant (F := Ideal) S_ .f32 0x47435000#32) (ix2 0 q))
        * Ideal.div _ (broadcastInDim S1x128 ![] bcast_S_S1x128 (constant (F := Ideal) S_ .f32 0x47435000#32) (ix2 0 q))
    = Ideal.div _ nodesW - Ideal.div _ nodesW * Ideal.div _ nodesW
  rw [nodes_row]
  rfl

/-- The scale row it is entered with is the scale vector. -/
theorem scale_row : row1 (V7 m ρ c main_v57 : S1x128.Idx → EReal) = fn1 (W6 m ρ c (Proc.devRef .tc main_arg14) : S128.Idx → EReal) := by
  rw [scale_arr]
  funext q
  exact shapeCast_a_1a_apply _ shapeCasts_S128_S1x128 0 q

/-- The shift row it is entered with is the shift vector. -/
theorem shift_row : row1 (V7 m ρ c main_v58 : S1x128.Idx → EReal) = fn1 (W6 m ρ c (Proc.devRef .tc main_arg15) : S128.Idx → EReal) := by
  rw [shift_arr]
  funext q
  exact shapeCast_a_1a_apply _ shapeCasts_S128_S1x128 0 q

end Cert.KernelIdeal.Host3
end
-- ==== Proof.KValueB.lean ====
/-
  The kernel program's values, second half: the second layer (third and fourth kernel) and the last layer before
  normalisation (fifth kernel), ending with the result array as the three-layer network of the argument arrays, the
  variance taken as the mean of the squares minus the square of the mean.
-/
import proofs.«165639_j20710332301837_1_alg».proof.Proof.KValueA
import proofs.«165639_j20710332301837_1_alg».proof.Proof.ConvStats2
import proofs.«165639_j20710332301837_1_alg».proof.Proof.BnRelu3
import proofs.«165639_j20710332301837_1_alg».proof.Proof.Conv4
import proofs.«165639_j20710332301837_1_alg».proof.Proof.KHost3

set_option maxRecDepth 16384

noncomputable section

namespace Cert.KernelIdeal.KValue

open Cert.KernelIdeal Cert.KernelIdeal.Gen Cert.Sage
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The second layer before normalisation, and the second layer. -/
def z1 : Mat 50000 128 := conv (h1 m c) (aggM m c (h1 m c)) (fn2 (aWs1 m c)) (fn2 (aWn1 m c)) (fn1 (aB1 m c))
def h2 : Mat 50000 128 :=
  layerSums (aggM m c) (h1 m c) (fn2 (aWs1 m c)) (fn2 (aWn1 m c)) (fn1 (aB1 m c)) (fn1 (aG1 m c)) (fn1 (aBe1 m c))

theorem h2_eq : h2 m c = normRelu (z1 m c) (meanOf (colSum (z1 m c))) (varOfSums (colSum (z1 m c)) (colSumSq (z1 m c)))
    (fn1 (aG1 m c)) (fn1 (aBe1 m c)) := rfl

/-! ## Between the second and the third kernel -/

set_option maxHeartbeats 2000000 in
theorem v5_h1 : (V5 m ρ c main_v29 : S50000x128.Idx → EReal) = arr2 (h1 m c) :=
  (Keep.skip2_main_v29 (W4 m ρ c)).trans (w4_h1 m ρ c)

set_option maxHeartbeats 2000000 in
theorem v5_agg : (V5 m ρ c main_v48 : S50000x128.Idx → EReal) = Agg.mean (arr2 (h1 m c)) (aSrc m c) (aDst m c) := by
  rw [HostA.agg2 m ρ c, w4_h1 m ρ c, Keep.W4_arg1 m ρ c, Keep.W4_arg2 m ρ c]

/-! ## The third kernel -/

set_option maxHeartbeats 2000000 in
theorem pre2 : ConvStats2.pre (V5 m ρ) c = z1 m c := by
  have e0 := v5_h1 m ρ c
  have e1 := v5_agg m ρ c
  have e3 : (V5 m ρ c main_arg6 : S128x128.Idx → EReal) = aWs1 m c := Keep.W5_arg6 m ρ c
  have e4 : (V5 m ρ c main_arg7 : S128x128.Idx → EReal) = aWn1 m c := Keep.W5_arg7 m ρ c
  have e5 : row1 (V5 m ρ c main_v49 : S1x128.Idx → EReal) = fn1 (aB1 m c) :=
    (HostA.bias2 m ρ c).trans (congrArg fn1 (Keep.W4_arg8 m ρ c))
  unfold ConvStats2.pre z1 aggM
  rw [e0, e1, e3, e4, e5, fn2_arr2]

set_option maxHeartbeats 2000000 in
theorem w6_pre : (W6 m ρ c (Proc.devRef .tc main_v50_0) : S50000x128.Idx → EReal) = arr2 (z1 m c) :=
  (W6_arr m ρ c 5).trans ((ConvStats2.out5 (V5 m ρ) c).trans (congrArg arr2 (pre2 m ρ c)))

set_option maxHeartbeats 2000000 in
theorem w6_sum : (W6 m ρ c (Proc.devRef .tc main_v50_1) : S1x128.Idx → EReal) = arrRow (colSum (z1 m c)) :=
  (W6_arr m ρ c 6).trans ((ConvStats2.out6 (V5 m ρ) c).trans (congrArg (fun z => arrRow (colSum z)) (pre2 m ρ c)))

set_option maxHeartbeats 2000000 in
theorem w6_sumsq : (W6 m ρ c (Proc.devRef .tc main_v50_2) : S1x128.Idx → EReal) = arrRow (colSumSq (z1 m c)) :=
  (W6_arr m ρ c 7).trans ((ConvStats2.out7 (V5 m ρ) c).trans (congrArg (fun z => arrRow (colSumSq z)) (pre2 m ρ c)))

/-! ## Between the third and the fourth kernel -/

set_option maxHeartbeats 2000000 in
theorem v7_pre : (V7 m ρ c main_v50_0 : S50000x128.Idx → EReal) = arr2 (z1 m c) :=
  (Keep.skip3_main_v50_0 (W6 m ρ c)).trans (w6_pre m ρ c)

set_option maxHeartbeats 2000000 in
theorem v7_mu : row1 (V7 m ρ c main_v52 : S1x128.Idx → EReal) = meanOf (colSum (z1 m c)) := by
  rw [Host3.mean_row m ρ c, w6_sum m ρ c, row1_arrRow]

set_option maxHeartbeats 2000000 in
theorem v7_var : row1 (V7 m ρ c main_v56 : S1x128.Idx → EReal) = varOfSums (colSum (z1 m c)) (colSumSq (z1 m c)) := by
  rw [Host3.var_row m ρ c, w6_sum m ρ c, w6_sumsq m ρ c, row1_arrRow, row1_arrRow]

set_option maxHeartbeats 2000000 in
theorem v7_g : row1 (V7 m ρ c main_v57 : S1x128.Idx → EReal) = fn1 (aG1 m c) :=
  (Host3.scale_row m ρ c).trans (congrArg fn1 (Keep.W6_arg14 m ρ c))

set_option maxHeartbeats 2000000 in
theorem v7_be : row1 (V7 m ρ c main_v58 : S1x128.Idx → EReal) = fn1 (aBe1 m c) :=
  (Host3.shift_row m ρ c).trans (congrArg fn1 (Keep.W6_arg15 m ρ c))

/-! ## The fourth kernel -/

set_option maxHeartbeats 2000000 in
theorem w8_h2 : (W8 m ρ c (Proc.devRef .tc main_v59) : S50000x128.Idx → EReal) = arr2 (h2 m c) := by
  refine (W8_arr m ρ c 5).trans ((BnRelu3.out5 (V7 m ρ) c).trans (congrArg arr2 ?_))
  rw [v7_pre m ρ c, v7_mu m ρ c, v7_var m ρ c, v7_g m ρ c, v7_be m ρ c, fn2_arr2, h2_eq]

/-! ## Between the fourth and the fifth kernel, and the fifth kernel -/

set_option maxHeartbeats 2000000 in
theorem v9_h2 : (V9 m ρ c main_v59 : S50000x128.Idx → EReal) = arr2 (h2 m c) :=
  (Keep.skip4_main_v59 (W8 m ρ c)).trans (w8_h2 m ρ c)

set_option maxHeartbeats 2000000 in
theorem v9_agg : (V9 m ρ c main_v78 : S50000x128.Idx → EReal) = Agg.mean (arr2 (h2 m c)) (aSrc m c) (aDst m c) := by
  rw [HostA.agg4 m ρ c, w8_h2 m ρ c, Keep.W8_arg1 m ρ c, Keep.W8_arg2 m ρ c]

/-- The network the kernel program computes. -/
def netK : Mat 50000 64 :=
  net (layerSums (aggM m c)) (aggM m c) (fn2 (aX m c)) (fn2 (aWs0 m c)) (fn2 (aWn0 m c)) (fn1 (aB0 m c)) (fn1 (aG0 m c))
    (fn1 (aBe0 m c)) (fn2 (aWs1 m c)) (fn2 (aWn1 m c)) (fn1 (aB1 m c)) (fn1 (aG1 m c)) (fn1 (aBe1 m c)) (fn2 (aWs2 m c))
    (fn2 (aWn2 m c)) (fn1 (aB2 m c))

theorem netK_eq : netK m c = conv (h2 m c) (aggM m c (h2 m c)) (fn2 (aWs2 m c)) (fn2 (aWn2 m c)) (fn1 (aB2 m c)) := rfl

set_option maxHeartbeats 2000000 in
/-- The result array ends at the network of the argument arrays. -/
theorem result : (W10 m ρ c (Proc.devRef .tc main_v80) : S50000x64.Idx → EReal) = arr2 (netK m c) := by
  refine (W10_arr m ρ c 5).trans ((Conv4.out5 (V9 m ρ) c).trans (congrArg arr2 ?_))
  have e3 : (V9 m ρ c main_arg9 : S128x64.Idx → EReal) = aWs2 m c := Keep.W9_arg9 m ρ c
  have e4 : (V9 m ρ c main_arg10 : S128x64.Idx → EReal) = aWn2 m c := Keep.W9_arg10 m ρ c
  have e5 : row1 (V9 m ρ c main_v79 : S1x64.Idx → EReal) = fn1 (aB2 m c) :=
    (HostA.bias4 m ρ c).trans (congrArg fn1 (Keep.W8_arg11 m ρ c))
  rw [v9_h2 m ρ c, v9_agg m ρ c, e3, e4, e5, fn2_arr2, netK_eq]
  unfold aggM
  rfl

end Cert.KernelIdeal.KValue

end
-- ==== Proof.lean ====
/-
  The certificate of a three-layer graph network: each layer adds to the node features times one weight matrix the
  neighbourhood means times another and a shift; the first two layers are then normalised column by column (subtract
  the column's mean, scale by the inverse square root of its variance plus a small constant, apply a learned scale
  and shift) and clipped below at zero.

  The kernel program computes each layer before normalisation in row blocks of 5000 nodes, accumulating beside it the
  column sums and the column sums of squares over the ten blocks, takes the variance as the mean of the squares minus
  the square of the mean, and normalises in a second pass. The reference takes the variance as the mean of the squared
  deviations from the mean. Over the extended reals the block sums regroup into whole-column sums without any
  condition; the two variances agree where every entry is a real number, which the precondition gives for the
  arguments and which each layer preserves (the neighbourhood mean divides finite sums by an edge count of at least
  one; the square root's argument is a non-negative variance plus a positive constant).

  The three frames are the generated ones (the reference's is its run with the result dropped); the idealisation
  rewrote nothing, so its claim is trivial; the equivalence names as common result the network of the kernel
  program's arguments, reaches it on the kernel side through the run of the five kernels and the operations between
  them, and on the reference side through the reference's run read back, the agreement of the arguments, and the
  law of the two variances.
-/
import proofs.«165639_j20710332301837_1_alg».proof.Defs
import proofs.«165639_j20710332301837_1_alg».proof.Proof.Gen.Kernel
import proofs.«165639_j20710332301837_1_alg».proof.Proof.Gen.Kernel.Skeleton
import proofs.«165639_j20710332301837_1_alg».proof.Proof.Gen.Kernel.Launch
import proofs.«165639_j20710332301837_1_alg».proof.Proof.Gen.Kernel.Points
import proofs.«165639_j20710332301837_1_alg».proof.Proof.Gen.Kernel.Frame
import proofs.«165639_j20710332301837_1_alg».proof.Proof.Gen.KernelIdeal
import proofs.«165639_j20710332301837_1_alg».proof.Proof.Gen.KernelIdeal.Skeleton
import proofs.«165639_j20710332301837_1_alg».proof.Proof.Gen.KernelIdeal.Launch
import proofs.«165639_j20710332301837_1_alg».proof.Proof.Gen.KernelIdeal.Points
import proofs.«165639_j20710332301837_1_alg».proof.Proof.Gen.KernelIdeal.Frame
import proofs.«165639_j20710332301837_1_alg».proof.Proof.Gen.ReferenceIdeal
import proofs.«165639_j20710332301837_1_alg».proof.Proof.Gen.Pre_finite_inputs
import proofs.«165639_j20710332301837_1_alg».proof.Proof.Gen.ReferenceIdeal.Read
import proofs.«165639_j20710332301837_1_alg».proof.Proof.Spec
import proofs.«165639_j20710332301837_1_alg».proof.Proof.RefFrame
import proofs.«165639_j20710332301837_1_alg».proof.Proof.Bridge
import proofs.«165639_j20710332301837_1_alg».proof.Proof.KRun
import proofs.«165639_j20710332301837_1_alg».proof.Proof.KValueB
import Idealize.ShloMosaic.Adequacy
import Idealize.ShloMosaic.Init

noncomputable section

namespace Cert.Proof

open Idealize.ShloMosaic Idealize.SL.Sem Cert.Sage

theorem frame_p : Cert.frame_Kernel := fun m ρ _ => Cert.Kernel.Gen.frame m ρ
theorem frame_pi : Cert.frame_KernelIdeal := fun m ρ _ => Cert.KernelIdeal.Gen.frame m ρ

set_option maxHeartbeats 4000000 in
/-- Both idealised programs end with the network of the kernel program's arguments in their result arrays. -/
theorem algebraic : Cert.algebraic_KernelIdeal_ReferenceIdeal := by
  intro m ρ m' ρ' hpre hagree
  refine ⟨fun c => arr2 (Cert.KernelIdeal.KValue.netK m c), ?_, ?_⟩
  · exact (θ_run Cert.KernelIdeal.defs _ _).mono
      (fun _ h c => ⟨(h c).1.trans (Cert.KernelIdeal.KValue.result m ρ c), (h c).2⟩)
      (Cert.KernelIdeal.Run.run_result (F := Ideal) m ρ)
  · exact (θ_run Cert.ReferenceIdeal.defs _ _).mono
      (fun _ hr c => ⟨(hr c).1.trans (Cert.Proof.Bridge.ref_result m m' hpre c (hagree c)), (hr c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, Cert.Proof.RefFrame.frame_ri, trivial, algebraic⟩

end Cert.Proof

end
